-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S512x256 .f32) (main_arg3 : FVec F S256 .f32) (main_arg4 : FVec F S256x64 .f32) (main_arg5 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S8192x256 : Shape := ⟨2, ![8192, 256]⟩
abbrev S2048x512 : Shape := ⟨2, ![2048, 512]⟩
abbrev S2048x256 : Shape := ⟨2, ![2048, 256]⟩
abbrev S1x256 : Shape := ⟨2, ![1, 256]⟩
abbrev S8192x64 : Shape := ⟨2, ![8192, 64]⟩
abbrev S1024x4096 : Shape := ⟨2, ![1024, 4096]⟩
abbrev S1024x64 : Shape := ⟨2, ![1024, 64]⟩
abbrev S1024x256 : Shape := ⟨2, ![1024, 256]⟩
abbrev S4096x256 : Shape := ⟨2, ![4096, 256]⟩
abbrev S4096x64 : Shape := ⟨2, ![4096, 64]⟩
abbrev S1x64 : Shape := ⟨2, ![1, 64]⟩
abbrev S2048x2048 : Shape := ⟨2, ![2048, 2048]⟩
abbrev S2048x64 : Shape := ⟨2, ![2048, 64]⟩

abbrev nBuf : Space → Nat
  | .hbm => 12
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S_, .f32⟩
  | .hbm, ⟨7, _⟩ => ⟨S256, .f32⟩
  | .hbm, ⟨8, _⟩ => ⟨S8192x256, .f32⟩
  | .hbm, ⟨9, _⟩ => ⟨S8192x64, .f32⟩
  | .hbm, ⟨10, _⟩ => ⟨S8192x64, .f32⟩
  | .hbm, ⟨11, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S256, .f32⟩
  | .local _ .vmem, ⟨4, _⟩ => ⟨S2048x256, .f32⟩
  | .local _ .vmem, ⟨5, _⟩ => ⟨S2048x256, .f32⟩
  | .local _ .vmem, ⟨6, _⟩ => ⟨S1024x4096, .f32⟩
  | .local _ .vmem, ⟨7, _⟩ => ⟨S1024x4096, .f32⟩
  | .local _ .vmem, ⟨8, _⟩ => ⟨S8192x256, .f32⟩
  | .local _ .vmem, ⟨9, _⟩ => ⟨S256, .f32⟩
  | .local _ .vmem, ⟨10, _⟩ => ⟨S256x64, .f32⟩
  | .local _ .vmem, ⟨11, _⟩ => ⟨S1024x64, .f32⟩
  | .local _ .vmem, ⟨12, _⟩ => ⟨S1024x64, .f32⟩
  | .local _ .vmem, ⟨13, _⟩ => ⟨S1024x256, .f32⟩
  | .local _ .vmem, ⟨14, _⟩ => ⟨S1024x4096, .f32⟩
  | .local _ .vmem, ⟨15, _⟩ => ⟨S1024x4096, .f32⟩
  | .local _ .vmem, ⟨16, _⟩ => ⟨S8192x64, .f32⟩
  | .local _ .vmem, ⟨17, _⟩ => ⟨S64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S8192x64, .f32⟩
  | .local _ .vmem, ⟨22, _⟩ => ⟨S8192x64, .f32⟩
  | .local _ .vmem, ⟨23, _⟩ => ⟨S2048x2048, .f32⟩
  | .local _ .vmem, ⟨24, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def k1_mult1 (i : grid1.Coords) : BitVec 32 :=
  let arg1 : BitVec 32 := BitVec.ofNat 32 (i 1).val
  let c4096_i32 : BitVec 32 := 4096#32
  let v3 : BitVec 32 := Scalar.muli arg1 c4096_i32
  v3
def k1_off1 (i : grid1.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 2], ![false, false]⟩

def k2_mult1 (i : grid2.Coords) : BitVec 32 :=
  let arg1 : BitVec 32 := BitVec.ofNat 32 (i 1).val
  let c4096_i32 : BitVec 32 := 4096#32
  let v3 : BitVec 32 := Scalar.muli arg1 c4096_i32
  v3
def k2_off1 (i : grid2.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_mult1 (i : grid3.Coords) : BitVec 32 :=
  let arg0 : BitVec 32 := BitVec.ofNat 32 (i 0).val
  let c2048_i32 : BitVec 32 := 2048#32
  let v0 : BitVec 32 := Scalar.muli arg0 c2048_i32
  v0
def k3_mult2 (i : grid3.Coords) : BitVec 32 :=
  let arg1 : BitVec 32 := BitVec.ofNat 32 (i 1).val
  let c2048_i32_0 : BitVec 32 := 2048#32
  let v2 : BitVec 32 := Scalar.muli arg1 c2048_i32_0
  v2
def k3_off1 (i : grid3.Coords) : Fin 2 → Nat :=
  let arg0 : BitVec 32 := BitVec.ofNat 32 (i 0).val
  let c2048_i32 : BitVec 32 := 2048#32
  let v0 : BitVec 32 := Scalar.muli arg0 c2048_i32
  let v1 : BitVec 32 := v0
  let v4 : Index := Scalar.indexCast v1
  let c0 : Index := 0#32
  ![v4.toNat, 0]
def k3_off2 (i : grid3.Coords) : Fin 2 → Nat :=
  let arg1 : BitVec 32 := BitVec.ofNat 32 (i 1).val
  let c2048_i32_0 : BitVec 32 := 2048#32
  let v2 : BitVec 32 := Scalar.muli arg1 c2048_i32_0
  let v3 : BitVec 32 := v2
  let v7 : Index := Scalar.indexCast v3
  let c0_1 : Index := 0#32
  ![v7.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S8192x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S8192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2048x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S256 : S_.BroadcastsInDim S256 (![] : Fin 0 → Fin S256.rank)
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S4096x256 : 0 < S4096x256.numel
  shapeCasts_S4096x256_S4096x256 : S4096x256.ShapeCasts S4096x256
  inb_S1024x4096_S1024x4096_0_0 : ∀ a, (![0, 0] : Fin 2 → Nat) a + S1024x4096.size a ≤ S1024x4096.size a
  h_S1024x4096 : 0 < S1024x4096.numel
  broadcasts_S1x256_S1024x256 : S1x256.Broadcasts S1024x256
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S4096x64 : 0 < S4096x64.numel
  shapeCasts_S4096x64_S4096x64 : S4096x64.ShapeCasts S4096x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  dot_S2048x512_S512x256_S2048x256_1_0_0_1_n_n_wf : DotDims.WF S2048x512 S512x256 S2048x256 [1] [0] [0] [1] [] []
  dot_S1024x4096_S4096x256_S1024x256_1_0_0_1_n_n_wf : DotDims.WF S1024x4096 S4096x256 S1024x256 [1] [0] [0] [1] [] []
  dot_S1024x256_S256x64_S1024x64_1_0_0_1_n_n_wf : DotDims.WF S1024x256 S256x64 S1024x64 [1] [0] [0] [1] [] []
  dot_S1024x4096_S4096x64_S1024x64_1_0_0_1_n_n_wf : DotDims.WF S1024x4096 S4096x64 S1024x64 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S4096x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .f32 = 32 ∨ (Rect.block (s := S8192x8192) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)
  hrank2 : 0 < grid2.rank
  k2_mult1_dvd : ∀ i : grid2.Coords, 4096 ∣ (k2_mult1 i).toNat
  k2_off1_inb : ∀ i : grid2.Coords, ∀ a, (k2_off1 i) a + S4096x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x8192.size a
  hwx2_0 : ∀ i : grid2.Coords, EltTy.bits .f32 = 32 ∨ (Rect.block (s := S8192x8192) S1024x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S8192x64.size a
  hwx2_3 : ∀ i : grid2.Coords, EltTy.bits .f32 = 32 ∨ (Rect.block (s := S8192x64) S1024x64.size (cc2_transform_3 i) (hinb2_3 i)).WholeWords (EltTy.packing .f32)
  hrank3 : 0 < grid3.rank
  k3_mult1_dvd : ∀ i : grid3.Coords, 2048 ∣ (k3_mult1 i).toNat
  k3_mult2_dvd : ∀ i : grid3.Coords, 2048 ∣ (k3_mult2 i).toNat
  k3_off1_inb : ∀ i : grid3.Coords, ∀ a, (k3_off1 i) a + S2048x64.size a ≤ S8192x64.size a
  k3_off2_inb : ∀ i : grid3.Coords, ∀ a, (k3_off2 i) a + S2048x64.size a ≤ S8192x64.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S8192x64.size a
  hwx3_0 : ∀ i : grid3.Coords, EltTy.bits .f32 = 32 ∨ (Rect.block (s := S8192x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .f32 = 32 ∨ (Rect.block (s := S8192x64) S8192x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S8192x8192.size a
  hwx3_2 : ∀ i : grid3.Coords, EltTy.bits .f32 = 32 ∨ (Rect.block (s := S8192x8192) S2048x2048.size (cc3_transform_2 i) (hinb3_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v3) S8192x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v3) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S2048x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x256 : Shape := ⟨2, ![8192, 256]⟩
abbrev S1x256 : Shape := ⟨2, ![1, 256]⟩
abbrev S_ : Shape := ⟨0, ![]⟩
abbrev S8192x64 : Shape := ⟨2, ![8192, 64]⟩
abbrev S1x64 : Shape := ⟨2, ![1, 64]⟩
abbrev S64x8192 : Shape := ⟨2, ![64, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S8192x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S64x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Reg0W.lean ====
/-
  The first region of the program, as proof data for the pipeline rule: what each window's buffer holds before and
  after the body at every grid point, and that the body, run on those buffers, leaves them so.

  The region computes t1 = x · W1 + (a row of zeros), 2048 rows at a grid point, four points.  The body loads its
  three inputs whole, multiplies, adds the broadcast row and stores the block whole: one control case, nothing carried
  from point to point.  Everything here holds for any float instance; this copy is stated over the word-level program.
-/
import proofs.«129237_j28346784154172_2_alg».proof.Proof.Gen.Kernel.Launch
import proofs.«129237_j28346784154172_2_alg».proof.Proof.Gen.Kernel.Skeleton
import proofs.«129237_j28346784154172_2_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The first region: one block of 2048 rows of x, all of W1 and the bias row, to one block of 2048 rows of the result -/

/-- Window `w`'s block at grid point `t`, read off its array as the region finds it. For the rows of x and of the
    result that is rows 2048·t … 2048·t + 2047; W1 and the bias row are one block, the whole array, at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or the
    block index has not moved since it was fetched: the body never writes an input's buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole of their buffer -/

abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S256 := Rect.unit (s := S256) ![0] S256.size inb_S256_S256_0
abbrev r0_3 : Rect S2048x256 := Rect.unit (s := S2048x256) ![0, 0] S2048x256.size inb_S2048x256_S2048x256_0_0

/-- What the body leaves in the result's buffer: the product of the block of x with W1, plus the bias row, stored whole. -/
def out0_3 (x0 : Vec F S2048x512 .f32) (x1 : Vec F S512x256 .f32) (x2 : Vec F S256 .f32) : Vec F S2048x256 .f32 :=
  View.canon [⟨r0_3, k0_pay1 (View.ld x0 r0_0) (View.ld x1 r0_1) (View.ld x2 r0_2)⟩]

/-- The one store covers the buffer. -/
theorem cover0_3 (p0 : Vec F S2048x256 .f32) (y : S2048x256.Idx) :
    ∃ pc ∈ ([⟨r0_3, p0⟩] : List (View.Piece (Elt F) S2048x256 .f32)), y ∈ pc.1.set :=
  View.cover_of_tiled [⟨r0_3, p0⟩] S2048x256.size (by rfl) y

set_option maxHeartbeats 1000000 in
/-- The body on whole buffers, the inputs' at known contents and the result's at anything: it runs, leaves the inputs
    as they were and the result's buffer at `out0_3` of them. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S256 .f32) (harg3 : arg3.IsWhole) (arg4 : Memref sig .tc .vmem S2048x256 .f32) (harg4 : arg4.IsWhole)
    (x0 : Vec F S2048x512 .f32) (x1 : Vec F S512x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The arrays as the region finds them; after the body at point `t` each input's buffer at its block and the result's
    at `out0_3` of the input blocks; the invariant holds the scoped buffers no window stages and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem owed0 (c : Dev nD) (t : Fin (cfg0.N + 1)) : (dat0 V c).owed t = 0 := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-- The invariant at the first point is the generator register and the scoped buffers no window stages; -/
theorem phi_in0 (c : Dev nD) : iprop((∃ r, prngReg c r) ∗ Pipeline.scopedRest (Ix := Unit) (Name := ℕ) (U := UR sig nD τ) (Lvl := ℕ) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp
/-- and at the last point it gives them back. -/
theorem phi_out0 (c : Dev nD) : (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.Kernel.Hand

end
-- ==== Proof.Reg1W.lean ====
/-
  The second region of the program, as proof data for the pipeline rule: what each window's buffer and the accumulator
  hold before and after the body at every grid point, and that the body, run on those buffers, leaves them so.

  The region computes t2 = relu(adj · t1 + b1) · W2, 1024 rows of the result at a time.  A block of 1024 rows of adj is
  8192 wide and comes in two halves of 4096 columns: the sixteen grid points are eight row blocks times two halves.  At
  the first half the body zeroes the accumulator (1024 × 256) and adds the product of the half block of adj with rows
  0 … 4095 of t1; at the second half it adds the product with rows 4096 … 8191, then adds the bias row, takes the
  maximum with zero, multiplies by W2 and stores the block of the result.  The result's buffer is untouched at a first
  half and written back after a second half.  Everything here holds for any float instance.
-/
import proofs.«129237_j28346784154172_2_alg».proof.Proof.Gen.Kernel.Launch
import proofs.«129237_j28346784154172_2_alg».proof.Proof.Gen.Kernel.Skeleton
import proofs.«129237_j28346784154172_2_alg».proof.Proof.Gen.Kernel.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The second region: half a block of 1024 rows of adj, all of t1, the bias row and W2, to one block of 1024 rows of t2 -/

/-- Window `w`'s block at grid point `t`, read off its array as the region finds it. For adj that is rows
    1024·(t / 2) … and columns 4096·(t % 2) …; for the result rows 1024·(t / 2) …; t1, the bias row and W2 are one block,
    the whole array, at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or the
    block index has not moved since it was fetched: the body never writes an input's buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The half block of adj, the bias row, W2, the accumulator and the result's buffer are loaded and stored whole; -/
abbrev r1_adj : Rect S1024x4096 := Rect.unit (s := S1024x4096) ![0, 0] S1024x4096.size inb_S1024x4096_S1024x4096_0_0
abbrev r1_bias : Rect S256 := Rect.unit (s := S256) ![0] S256.size inb_S256_S256_0
abbrev r1_w2 : Rect S256x64 := Rect.unit (s := S256x64) ![0, 0] S256x64.size inb_S256x64_S256x64_0_0
abbrev r1_acc : Rect S1024x256 := Rect.unit (s := S1024x256) ![0, 0] S1024x256.size inb_S1024x256_S1024x256_0_0
abbrev r1_out : Rect S1024x64 := Rect.unit (s := S1024x64) ![0, 0] S1024x64.size inb_S1024x64_S1024x64_0_0
/-- of t1 the body loads the 4096 rows that meet the half block's columns: rows 4096·k … at the point's half `k`. -/
abbrev r1_rows (i : grid1.Coords) : Rect S8192x256 := Rect.unit (s := S8192x256) (k1_off1 i) S4096x256.size (k1_off1_inb i)

/-- The accumulator, as the body is handed it. -/
abbrev acc1M : Memref sig .tc .vmem S1024x256 .f32 := Memref.whole cc1_scratch0

/-! ## What the body leaves -/

/-- The accumulator after a first half: zero plus the product of the half block of adj with its 4096 rows of t1. -/
def acc1_first (i : grid1.Coords) (x0 : Vec F S1024x4096 .f32) (x1 : Vec F S8192x256 .f32) : Vec F S1024x256 .f32 :=
  k1_pay2 (View.ld x1 (r1_rows i)) x0 k1_pay1

/-- The result's buffer after a second half: what the first half left in the accumulator (`xs`) plus this half's
    product, plus the bias row, the maximum with zero of that, times W2. -/
def out1_last (i : grid1.Coords) (x0 : Vec F S1024x4096 .f32) (x1 : Vec F S8192x256 .f32) (x2 : Vec F S256 .f32) (x3 : Vec F S256x64 .f32)
    (xs : Vec F S1024x256 .f32) : Vec F S1024x64 .f32 :=
  k1_pay3 (k1_pay2 (View.ld x1 (r1_rows i)) x0 xs) x2 x3

/-- The accumulator after the first half at position `n`, from that point's blocks. -/
def accAt1 (c : Dev nD) (n : ℕ) (hn : n < cfg1.N) : Vec F S1024x256 .f32 :=
  acc1_first (grid1.coords ⟨n, hn⟩) (iblk1 V c 0 ⟨n, hn⟩) (iblk1 V c 1 ⟨n, hn⟩)

/-! ## The invariant between points -/

/-- The scoped buffers that are neither this region's staging buffers nor its accumulator, at anything, and the
    generator register at some state: the body touches none of them. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- Before position `n`: before a second half (`n` odd) the accumulator holds what the first half before it left;
    before a first half, and after the last point, it holds anything — a first half zeroes it before reading it. -/
def Phi1 (c : Dev nD) (n : ℕ) (hn : n ≤ cfg1.N) : sProp 𝕄 :=
  if h : n % 2 = 1 then
    iprop(owns (c : Thread nD τ) acc1M fullShare (accAt1 V c (n - 1) (by omega)) ∗ rest1 (F := F) c)
  else iprop((∃ d, owns (c : Thread nD τ) acc1M fullShare d) ∗ rest1 (F := F) c)

/-! ## The proof data -/

/-- The arrays as the region finds them; after the body at point `t` each input's buffer at its block and the result's
    at `out1_last` of the point's blocks and of what the point before left in the accumulator (read only where `t` is
    a second half: at a first half the result's buffer is handed back as found); the invariant `Phi1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_last (grid1.coords t) (iblk1 V c 0 t) (iblk1 V c 1 t) (iblk1 V c 2 t) (iblk1 V c 3 t)
        (accAt1 V c (t.val - 1) (Nat.lt_of_le_of_lt (Nat.sub_le _ _) t.isLt))
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t : Fin (cfg1.N + 1)) : (dat1 V c).owed t = 0 := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_last (grid1.coords t) (iblk1 V c 0 t) (iblk1 V c 1 t) (iblk1 V c 2 t) (iblk1 V c 3 t)
    (accAt1 V c (t.val - 1) (Nat.lt_of_le_of_lt (Nat.sub_le _ _) t.isLt)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The two control cases -/

/-- The zero offsets of a whole-buffer access, as a constant function. -/
theorem off00_1 : (![0, 0] : Fin 2 → Nat) = fun _ => 0 := funext fun a => by fin_cases a <;> rfl
theorem off0_1 : (![0] : Fin 1 → Nat) = fun _ => 0 := funext fun a => by fin_cases a <;> rfl

/-- The body's first test: is this the first half (the second grid coordinate is 0)? -/
abbrev first1 (i : grid1.Coords) : Prop := (Scalar.cmpi .ne (Scalar.extui (Scalar.cmpi .eq (BitVec.ofNat 32 (i 1).val) 0#32)) 0#32) = 1#1
/-- It holds at the even positions, -/
theorem first1_iff : ∀ t : Fin cfg1.N, first1 (grid1.coords t) ↔ t.val % 2 = 0 :=
  (by decide +kernel : ∀ t : Fin grid1.N, first1 (grid1.coords t) ↔ t.val % 2 = 0)
/-- and the second test (is this the second half?) at the odd ones. -/
theorem last1_iff : ∀ t : Fin cfg1.N, k1_cond2 (grid1.coords t) = 1#1 ↔ t.val % 2 = 1 :=
  (by decide +kernel : ∀ t : Fin grid1.N, k1_cond2 (grid1.coords t) = 1#1 ↔ t.val % 2 = 1)
/-- The result's window is idle exactly at the first halves, and those are not written back. -/
theorem idle1_4_first : ∀ t : Fin cfg1.N, t.val % 2 = 0 → cfg1.idle 4 (grid1.coords t) = true :=
  (by decide +kernel : ∀ t : Fin grid1.N, t.val % 2 = 0 → idle1 4 (grid1.coords t) = true)
theorem idle1_4_last : ∀ t : Fin cfg1.N, t.val % 2 = 1 → cfg1.idle 4 (grid1.coords t) = false :=
  (by decide +kernel : ∀ t : Fin grid1.N, t.val % 2 = 1 → idle1 4 (grid1.coords t) = false)
theorem noflush1_4_first (t : Fin cfg1.N) (h : t.val % 2 = 0) : (cfg1.win 4).flush t = false :=
  Bool.eq_false_iff.mpr fun hf => by have := (flush1_4 t).mp hf; omega

set_option maxHeartbeats 1000000 in
/-- The body at a first half, on whole buffers: the half block of adj and t1 at known contents, the accumulator at
    anything. It zeroes the accumulator, reads it back, adds the product and stores: the inputs are left as they were and
    the accumulator holds `acc1_first`. The bias row's, W2's and the result's buffers are not touched. -/
theorem sound_kernel1_first (c : Dev nD) (E : Set ℕ) (i : grid1.Coords) (arg2 : Memref sig .tc .vmem S1024x4096 .f32) (harg2 : arg2.IsWhole) (arg3 : Memref sig .tc .vmem S8192x256 .f32) (harg3 : arg3.IsWhole) (arg4 : Memref sig .tc .vmem S256 .f32) (harg4 : arg4.IsWhole) (arg5 : Memref sig .tc .vmem S256x64 .f32) (harg5 : arg5.IsWhole) (arg6 : Memref sig .tc .vmem S1024x64 .f32) (harg6 : arg6.IsWhole) (arg7 : Memref sig .tc .vmem S1024x256 .f32) (harg7 : arg7.IsWhole)
    (hc0 : first1 i) (hc1 : ¬ k1_cond2 i = 1#1)
    (x0 : Vec F S1024x4096 .f32) (x1 : Vec F S8192x256 .f32) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1 ∗ owns (c : Thread nD τ) arg7 fullShare (acc1_first i x0 x1)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d7, %f7, -, H7⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.mem_cons_self, View.mem_set_unit_zero off00_1 inb_S1024x256_S1024x256_0_0 y⟩),
    View.canon_cons_unit_zero off00_1]
  unfold acc1_first
  sl_unfold_run_names
  rw [View.readCov_unit_zero _ off00_1, View.readAt_eq_ld, View.readAt_eq_ld,
    View.ld_unit_zero (S := S1024x4096) off00_1]

set_option maxHeartbeats 1000000 in
/-- The body at a second half, on whole buffers: the inputs at known contents, the accumulator at what the first half
    left (`xs`), the result's buffer at anything. It adds the product to the accumulator, reads it back, adds the bias
    row, takes the maximum with zero, multiplies by W2 and stores the result: the inputs are left as they were and the
    result's buffer holds `out1_last`. -/
theorem sound_kernel1_last (c : Dev nD) (E : Set ℕ) (i : grid1.Coords) (arg2 : Memref sig .tc .vmem S1024x4096 .f32) (harg2 : arg2.IsWhole) (arg3 : Memref sig .tc .vmem S8192x256 .f32) (harg3 : arg3.IsWhole) (arg4 : Memref sig .tc .vmem S256 .f32) (harg4 : arg4.IsWhole) (arg5 : Memref sig .tc .vmem S256x64 .f32) (harg5 : arg5.IsWhole) (arg6 : Memref sig .tc .vmem S1024x64 .f32) (harg6 : arg6.IsWhole) (arg7 : Memref sig .tc .vmem S1024x256 .f32) (harg7 : arg7.IsWhole)
    (hc0 : ¬ first1 i) (hc1 : k1_cond2 i = 1#1)
    (x0 : Vec F S1024x4096 .f32) (x1 : Vec F S8192x256 .f32) (x2 : Vec F S256 .f32) (x3 : Vec F S256x64 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out1_last i x0 x1 x2 x3 xs) ∗ (∃ d, owns (c : Thread nD τ) arg7 fullShare d)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  subst hf0 hf1 hf2 hf3 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (fun y => ⟨_, List.mem_cons_self, View.mem_set_unit_zero off00_1 inb_S1024x64_S1024x64_0_0 y⟩),
      View.canon_cons_unit_zero off00_1]
    unfold out1_last
    sl_unfold_run_names
    rw [View.readCov_unit_zero _ off00_1, View.readAt_eq_ld, View.readAt_eq_ld, View.readAt_eq_ld, View.readAt_eq_ld, View.readAt_eq_ld,
      View.ld_unit_zero (S := S1024x4096) off00_1, View.ld_unit_zero (S := S1024x256) off00_1,
      View.ld_unit_zero (S := S256) off0_1, View.ld_unit_zero (S := S256x64) off00_1]
  iexists _; iexists _; isplitr
  swap; · iexact H7
  ipureintro; rfl

/-! ## The invariant, case by case -/

theorem Phi1_first (c : Dev nD) (n : ℕ) (hn : n ≤ cfg1.N) (h : n % 2 = 0) :
    Phi1 V c n hn = iprop((∃ d, owns (c : Thread nD τ) acc1M fullShare d) ∗ rest1 (F := F) c) := by
  unfold Phi1; rw [dif_neg (by omega)]

theorem Phi1_last (c : Dev nD) (n : ℕ) (hn : n ≤ cfg1.N) (h : n % 2 = 1) :
    Phi1 V c n hn = iprop(owns (c : Thread nD τ) acc1M fullShare (accAt1 V c (n - 1) (by omega)) ∗ rest1 (F := F) c) := by
  unfold Phi1; rw [dif_pos h]

/-- After a first half at point `t`: the accumulator at `acc1_first` of the point's blocks. -/
theorem Phi1_after_first (c : Dev nD) (t : Fin cfg1.N) (h : t.val % 2 = 0) :
    Phi1 V c (t.val + 1) t.isLt = iprop(owns (c : Thread nD τ) acc1M fullShare
      (acc1_first (grid1.coords t) (iblk1 V c 0 t) (iblk1 V c 1 t)) ∗ rest1 (F := F) c) := by
  rw [Phi1_last V c _ _ (by omega)]; rfl

/-- The scoped buffers no window of this region stages: the accumulator, and the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) acc1M fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [Idealize.SL.BI.bigSepL_singleton, acc1M, owns_whole]
  rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

set_option maxHeartbeats 1000000 in
/-- The body at any point. The inputs' buffers hold their blocks. At a first half the invariant hands over the
    accumulator at anything and takes it back at `acc1_first`; the result's buffer goes through untouched. At a second
    half the invariant hands over the accumulator at what the first half left and takes it back at anything; the result's
    buffer, handed over at anything, comes back at `out1_last`. The other scoped buffers, the generator register and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.castSucc = Phi1 V c t.val (Nat.le_of_lt t.isLt) from rfl,
    show (dat1 V c).Φ t.succ = Phi1 V c (t.val + 1) t.isLt from rfl,
    after1_0, after1_1, after1_2, after1_3]
  by_cases h : t.val % 2 = 0
  · rw [Phi1_first V c t.val _ h, Phi1_after_first V c t h,
      Dat.leavesExact_idle (dat1 V c) 4 t (idle1_4_first t h) (noflush1_4_first t h)]
    iintro ⟨⟨⟨%ds, HS⟩, HR⟩, Ho, ⟨%d0, H0⟩, ⟨%d1, H1⟩, ⟨%d2, H2⟩, ⟨%d3, H3⟩, H4⟩
    iapply (sound_kernel1_first c Set.univ (grid1.coords t) _ _ _ _ _ _ _ _ _ _ _ _ ((first1_iff t).mpr h)
      (fun hh => by have := (last1_iff t).mp hh; omega) (iblk1 V c 0 t) (iblk1 V c 1 t) _)
    isplitl [H0]; · iexact H0
    isplitl [H1]; · iexact H1
    isplitl [HS]; · iexists _; iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexact H4
  · have h1 : t.val % 2 = 1 := by omega
    rw [Phi1_last V c t.val _ h1, Phi1_first V c (t.val + 1) _ (by omega),
      show (dat1 V c).leavesExact 4 t = owns (c : Thread nD τ) (st1_4 t) fullShare ((dat1 V c).after 4 t) from by
        unfold Dat.leavesExact; rw [idle1_4_last t h1],
      after1_4]
    iintro ⟨⟨HS, HR⟩, Ho, ⟨%d0, H0⟩, ⟨%d1, H1⟩, ⟨%d2, H2⟩, ⟨%d3, H3⟩, ⟨%d4, H4⟩⟩
    iapply (sound_kernel1_last c Set.univ (grid1.coords t) _ _ _ _ _ _ _ _ _ _ _ _ (fun hh => h ((first1_iff t).mp hh))
      ((last1_iff t).mpr h1) (iblk1 V c 0 t) (iblk1 V c 1 t) (iblk1 V c 2 t) (iblk1 V c 3 t)
      (accAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexact H4

theorem body_obligation1 (c : Dev nD) : BodyObligation (dat1 (F := F) V c) (defs₀ (F := F)) Variants.none () Set.univ := fun t => by
  rw [bigSep_W1, bigSep_W1]
  exact sound_body1 V c t

/-- The invariant before the first point is the generator register and the scoped buffers no window stages, the
    accumulator at anything among them; -/
theorem phi_in1 (c : Dev nD) : iprop((∃ r, prngReg c r) ∗ Pipeline.scopedRest (Ix := Unit) (Name := ℕ) (U := UR sig nD τ) (Lvl := ℕ) spec1 c) ⊢ ((dat1 V c).Φ 0 : sProp 𝕄) := by
  rw [show (dat1 V c).Φ 0 = Phi1 V c 0 (Nat.zero_le _) from rfl, Phi1_first V c 0 _ rfl, scopedRest1_split]
  unfold rest1
  iintro ⟨Hp, HS, HR⟩
  isplitl [HS]; · iexact HS
  isplitl [HR]; · iexact HR
  iexact Hp

/-- and after the last point (a second half) it gives them back, the accumulator's contents forgotten. -/
theorem phi_out1 (c : Dev nD) : (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V c).Φ (Fin.last cfg1.N) = Phi1 V c cfg1.N (le_refl _) from rfl,
    Phi1_first V c cfg1.N _ (by rw [show cfg1.N = 16 from N_1]), scopedRest1_split]
  unfold rest1
  iintro ⟨HS, HR, Hp⟩
  isplitl [Hp]; · iexact Hp
  isplitl [HS]; · iexact HS
  iexact HR

end Cert.Kernel.Hand

end
-- ==== Proof.Reg2W.lean ====
/-
  The third region of the program, as proof data for the pipeline rule: what each window's buffer and the accumulator
  hold before and after the body at every grid point, and that the body, run on those buffers, leaves them so.

  The region computes z = adj · t2 + b2, 1024 rows of the result at a time.  A block of 1024 rows of adj is 8192 wide and
  comes in two halves of 4096 columns: the sixteen grid points are eight row blocks times two halves.  At the first
  half the body zeroes the accumulator and adds the product of the half block of adj with rows 0 … 4095 of t2; at the
  second half it adds the product with rows 4096 … 8191, then adds the bias row and stores the block of the result.  The
  result's buffer is untouched at a first half and written back after a second half.  Everything here holds for any
  float instance.
-/
import proofs.«129237_j28346784154172_2_alg».proof.Proof.Gen.Kernel.Launch
import proofs.«129237_j28346784154172_2_alg».proof.Proof.Gen.Kernel.Skeleton
import proofs.«129237_j28346784154172_2_alg».proof.Proof.Gen.Kernel.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The third region: half a block of 1024 rows of adj, all of t2 and the bias row, to one block of 1024 rows of z -/

/-- Window `w`'s block at grid point `t`, read off its array as the region finds it. For adj that is rows
    1024·(t / 2) … and columns 4096·(t % 2) …; for the result rows 1024·(t / 2) …; t2 and the bias row are one block, the
    whole array, at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or the
    block index has not moved since it was fetched: the body never writes an input's buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The half block of adj, the bias row and the accumulator (and the result's buffer) are loaded and stored whole; -/
abbrev r2_adj : Rect S1024x4096 := Rect.unit (s := S1024x4096) ![0, 0] S1024x4096.size inb_S1024x4096_S1024x4096_0_0
abbrev r2_bias : Rect S64 := Rect.unit (s := S64) ![0] S64.size inb_S64_S64_0
abbrev r2_acc : Rect S1024x64 := Rect.unit (s := S1024x64) ![0, 0] S1024x64.size inb_S1024x64_S1024x64_0_0
/-- of t2 the body loads the 4096 rows that meet the half block's columns: rows 4096·k … at the point's half `k`. -/
abbrev r2_rows (i : grid2.Coords) : Rect S8192x64 := Rect.unit (s := S8192x64) (k2_off1 i) S4096x64.size (k2_off1_inb i)

/-- The accumulator, as the body is handed it. -/
abbrev acc2M : Memref sig .tc .vmem S1024x64 .f32 := Memref.whole cc2_scratch0

/-! ## What the body leaves -/

/-- The accumulator after a first half: zero plus the product of the half block of adj with its 4096 rows of t2. -/
def acc2_first (i : grid2.Coords) (x0 : Vec F S1024x4096 .f32) (x1 : Vec F S8192x64 .f32) : Vec F S1024x64 .f32 :=
  k2_pay2 (View.ld x1 (r2_rows i)) x0 k2_pay1

/-- The result's buffer after a second half: what the first half left in the accumulator (`xs`), plus this half's
    product, plus the bias row. -/
def out2_last (i : grid2.Coords) (x0 : Vec F S1024x4096 .f32) (x1 : Vec F S8192x64 .f32) (x2 : Vec F S64 .f32) (xs : Vec F S1024x64 .f32) :
    Vec F S1024x64 .f32 :=
  k2_pay3 (k2_pay2 (View.ld x1 (r2_rows i)) x0 xs) x2

/-- The accumulator after the first half at position `n`, from that point's blocks. -/
def accAt2 (c : Dev nD) (n : ℕ) (hn : n < cfg2.N) : Vec F S1024x64 .f32 :=
  acc2_first (grid2.coords ⟨n, hn⟩) (iblk2 V c 0 ⟨n, hn⟩) (iblk2 V c 1 ⟨n, hn⟩)

/-! ## The invariant between points -/

/-- The scoped buffers that are neither this region's staging buffers nor its accumulator, at anything, and the
    generator register at some state: the body touches none of them. -/
def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- Before position `n`: before a second half (`n` odd) the accumulator holds what the first half before it left;
    before a first half, and after the last point, it holds anything — a first half zeroes it before reading it. -/
def Phi2 (c : Dev nD) (n : ℕ) (hn : n ≤ cfg2.N) : sProp 𝕄 :=
  if h : n % 2 = 1 then
    iprop(owns (c : Thread nD τ) acc2M fullShare (accAt2 V c (n - 1) (by omega)) ∗ rest2 (F := F) c)
  else iprop((∃ d, owns (c : Thread nD τ) acc2M fullShare d) ∗ rest2 (F := F) c)

/-! ## The proof data -/

/-- The arrays as the region finds them; after the body at point `t` each input's buffer at its block and the result's
    at `out2_last` of the point's blocks and of what the point before left in the accumulator (read only where `t` is
    a second half: at a first half the result's buffer is handed back as found); the invariant `Phi2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_last (grid2.coords t) (iblk2 V c 0 t) (iblk2 V c 1 t) (iblk2 V c 2 t)
        (accAt2 V c (t.val - 1) (Nat.lt_of_le_of_lt (Nat.sub_le _ _) t.isLt))
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem owed2 (c : Dev nD) (t : Fin (cfg2.N + 1)) : (dat2 V c).owed t = 0 := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_last (grid2.coords t) (iblk2 V c 0 t) (iblk2 V c 1 t) (iblk2 V c 2 t)
    (accAt2 V c (t.val - 1) (Nat.lt_of_le_of_lt (Nat.sub_le _ _) t.isLt)) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The two control cases -/

/-- The zero offsets of a whole-buffer access, as a constant function. -/
theorem zero_off2 : (![0, 0] : Fin 2 → Nat) = fun _ => 0 := funext fun a => by fin_cases a <;> rfl
theorem zero_off1 : (![0] : Fin 1 → Nat) = fun _ => 0 := funext fun a => by fin_cases a <;> rfl

/-- The body's first test: is this the first half (the second grid coordinate is 0)? -/
abbrev first2 (i : grid2.Coords) : Prop := (Scalar.cmpi .ne (Scalar.extui (Scalar.cmpi .eq (BitVec.ofNat 32 (i 1).val) 0#32)) 0#32) = 1#1
/-- It holds at the even positions, -/
theorem first2_iff : ∀ t : Fin cfg2.N, first2 (grid2.coords t) ↔ t.val % 2 = 0 :=
  (by decide +kernel : ∀ t : Fin grid2.N, first2 (grid2.coords t) ↔ t.val % 2 = 0)
/-- and the second test (is this the second half?) at the odd ones. -/
theorem last2_iff : ∀ t : Fin cfg2.N, k2_cond2 (grid2.coords t) = 1#1 ↔ t.val % 2 = 1 :=
  (by decide +kernel : ∀ t : Fin grid2.N, k2_cond2 (grid2.coords t) = 1#1 ↔ t.val % 2 = 1)
/-- The result's window is idle exactly at the first halves, and those are not written back. -/
theorem idle2_3_first : ∀ t : Fin cfg2.N, t.val % 2 = 0 → cfg2.idle 3 (grid2.coords t) = true :=
  (by decide +kernel : ∀ t : Fin grid2.N, t.val % 2 = 0 → idle2 3 (grid2.coords t) = true)
theorem idle2_3_last : ∀ t : Fin cfg2.N, t.val % 2 = 1 → cfg2.idle 3 (grid2.coords t) = false :=
  (by decide +kernel : ∀ t : Fin grid2.N, t.val % 2 = 1 → idle2 3 (grid2.coords t) = false)
theorem noflush2_3_first (t : Fin cfg2.N) (h : t.val % 2 = 0) : (cfg2.win 3).flush t = false :=
  Bool.eq_false_iff.mpr fun hf => by have := (flush2_3 t).mp hf; omega

set_option maxHeartbeats 1000000 in
/-- The body at a first half, on whole buffers: the half block of adj and t2 at known contents, the accumulator at
    anything. It zeroes the accumulator, reads it back, adds the product and stores: the inputs are left as they were and
    the accumulator holds `acc2_first`. The bias row's and the result's buffers are not touched. -/
theorem sound_kernel2_first (c : Dev nD) (E : Set ℕ) (i : grid2.Coords) (arg2 : Memref sig .tc .vmem S1024x4096 .f32) (harg2 : arg2.IsWhole) (arg3 : Memref sig .tc .vmem S8192x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole)
    (hc0 : first2 i) (hc1 : ¬ k2_cond2 i = 1#1)
    (x0 : Vec F S1024x4096 .f32) (x1 : Vec F S8192x64 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1 ∗ owns (c : Thread nD τ) arg6 fullShare (acc2_first i x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%d6, %f6, -, H6⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  rw [View.read_writes_eq_canon _ _ _ (fun y => ⟨_, List.mem_cons_self, View.mem_set_unit_zero zero_off2 inb_S1024x64_S1024x64_0_0 y⟩),
    View.canon_cons_unit_zero zero_off2]
  unfold acc2_first
  sl_unfold_run_names
  rw [View.readCov_unit_zero _ zero_off2, View.readAt_eq_ld, View.readAt_eq_ld,
    View.ld_unit_zero (S := S1024x4096) zero_off2]

set_option maxHeartbeats 1000000 in
/-- The body at a second half, on whole buffers: the inputs at known contents, the accumulator at what the first half
    left (`xs`), the result's buffer at anything. It adds the product to the accumulator, reads it back, adds the bias row
    and stores the result: the inputs are left as they were and the result's buffer holds `out2_last`. -/
theorem sound_kernel2_last (c : Dev nD) (E : Set ℕ) (i : grid2.Coords) (arg2 : Memref sig .tc .vmem S1024x4096 .f32) (harg2 : arg2.IsWhole) (arg3 : Memref sig .tc .vmem S8192x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole)
    (hc0 : ¬ first2 i) (hc1 : k2_cond2 i = 1#1)
    (x0 : Vec F S1024x4096 .f32) (x1 : Vec F S8192x64 .f32) (x2 : Vec F S64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out2_last i x0 x1 x2 xs) ∗ (∃ d, owns (c : Thread nD τ) arg6 fullShare d)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0 hf1 hf2 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (fun y => ⟨_, List.mem_cons_self, View.mem_set_unit_zero zero_off2 inb_S1024x64_S1024x64_0_0 y⟩),
      View.canon_cons_unit_zero zero_off2]
    unfold out2_last
    sl_unfold_run_names
    rw [View.readCov_unit_zero _ zero_off2, View.readAt_eq_ld, View.readAt_eq_ld, View.readAt_eq_ld, View.readAt_eq_ld,
      View.ld_unit_zero (S := S1024x4096) zero_off2, View.ld_unit_zero (S := S1024x64) zero_off2,
      View.ld_unit_zero (S := S64) zero_off1]
  iexists _; iexists _; isplitr
  swap; · iexact H6
  ipureintro; rfl

/-! ## The invariant, case by case -/

theorem Phi2_first (c : Dev nD) (n : ℕ) (hn : n ≤ cfg2.N) (h : n % 2 = 0) :
    Phi2 V c n hn = iprop((∃ d, owns (c : Thread nD τ) acc2M fullShare d) ∗ rest2 (F := F) c) := by
  unfold Phi2; rw [dif_neg (by omega)]

theorem Phi2_last (c : Dev nD) (n : ℕ) (hn : n ≤ cfg2.N) (h : n % 2 = 1) :
    Phi2 V c n hn = iprop(owns (c : Thread nD τ) acc2M fullShare (accAt2 V c (n - 1) (by omega)) ∗ rest2 (F := F) c) := by
  unfold Phi2; rw [dif_pos h]

/-- After a first half at point `t`: the accumulator at `acc2_first` of the point's blocks. -/
theorem Phi2_after_first (c : Dev nD) (t : Fin cfg2.N) (h : t.val % 2 = 0) :
    Phi2 V c (t.val + 1) t.isLt = iprop(owns (c : Thread nD τ) acc2M fullShare
      (acc2_first (grid2.coords t) (iblk2 V c 0 t) (iblk2 V c 1 t)) ∗ rest2 (F := F) c) := by
  rw [Phi2_last V c _ _ (by omega)]; rfl

/-- The scoped buffers no window of this region stages: the accumulator, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) acc2M fullShare d)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [Idealize.SL.BI.bigSepL_singleton, acc2M, owns_whole]
  rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 1000000 in
/-- The body at any point. The inputs' buffers hold their blocks. At a first half the invariant hands over the
    accumulator at anything and takes it back at `acc2_first`; the result's buffer goes through untouched. At a second
    half the invariant hands over the accumulator at what the first half left and takes it back at anything; the result's
    buffer, handed over at anything, comes back at `out2_last`. The other scoped buffers, the generator register and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.castSucc = Phi2 V c t.val (Nat.le_of_lt t.isLt) from rfl,
    show (dat2 V c).Φ t.succ = Phi2 V c (t.val + 1) t.isLt from rfl,
    after2_0, after2_1, after2_2]
  by_cases h : t.val % 2 = 0
  · rw [Phi2_first V c t.val _ h, Phi2_after_first V c t h,
      Dat.leavesExact_idle (dat2 V c) 3 t (idle2_3_first t h) (noflush2_3_first t h)]
    iintro ⟨⟨⟨%ds, HS⟩, HR⟩, Ho, ⟨%d0, H0⟩, ⟨%d1, H1⟩, ⟨%d2, H2⟩, H3⟩
    iapply (sound_kernel2_first c Set.univ (grid2.coords t) _ _ _ _ _ _ _ _ _ _ ((first2_iff t).mpr h)
      (fun hh => by have := (last2_iff t).mp hh; omega) (iblk2 V c 0 t) (iblk2 V c 1 t) _)
    isplitl [H0]; · iexact H0
    isplitl [H1]; · iexact H1
    isplitl [HS]; · iexists _; iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexact H3
  · have h1 : t.val % 2 = 1 := by omega
    rw [Phi2_last V c t.val _ h1, Phi2_first V c (t.val + 1) _ (by omega),
      show (dat2 V c).leavesExact 3 t = owns (c : Thread nD τ) (st2_3 t) fullShare ((dat2 V c).after 3 t) from by
        unfold Dat.leavesExact; rw [idle2_3_last t h1],
      after2_3]
    iintro ⟨⟨HS, HR⟩, Ho, ⟨%d0, H0⟩, ⟨%d1, H1⟩, ⟨%d2, H2⟩, ⟨%d3, H3⟩⟩
    iapply (sound_kernel2_last c Set.univ (grid2.coords t) _ _ _ _ _ _ _ _ _ _ (fun hh => h ((first2_iff t).mp hh))
      ((last2_iff t).mpr h1) (iblk2 V c 0 t) (iblk2 V c 1 t) (iblk2 V c 2 t)
      (accAt2 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

/-- The invariant before the first point is the generator register and the scoped buffers no window stages, the
    accumulator at anything among them; -/
theorem phi_in2 (c : Dev nD) : iprop((∃ r, prngReg c r) ∗ Pipeline.scopedRest (Ix := Unit) (Name := ℕ) (U := UR sig nD τ) (Lvl := ℕ) spec2 c) ⊢ ((dat2 V c).Φ 0 : sProp 𝕄) := by
  rw [show (dat2 V c).Φ 0 = Phi2 V c 0 (Nat.zero_le _) from rfl, Phi2_first V c 0 _ rfl, scopedRest2_split]
  unfold rest2
  iintro ⟨Hp, HS, HR⟩
  isplitl [HS]; · iexact HS
  isplitl [HR]; · iexact HR
  iexact Hp

/-- and after the last point (a second half) it gives them back, the accumulator's contents forgotten. -/
theorem phi_out2 (c : Dev nD) : (dat2 V c).Φ (Fin.last cfg2.N) ⊢ (iprop((∃ r, prngReg c r) ∗ Pipeline.scopedRest (Ix := Unit) (Name := ℕ) (U := UR sig nD τ) (Lvl := ℕ) spec2 c) : sProp 𝕄) := by
  rw [show (dat2 V c).Φ (Fin.last cfg2.N) = Phi2 V c cfg2.N (le_refl _) from rfl,
    Phi2_first V c cfg2.N _ (by rw [show cfg2.N = 16 from N_2]), scopedRest2_split]
  unfold rest2
  iintro ⟨HS, HR, Hp⟩
  isplitl [Hp]; · iexact Hp
  isplitl [HS]; · iexact HS
  iexact HR

end Cert.Kernel.Hand

end
-- ==== Proof.Reg3W.lean ====
/-
  The last region of the program, the decode, as proof data for the pipeline rule: what each window's buffer holds
  before and after the body at every grid point, and that the body, run on those buffers, leaves them so.

  The region computes out = logistic (z · zᵀ), a block of 2048 × 2048 entries at each of the 4 × 4 grid points
  (i, j): rows 2048·i … of z against rows 2048·j … of z.  Both input windows stage the whole of the SAME array z,
  once, at the first point; the body cuts its two row blocks out of the staged copies at offsets computed from the
  point, multiplies them rows against rows, applies the logistic function and stores the block whole.  One control
  case, nothing carried from point to point.  Because the two input windows read one array, each holds half of the
  full share of it.  Everything here holds for any float instance.
-/
import proofs.«129237_j28346784154172_2_alg».proof.Proof.Gen.Kernel.Launch
import proofs.«129237_j28346784154172_2_alg».proof.Proof.Gen.Kernel.Skeleton
import proofs.«129237_j28346784154172_2_alg».proof.Proof.Gen.Kernel.Points
import Idealize.ShloMosaic.Lib.Pipeline.Frame
import Idealize.ShloMosaic.Lib.Pipeline.FrameBody
import Idealize.ShloMosaic.Lib.Pipeline.Cells
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The decode: all of z, twice, to one block of 2048 × 2048 entries of the result -/

/-- Window `w`'s block at grid point `t`, read off its array as the region finds it. For the two input windows that
    is the whole of z at every point; for the result it is rows 2048·i …, columns 2048·j … at the point (i, j). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block, the whole of z, at every point, whether the point
    fetched it or the block index has not moved since it was fetched: the body never writes an input's buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: a block of 2048 rows out of each staged copy of z, at the point's offsets, and the result's
    buffer whole -/

abbrev r3_0 (i : grid3.Coords) : Rect S8192x64 := Rect.unit (s := S8192x64) (k3_off1 i) S2048x64.size (k3_off1_inb i)
abbrev r3_1 (i : grid3.Coords) : Rect S8192x64 := Rect.unit (s := S8192x64) (k3_off2 i) S2048x64.size (k3_off2_inb i)
abbrev r3_2 : Rect S2048x2048 := Rect.unit (s := S2048x2048) ![0, 0] S2048x2048.size inb_S2048x2048_S2048x2048_0_0

/-- What the body leaves in the result's buffer at the point with coordinates `i`: the logistic function of the
    product, rows against rows, of the two row blocks it cut out of the staged copies, stored whole. -/
def out3_2 (i : grid3.Coords) (x0 : Vec F S8192x64 .f32) (x1 : Vec F S8192x64 .f32) : Vec F S2048x2048 .f32 :=
  View.canon [⟨r3_2, k3_pay1 (View.ld x0 (r3_0 i)) (View.ld x1 (r3_1 i))⟩]

/-- The one store covers the buffer. -/
theorem cover3_2 (p0 : Vec F S2048x2048 .f32) (y : S2048x2048.Idx) :
    ∃ pc ∈ ([⟨r3_2, p0⟩] : List (View.Piece (Elt F) S2048x2048 .f32)), y ∈ pc.1.set :=
  View.cover_of_tiled [⟨r3_2, p0⟩] S2048x2048.size (by rfl) y

set_option maxHeartbeats 1000000 in
/-- The body on whole buffers, the inputs' at known contents and the result's at anything: it runs, leaves the inputs
    as they were and the result's buffer at `out3_2` of them. -/
theorem sound_kernel3 (c : Dev nD) (E : Set ℕ) (i : grid3.Coords) (arg2 : Memref sig .tc .vmem S8192x64 .f32) (harg2 : arg2.IsWhole) (arg3 : Memref sig .tc .vmem S8192x64 .f32) (harg3 : arg3.IsWhole) (arg4 : Memref sig .tc .vmem S2048x2048 .f32) (harg4 : arg4.IsWhole)
    (x0 : Vec F S8192x64 .f32) (x1 : Vec F S8192x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 i x0 x1)) -∗ K ⟨⟩))
      ⊢ wp frame (wpE (defs₀ (F := F)) Variants.none c none) E (cc3_kernel i arg2 harg2 arg3 harg3 arg4 harg4) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The arrays as the region finds them; after the body at point `t` each input's buffer still at the whole of z and
    the result's at `out3_2` of them; the invariant holds the scoped buffers no window stages and the generator
    register, untouched; nothing owed; the two input windows hold the two halves of the full share of z. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (grid3.coords t) (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem owed3 (c : Dev nD) (t : Fin (cfg3.N + 1)) : (dat3 V c).owed t = 0 := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (grid3.coords t) (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold the whole of z, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

/-- The invariant at the first point is the generator register and the scoped buffers no window stages; at the last
    point it gives them back. -/
theorem phi_in3 (c : Dev nD) : iprop((∃ r, prngReg c r) ∗ Pipeline.scopedRest (Ix := Unit) (Name := ℕ) (U := UR sig nD τ) (Lvl := ℕ) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp
theorem phi_out3 (c : Dev nD) : (dat3 V c).Φ (Fin.last cfg3.N) ⊢ (iprop((∃ r, prngReg c r) ∗ Pipeline.scopedRest (Ix := Unit) (Name := ℕ) (U := UR sig nD τ) (Lvl := ℕ) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

/-! ## The arrays on entry and on exit -/

/-- The shares the proof data hold the three arrays at: the two halves of the full share of z, the result outright. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- The three windows' arrays are whole buffers: their element sets are everything. -/
theorem set3_0 : (cfg3.win 0).arr.view.set = Finset.univ := (arr_whole3 0).set_eq_univ
theorem set3_1 : (cfg3.win 1).arr.view.set = Finset.univ := (arr_whole3 1).set_eq_univ
theorem set3_2 : (cfg3.win 2).arr.view.set = Finset.univ := (arr_whole3 2).set_eq_univ

/-- Entering the region: z whole at the full share splits into the two halves the input windows hold; the result's
    array is held outright. -/
theorem arrays_in3 (c : Dev nD) :
    iprop((((c : Thread nD τ).loc main_v3) ↦{fullShare} V c main_v3) ∗ (((c : Thread nD τ).loc main_v4) ↦{fullShare} V c main_v4))
      ⊢ ((dat3 V c).arrays ((dat3 V c).arrAt · 0) : sProp 𝕄) := by
  unfold Dat.arrays
  rw [bigSep_W3, set3_0, set3_2, share3_0, share3_1, share3_2]
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- An input window's array is never written: at every point it is as the region found it. -/
theorem arrAt3_0 (c : Dev nD) (n : Nat) : (dat3 V c).arrAt 0 n = V c main_v3 :=
  ((dat3 V c).arrAt_in 0 rfl n).trans (A_eq3 V c 0)
theorem arrAt3_1 (c : Dev nD) (n : Nat) : (dat3 V c).arrAt 1 n = V c main_v3 :=
  ((dat3 V c).arrAt_in 1 rfl n).trans (A_eq3 V c 1)

/-- Leaving it: the two halves join to z whole at the full share, as it was entered; the result's array holds what
    the write-backs left. -/
theorem arrays_out3 (c : Dev nD) :
    (dat3 V c).arrays ((dat3 V c).arrAt · cfg3.N)
      ⊢ (iprop((((c : Thread nD τ).loc main_v3) ↦{fullShare} V c main_v3) ∗ (((c : Thread nD τ).loc main_v4) ↦{fullShare} (dat3 V c).arrAt 2 cfg3.N)) : sProp 𝕄) := by
  unfold Dat.arrays
  rw [bigSep_W3, set3_0, set3_2, share3_0, share3_1, share3_2]
  dsimp only
  rw [arrAt3_0, arrAt3_1]
  iintro ⟨Hl, Hr, H4⟩
  isplitl [Hl Hr]
  · iapply (pointsTo_share (PosShare.mem_left_op_right fullShare)).2
    isplitl [Hl]; · iexact Hl
    iexact Hr
  iexact H4

end Cert.Kernel.Hand

end
-- ==== Proof.Reg3BufsW.lean ====
/-
  The decode region's buffers.  Its three windows stand on two arrays — the embeddings, read through two windows, and
  the result — so a core's unscoped buffers are: the embeddings' buffer, the result's buffer, and the rest, which no
  window of the region touches.  Changing what the result's buffer holds leaves the rest as it was.
-/
import proofs.«129237_j28346784154172_2_alg».proof.Proof.Reg3W
import Idealize.ShloMosaic.Lib.Pipeline.Frame
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The distinct arrays behind the decode's windows are the embeddings and the result. -/
theorem arrs3 : Finset.univ.image (Pipeline.arrRef spec3) = ([main_v3, main_v4] : List (Ref sig .tc)).toFinset := by decide

/-- A core's unscoped buffers at contents `V`: the embeddings' buffer, the result's buffer, the rest. -/
theorem bufs_split3 (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v3) ↦{fullShare} V main_v3) ∗ (((c : Thread nD τ).loc main_v4) ↦{fullShare} V main_v4))
          ∗ Pipeline.unscopedRest (Ix := Unit) (Name := ℕ) (U := UR sig nD τ) (Lvl := ℕ) spec3 c V) := by
  have e : (unscopedBufs (Ix := Unit) (Name := ℕ) (U := UR sig nD τ) (Lvl := ℕ) c V : sProp 𝕄)
      = iprop((Pipeline.arrBufs (Ix := Unit) (Name := ℕ) (U := UR sig nD τ) (Lvl := ℕ) spec3 c V : sProp 𝕄)
          ∗ Pipeline.unscopedRest (Ix := Unit) (Name := ℕ) (U := UR sig nD τ) (Lvl := ℕ) spec3 c V) :=
    Pipeline.unscopedBufs_split₀ (cfgs := cfgs) (p := 3) (by decide) c V
  rw [e]
  unfold Pipeline.arrBufs
  rw [bigSep_eq_bigSepL_of_eq [main_v3, main_v4] arrs3 (by decide)]
  rfl

/-- The rest reads `V` off the two arrays only. -/
theorem rest_congr3 (c : Dev nD) (V V' : (b : Ref sig .tc) → Buf (Elt F) ((c : Thread nD τ).loc b))
    (h : ∀ b, b ≠ main_v3 → b ≠ main_v4 → V' b = V b) :
    (Pipeline.unscopedRest (Ix := Unit) (Name := ℕ) (U := UR sig nD τ) (Lvl := ℕ) spec3 c V' : sProp 𝕄)
      = Pipeline.unscopedRest (Ix := Unit) (Name := ℕ) (U := UR sig nD τ) (Lvl := ℕ) spec3 c V := by
  unfold Pipeline.unscopedRest
  refine bigSep_congr fun b hb => ?_
  have hb' := (Finset.mem_sdiff.mp hb).2
  rw [arrs3] at hb'
  have h3 : b ≠ main_v3 := fun e => hb' (by rw [e]; decide)
  have h4 : b ≠ main_v4 := fun e => hb' (by rw [e]; decide)
  rw [h b h3 h4]

end Cert.Kernel.Hand

end
-- ==== Proof.RunW.lean ====
/-
  The whole program's run, assembled from its four regions.

  The program is a short host stretch (a row of zeros, the first region's bias) followed by four kernel regions, each
  reading what the one before it wrote: t1 = x · W1; t2 = max (adj · t1 + b1) 0 · W2; z = adj · t2 + b2; the decode
  logistic (z · zᵀ).  Between two segments the core holds every unscoped buffer whole at a known valuation: the launch
  memory, then the host operations' results, then, after each region, its result array at what the region's
  write-backs leave and everything else unchanged.  Each region is entered by splitting its arrays out of that state
  and left by putting them back.  No region writes an argument, so the arguments end as launched; the result array
  ends at the last valuation's contents.  Everything here holds for any float instance; this copy is stated over the word-level program.
-/
import proofs.«129237_j28346784154172_2_alg».proof.Proof.Reg0W
import proofs.«129237_j28346784154172_2_alg».proof.Proof.Reg1W
import proofs.«129237_j28346784154172_2_alg».proof.Proof.Reg2W
import proofs.«129237_j28346784154172_2_alg».proof.Proof.Reg3W
import proofs.«129237_j28346784154172_2_alg».proof.Proof.Reg3BufsW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program: a fold from the launch memory -/

/-- Core `c`'s buffers at launch. -/
abbrev W0 : Dev nD → Valuation τ sig (Elt F) := fun c b => (s₀ m ρ).mem ((c : Dev nD), b)
/-- After the two host operations (the zero bias row): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The host operations write the scalar zero and the bias row only. -/
theorem host0_fresh : (hostOps0 : List (HloOp τ sig (Elt F))).Forall fun op => op.fresh = ∅ := by
  simp only [List.Forall]; repeat' constructor
theorem W1_of_ne (c : Dev nD) (b : Ref sig .tc) (hb : b ∉ ([main_cst, main_v0] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, Finset.mem_singleton]
    refine ⟨StableHlo.devRef_ne_of_ne ?_, StableHlo.devRef_ne_of_ne ?_⟩
    · rintro rfl; exact hb (by decide)
    · rintro rfl; exact hb (by decide)))

/-- At region 0's exit: its arrays at what the pipeline leaves (the inputs as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the result's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves the region as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the result's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves the region as it entered. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At the last region's exit: the decode's result array at what the pipeline leaves, every other buffer as entered
    (its two input windows read one array, which it leaves alone). -/
def W5 (c : Dev nD) : Valuation τ sig (Elt F) :=
  Function.update (W4 m ρ c) (Proc.devRef .tc main_v4) ((dat3 (V4 m ρ) c).arrAt 2 cfg3.N)
theorem W5_out (c : Dev nD) : W5 m ρ c (Proc.devRef .tc main_v4) = (dat3 (V4 m ρ) c).arrAt 2 cfg3.N := by
  unfold W5; exact Function.update_self _ _ _
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) _ _
abbrev V5 : (c : Dev nD) → (b : Ref sig .tc) → Buf (Elt F) ((c : Thread nD τ).loc b) := fun c b => W5 m ρ c b

/-! ### An argument's buffer holds its launch contents at every boundary: no host operation and no region writes one -/

theorem W1_main_arg0 (c : Dev nD) : W1 m ρ c (Proc.devRef .tc main_arg0) = m ((c : Thread nD τ).loc main_arg0) :=
  (W1_of_ne m ρ c main_arg0 (by decide)).trans rfl
theorem W2_main_arg0 (c : Dev nD) : W2 m ρ c (Proc.devRef .tc main_arg0) = m ((c : Thread nD τ).loc main_arg0) :=
  (W2_in m ρ c 0 rfl).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)

theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (W3_in m ρ c 0 rfl).trans (W2_main_arg1 m ρ c)
theorem W4_main_arg1 (c : Dev nD) : W4 m ρ c (Proc.devRef .tc main_arg1) = m ((c : Thread nD τ).loc main_arg1) :=
  (W4_in m ρ c 0 rfl).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)

theorem W1_main_arg2 (c : Dev nD) : W1 m ρ c (Proc.devRef .tc main_arg2) = m ((c : Thread nD τ).loc main_arg2) :=
  (W1_of_ne m ρ c main_arg2 (by decide)).trans rfl
theorem W2_main_arg2 (c : Dev nD) : W2 m ρ c (Proc.devRef .tc main_arg2) = m ((c : Thread nD τ).loc main_arg2) :=
  (W2_in m ρ c 1 rfl).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of_ne m ρ c main_arg2 (by decide)).trans (W4_main_arg2 m ρ c)

theorem W1_main_arg3 (c : Dev nD) : W1 m ρ c (Proc.devRef .tc main_arg3) = m ((c : Thread nD τ).loc main_arg3) :=
  (W1_of_ne m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (W3_in m ρ c 2 rfl).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)

theorem W1_main_arg4 (c : Dev nD) : W1 m ρ c (Proc.devRef .tc main_arg4) = m ((c : Thread nD τ).loc main_arg4) :=
  (W1_of_ne m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_in m ρ c 3 rfl).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)

theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (W4_in m ρ c 2 rfl).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)

/-! # The proof data family and the thread state -/

/-- No pallas_call prefetches a table. -/
abbrev adm : (p : Fin 4) → (pcfgs (F := F) p).Adm := fun p => (cfgs p).toPCfg_adm
/-- Every region's proof data, each at its own entry contents: a literal match on the region. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! # The regions as segments -/

set_option backward.isDefEq.respectTransparency.types false in
/-- Region 0 over the thread state "every unscoped buffer at the boundary's contents, the generator register at
    some state, nothing owed": entered at `W1`, left at `W2`. Its arrays are split out of the unscoped buffers
    and put back at their exit contents; the generator register and the scoped buffers no window stages go into the
    region's invariant and come back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (?_ : _ ⊢ (iprop((∃ r, prngReg c r) ∗ Pipeline.scopedRest (Ix := Unit) (Name := ℕ) (U := UR sig nD τ) (Lvl := ℕ) spec0 c) : sProp 𝕄)).trans (phi_in0 (V1 m ρ) c)
    iintro ⟨Hp, -, Hr⟩
    isplitl [Hp]; · iexact Hp
    iexact Hr
  hout c := by
    rw [Pipeline.ownSems0_none, show (pdats m ρ 0 c).Φ (Fin.last _) = (dat0 (V1 m ρ) c).Φ (Fin.last cfg0.N) from rfl]
    refine (phi_out0 (V1 m ρ) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": entered at `W2`, left at `W3`. Its arrays are split out of the unscoped buffers
    and put back at their exit contents; the generator register and the scoped buffers no window stages go into the
    region's invariant and come back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ (iprop((∃ r, prngReg c r) ∗ Pipeline.scopedRest (Ix := Unit) (Name := ℕ) (U := UR sig nD τ) (Lvl := ℕ) spec1 c) : sProp 𝕄)).trans (phi_in1 (V2 m ρ) c)
    iintro ⟨Hp, -, Hr⟩
    isplitl [Hp]; · iexact Hp
    iexact Hr
  hout c := by
    rw [Pipeline.ownSems0_none, show (pdats m ρ 1 c).Φ (Fin.last _) = (dat1 (V2 m ρ) c).Φ (Fin.last cfg1.N) from rfl]
    refine (phi_out1 (V2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at
    some state, nothing owed": entered at `W3`, left at `W4`. Its arrays are split out of the unscoped buffers
    and put back at their exit contents; the generator register and the scoped buffers no window stages go into the
    region's invariant and come back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    refine (?_ : _ ⊢ (iprop((∃ r, prngReg c r) ∗ Pipeline.scopedRest (Ix := Unit) (Name := ℕ) (U := UR sig nD τ) (Lvl := ℕ) spec2 c) : sProp 𝕄)).trans (phi_in2 (V3 m ρ) c)
    iintro ⟨Hp, -, Hr⟩
    isplitl [Hp]; · iexact Hp
    iexact Hr
  hout c := by
    rw [Pipeline.ownSems0_none, show (pdats m ρ 2 c).Φ (Fin.last _) = (dat2 (V3 m ρ) c).Φ (Fin.last cfg2.N) from rfl]
    refine (phi_out2 (V3 m ρ) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decode region over the same thread state: entered at `W4`, left at `W5`. Its two input windows read the one
    array of embeddings, each holding half of it; the buffer is split between them at entry and joined again at exit. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (StableHlo.held (c : Thread nD τ) (Pipeline.ucRefs τ sig) (W4 m ρ c) : sProp 𝕄)
        ⊢ iprop((pdats m ρ 3 c).arrays ((pdats m ρ 3 c).arrAt · 0)
            ∗ Pipeline.unscopedRest (Ix := Unit) (Name := ℕ) (U := UR sig nD τ) (Lvl := ℕ) spec3 c (V4 m ρ c)) := by
      refine (Entails.of_eq ((Pipeline.unscopedBufs_held c (W4 m ρ c)).symm.trans (bufs_split3 c (V4 m ρ c)))).trans ?_
      exact BIClass.sep_mono (arrays_in3 (V4 m ρ) c) Entails.rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V4 m ρ) c).Φ 0 from rfl]
    refine (?_ : _ ⊢ (iprop((∃ r, prngReg c r) ∗ Pipeline.scopedRest (Ix := Unit) (Name := ℕ) (U := UR sig nD τ) (Lvl := ℕ) spec3 c) : sProp 𝕄)).trans (phi_in3 (V4 m ρ) c)
    iintro ⟨Hp, -, Hr⟩
    isplitl [Hp]; · iexact Hp
    iexact Hr
  hout c := by
    rw [Pipeline.ownSems0_none, show (pdats m ρ 3 c).Φ (Fin.last _) = (dat3 (V4 m ρ) c).Φ (Fin.last cfg3.N) from rfl]
    refine (phi_out3 (V4 m ρ) c).trans ?_
    iintro ⟨Hp, Hr⟩
    isplitl [Hp]; · iexact Hp
    isplitr; · iempintro
    iexact Hr
  hexit c := by
    have hjoin : (iprop((pdats m ρ 3 c).arrays ((pdats m ρ 3 c).arrAt · cfg3.N)
          ∗ Pipeline.unscopedRest (Ix := Unit) (Name := ℕ) (U := UR sig nD τ) (Lvl := ℕ) spec3 c (V4 m ρ c)) : sProp 𝕄)
        ⊢ StableHlo.held (c : Thread nD τ) (Pipeline.ucRefs τ sig) (W5 m ρ c) := by
      refine (BIClass.sep_mono (arrays_out3 (V4 m ρ) c) (Entails.of_eq (rest_congr3 c (V4 m ρ c) (V5 m ρ c) ?_).symm)).trans ?_
      · intro b _ h4; exact W5_of_ne m ρ c b h4
      · refine Entails.of_eq ?_
        rw [← Pipeline.unscopedBufs_held c (W5 m ρ c), bufs_split3 c (V5 m ρ c),
          show V5 m ρ c main_v3 = V4 m ρ c main_v3 from W5_of_ne m ρ c main_v3 (by decide),
          show V5 m ρ c main_v4 = (dat3 (V4 m ρ) c).arrAt 2 cfg3.N from W5_out m ρ c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the run -/

/-- The program's five segments in order: the host stretch, then the four regions. -/
abbrev segs : List (Pipeline.Seg (pcfgs (F := F)) adm (pdats m ρ) () defs₀ 𝒱₀ L lv) :=
  [ .host (hseg hostOps0 hostOps0_sub host0_fresh (W0 m ρ)),
    .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting; every final memory holds each argument array as launched and the result array at the last boundary's
    contents `V5` — what the decode region's write-backs leave. -/
theorem run_main : θ_run defs (onTc (τ := τ) (main (F := F))) ⟨m, fun _ => 0, ρ⟩ (fun r => ∀ c : Dev nD,
      r.2.mem ((c.tc : Thread nD τ).loc main_v4) = V5 m ρ c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c)
          ∗ (∃ r, prngReg c r) ∗ ∃ W, owes (c : Thread nD τ) (0 : CellTallies nD τ sig Unit) W) : sProp 𝕄)
        ⊢ iprop((StableHlo.held (c : Thread nD τ) (Pipeline.ucRefs τ sig) (W5 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Kernel.Hand

end
-- ==== Proof.Reg0.lean ====
/-
  The first region of the program, as proof data for the pipeline rule: what each window's buffer holds before and
  after the body at every grid point, and that the body, run on those buffers, leaves them so.

  The region computes t1 = x · W1 + (a row of zeros), 2048 rows at a grid point, four points.  The body loads its
  three inputs whole, multiplies, adds the broadcast row and stores the block whole: one control case, nothing carried
  from point to point.  Everything here holds for any float instance.
-/
import proofs.«129237_j28346784154172_2_alg».proof.Proof.Gen.KernelIdeal.Launch
import proofs.«129237_j28346784154172_2_alg».proof.Proof.Gen.KernelIdeal.Skeleton
import proofs.«129237_j28346784154172_2_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The first region: one block of 2048 rows of x, all of W1 and the bias row, to one block of 2048 rows of the result -/

/-- Window `w`'s block at grid point `t`, read off its array as the region finds it. For the rows of x and of the
    result that is rows 2048·t … 2048·t + 2047; W1 and the bias row are one block, the whole array, at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or the
    block index has not moved since it was fetched: the body never writes an input's buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole of their buffer -/

abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S256 := Rect.unit (s := S256) ![0] S256.size inb_S256_S256_0
abbrev r0_3 : Rect S2048x256 := Rect.unit (s := S2048x256) ![0, 0] S2048x256.size inb_S2048x256_S2048x256_0_0

/-- What the body leaves in the result's buffer: the product of the block of x with W1, plus the bias row, stored whole. -/
def out0_3 (x0 : Vec F S2048x512 .f32) (x1 : Vec F S512x256 .f32) (x2 : Vec F S256 .f32) : Vec F S2048x256 .f32 :=
  View.canon [⟨r0_3, k0_pay1 (View.ld x0 r0_0) (View.ld x1 r0_1) (View.ld x2 r0_2)⟩]

/-- The one store covers the buffer. -/
theorem cover0_3 (p0 : Vec F S2048x256 .f32) (y : S2048x256.Idx) :
    ∃ pc ∈ ([⟨r0_3, p0⟩] : List (View.Piece (Elt F) S2048x256 .f32)), y ∈ pc.1.set :=
  View.cover_of_tiled [⟨r0_3, p0⟩] S2048x256.size (by rfl) y

set_option maxHeartbeats 1000000 in
/-- The body on whole buffers, the inputs' at known contents and the result's at anything: it runs, leaves the inputs
    as they were and the result's buffer at `out0_3` of them. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S256 .f32) (harg3 : arg3.IsWhole) (arg4 : Memref sig .tc .vmem S2048x256 .f32) (harg4 : arg4.IsWhole)
    (x0 : Vec F S2048x512 .f32) (x1 : Vec F S512x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The arrays as the region finds them; after the body at point `t` each input's buffer at its block and the result's
    at `out0_3` of the input blocks; the invariant holds the scoped buffers no window stages and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem owed0 (c : Dev nD) (t : Fin (cfg0.N + 1)) : (dat0 V c).owed t = 0 := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-- The invariant at the first point is the generator register and the scoped buffers no window stages; -/
theorem phi_in0 (c : Dev nD) : iprop((∃ r, prngReg c r) ∗ Pipeline.scopedRest (Ix := Unit) (Name := ℕ) (U := UR sig nD τ) (Lvl := ℕ) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp
/-- and at the last point it gives them back. -/
theorem phi_out0 (c : Dev nD) : (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.KernelIdeal.Hand

end
-- ==== Proof.Reg1.lean ====
/-
  The second region of the program, as proof data for the pipeline rule: what each window's buffer and the accumulator
  hold before and after the body at every grid point, and that the body, run on those buffers, leaves them so.

  The region computes t2 = relu(adj · t1 + b1) · W2, 1024 rows of the result at a time.  A block of 1024 rows of adj is
  8192 wide and comes in two halves of 4096 columns: the sixteen grid points are eight row blocks times two halves.  At
  the first half the body zeroes the accumulator (1024 × 256) and adds the product of the half block of adj with rows
  0 … 4095 of t1; at the second half it adds the product with rows 4096 … 8191, then adds the bias row, takes the
  maximum with zero, multiplies by W2 and stores the block of the result.  The result's buffer is untouched at a first
  half and written back after a second half.  Everything here holds for any float instance.
-/
import proofs.«129237_j28346784154172_2_alg».proof.Proof.Gen.KernelIdeal.Launch
import proofs.«129237_j28346784154172_2_alg».proof.Proof.Gen.KernelIdeal.Skeleton
import proofs.«129237_j28346784154172_2_alg».proof.Proof.Gen.KernelIdeal.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The second region: half a block of 1024 rows of adj, all of t1, the bias row and W2, to one block of 1024 rows of t2 -/

/-- Window `w`'s block at grid point `t`, read off its array as the region finds it. For adj that is rows
    1024·(t / 2) … and columns 4096·(t % 2) …; for the result rows 1024·(t / 2) …; t1, the bias row and W2 are one block,
    the whole array, at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or the
    block index has not moved since it was fetched: the body never writes an input's buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The half block of adj, the bias row, W2, the accumulator and the result's buffer are loaded and stored whole; -/
abbrev r1_adj : Rect S1024x4096 := Rect.unit (s := S1024x4096) ![0, 0] S1024x4096.size inb_S1024x4096_S1024x4096_0_0
abbrev r1_bias : Rect S256 := Rect.unit (s := S256) ![0] S256.size inb_S256_S256_0
abbrev r1_w2 : Rect S256x64 := Rect.unit (s := S256x64) ![0, 0] S256x64.size inb_S256x64_S256x64_0_0
abbrev r1_acc : Rect S1024x256 := Rect.unit (s := S1024x256) ![0, 0] S1024x256.size inb_S1024x256_S1024x256_0_0
abbrev r1_out : Rect S1024x64 := Rect.unit (s := S1024x64) ![0, 0] S1024x64.size inb_S1024x64_S1024x64_0_0
/-- of t1 the body loads the 4096 rows that meet the half block's columns: rows 4096·k … at the point's half `k`. -/
abbrev r1_rows (i : grid1.Coords) : Rect S8192x256 := Rect.unit (s := S8192x256) (k1_off1 i) S4096x256.size (k1_off1_inb i)

/-- The accumulator, as the body is handed it. -/
abbrev acc1M : Memref sig .tc .vmem S1024x256 .f32 := Memref.whole cc1_scratch0

/-! ## What the body leaves -/

/-- The accumulator after a first half: zero plus the product of the half block of adj with its 4096 rows of t1. -/
def acc1_first (i : grid1.Coords) (x0 : Vec F S1024x4096 .f32) (x1 : Vec F S8192x256 .f32) : Vec F S1024x256 .f32 :=
  k1_pay2 (View.ld x1 (r1_rows i)) x0 k1_pay1

/-- The result's buffer after a second half: what the first half left in the accumulator (`xs`) plus this half's
    product, plus the bias row, the maximum with zero of that, times W2. -/
def out1_last (i : grid1.Coords) (x0 : Vec F S1024x4096 .f32) (x1 : Vec F S8192x256 .f32) (x2 : Vec F S256 .f32) (x3 : Vec F S256x64 .f32)
    (xs : Vec F S1024x256 .f32) : Vec F S1024x64 .f32 :=
  k1_pay3 (k1_pay2 (View.ld x1 (r1_rows i)) x0 xs) x2 x3

/-- The accumulator after the first half at position `n`, from that point's blocks. -/
def accAt1 (c : Dev nD) (n : ℕ) (hn : n < cfg1.N) : Vec F S1024x256 .f32 :=
  acc1_first (grid1.coords ⟨n, hn⟩) (iblk1 V c 0 ⟨n, hn⟩) (iblk1 V c 1 ⟨n, hn⟩)

/-! ## The invariant between points -/

/-- The scoped buffers that are neither this region's staging buffers nor its accumulator, at anything, and the
    generator register at some state: the body touches none of them. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- Before position `n`: before a second half (`n` odd) the accumulator holds what the first half before it left;
    before a first half, and after the last point, it holds anything — a first half zeroes it before reading it. -/
def Phi1 (c : Dev nD) (n : ℕ) (hn : n ≤ cfg1.N) : sProp 𝕄 :=
  if h : n % 2 = 1 then
    iprop(owns (c : Thread nD τ) acc1M fullShare (accAt1 V c (n - 1) (by omega)) ∗ rest1 (F := F) c)
  else iprop((∃ d, owns (c : Thread nD τ) acc1M fullShare d) ∗ rest1 (F := F) c)

/-! ## The proof data -/

/-- The arrays as the region finds them; after the body at point `t` each input's buffer at its block and the result's
    at `out1_last` of the point's blocks and of what the point before left in the accumulator (read only where `t` is
    a second half: at a first half the result's buffer is handed back as found); the invariant `Phi1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_last (grid1.coords t) (iblk1 V c 0 t) (iblk1 V c 1 t) (iblk1 V c 2 t) (iblk1 V c 3 t)
        (accAt1 V c (t.val - 1) (Nat.lt_of_le_of_lt (Nat.sub_le _ _) t.isLt))
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t : Fin (cfg1.N + 1)) : (dat1 V c).owed t = 0 := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_last (grid1.coords t) (iblk1 V c 0 t) (iblk1 V c 1 t) (iblk1 V c 2 t) (iblk1 V c 3 t)
    (accAt1 V c (t.val - 1) (Nat.lt_of_le_of_lt (Nat.sub_le _ _) t.isLt)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The two control cases -/

/-- The zero offsets of a whole-buffer access, as a constant function. -/
theorem off00_1 : (![0, 0] : Fin 2 → Nat) = fun _ => 0 := funext fun a => by fin_cases a <;> rfl
theorem off0_1 : (![0] : Fin 1 → Nat) = fun _ => 0 := funext fun a => by fin_cases a <;> rfl

/-- The body's first test: is this the first half (the second grid coordinate is 0)? -/
abbrev first1 (i : grid1.Coords) : Prop := (Scalar.cmpi .ne (Scalar.extui (Scalar.cmpi .eq (BitVec.ofNat 32 (i 1).val) 0#32)) 0#32) = 1#1
/-- It holds at the even positions, -/
theorem first1_iff : ∀ t : Fin cfg1.N, first1 (grid1.coords t) ↔ t.val % 2 = 0 :=
  (by decide +kernel : ∀ t : Fin grid1.N, first1 (grid1.coords t) ↔ t.val % 2 = 0)
/-- and the second test (is this the second half?) at the odd ones. -/
theorem last1_iff : ∀ t : Fin cfg1.N, k1_cond2 (grid1.coords t) = 1#1 ↔ t.val % 2 = 1 :=
  (by decide +kernel : ∀ t : Fin grid1.N, k1_cond2 (grid1.coords t) = 1#1 ↔ t.val % 2 = 1)
/-- The result's window is idle exactly at the first halves, and those are not written back. -/
theorem idle1_4_first : ∀ t : Fin cfg1.N, t.val % 2 = 0 → cfg1.idle 4 (grid1.coords t) = true :=
  (by decide +kernel : ∀ t : Fin grid1.N, t.val % 2 = 0 → idle1 4 (grid1.coords t) = true)
theorem idle1_4_last : ∀ t : Fin cfg1.N, t.val % 2 = 1 → cfg1.idle 4 (grid1.coords t) = false :=
  (by decide +kernel : ∀ t : Fin grid1.N, t.val % 2 = 1 → idle1 4 (grid1.coords t) = false)
theorem noflush1_4_first (t : Fin cfg1.N) (h : t.val % 2 = 0) : (cfg1.win 4).flush t = false :=
  Bool.eq_false_iff.mpr fun hf => by have := (flush1_4 t).mp hf; omega

set_option maxHeartbeats 1000000 in
/-- The body at a first half, on whole buffers: the half block of adj and t1 at known contents, the accumulator at
    anything. It zeroes the accumulator, reads it back, adds the product and stores: the inputs are left as they were and
    the accumulator holds `acc1_first`. The bias row's, W2's and the result's buffers are not touched. -/
theorem sound_kernel1_first (c : Dev nD) (E : Set ℕ) (i : grid1.Coords) (arg2 : Memref sig .tc .vmem S1024x4096 .f32) (harg2 : arg2.IsWhole) (arg3 : Memref sig .tc .vmem S8192x256 .f32) (harg3 : arg3.IsWhole) (arg4 : Memref sig .tc .vmem S256 .f32) (harg4 : arg4.IsWhole) (arg5 : Memref sig .tc .vmem S256x64 .f32) (harg5 : arg5.IsWhole) (arg6 : Memref sig .tc .vmem S1024x64 .f32) (harg6 : arg6.IsWhole) (arg7 : Memref sig .tc .vmem S1024x256 .f32) (harg7 : arg7.IsWhole)
    (hc0 : first1 i) (hc1 : ¬ k1_cond2 i = 1#1)
    (x0 : Vec F S1024x4096 .f32) (x1 : Vec F S8192x256 .f32) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1 ∗ owns (c : Thread nD τ) arg7 fullShare (acc1_first i x0 x1)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d7, %f7, -, H7⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [View.read_writes_eq_canon _ _ _ (fun y => ⟨_, List.mem_cons_self, View.mem_set_unit_zero off00_1 inb_S1024x256_S1024x256_0_0 y⟩),
    View.canon_cons_unit_zero off00_1]
  unfold acc1_first
  sl_unfold_run_names
  rw [View.readCov_unit_zero _ off00_1, View.readAt_eq_ld, View.readAt_eq_ld,
    View.ld_unit_zero (S := S1024x4096) off00_1]

set_option maxHeartbeats 1000000 in
/-- The body at a second half, on whole buffers: the inputs at known contents, the accumulator at what the first half
    left (`xs`), the result's buffer at anything. It adds the product to the accumulator, reads it back, adds the bias
    row, takes the maximum with zero, multiplies by W2 and stores the result: the inputs are left as they were and the
    result's buffer holds `out1_last`. -/
theorem sound_kernel1_last (c : Dev nD) (E : Set ℕ) (i : grid1.Coords) (arg2 : Memref sig .tc .vmem S1024x4096 .f32) (harg2 : arg2.IsWhole) (arg3 : Memref sig .tc .vmem S8192x256 .f32) (harg3 : arg3.IsWhole) (arg4 : Memref sig .tc .vmem S256 .f32) (harg4 : arg4.IsWhole) (arg5 : Memref sig .tc .vmem S256x64 .f32) (harg5 : arg5.IsWhole) (arg6 : Memref sig .tc .vmem S1024x64 .f32) (harg6 : arg6.IsWhole) (arg7 : Memref sig .tc .vmem S1024x256 .f32) (harg7 : arg7.IsWhole)
    (hc0 : ¬ first1 i) (hc1 : k1_cond2 i = 1#1)
    (x0 : Vec F S1024x4096 .f32) (x1 : Vec F S8192x256 .f32) (x2 : Vec F S256 .f32) (x3 : Vec F S256x64 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out1_last i x0 x1 x2 x3 xs) ∗ (∃ d, owns (c : Thread nD τ) arg7 fullShare d)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  subst hf0 hf1 hf2 hf3 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (fun y => ⟨_, List.mem_cons_self, View.mem_set_unit_zero off00_1 inb_S1024x64_S1024x64_0_0 y⟩),
      View.canon_cons_unit_zero off00_1]
    unfold out1_last
    sl_unfold_run_names
    rw [View.readCov_unit_zero _ off00_1, View.readAt_eq_ld, View.readAt_eq_ld, View.readAt_eq_ld, View.readAt_eq_ld, View.readAt_eq_ld,
      View.ld_unit_zero (S := S1024x4096) off00_1, View.ld_unit_zero (S := S1024x256) off00_1,
      View.ld_unit_zero (S := S256) off0_1, View.ld_unit_zero (S := S256x64) off00_1]
  iexists _; iexists _; isplitr
  swap; · iexact H7
  ipureintro; rfl

/-! ## The invariant, case by case -/

theorem Phi1_first (c : Dev nD) (n : ℕ) (hn : n ≤ cfg1.N) (h : n % 2 = 0) :
    Phi1 V c n hn = iprop((∃ d, owns (c : Thread nD τ) acc1M fullShare d) ∗ rest1 (F := F) c) := by
  unfold Phi1; rw [dif_neg (by omega)]

theorem Phi1_last (c : Dev nD) (n : ℕ) (hn : n ≤ cfg1.N) (h : n % 2 = 1) :
    Phi1 V c n hn = iprop(owns (c : Thread nD τ) acc1M fullShare (accAt1 V c (n - 1) (by omega)) ∗ rest1 (F := F) c) := by
  unfold Phi1; rw [dif_pos h]

/-- After a first half at point `t`: the accumulator at `acc1_first` of the point's blocks. -/
theorem Phi1_after_first (c : Dev nD) (t : Fin cfg1.N) (h : t.val % 2 = 0) :
    Phi1 V c (t.val + 1) t.isLt = iprop(owns (c : Thread nD τ) acc1M fullShare
      (acc1_first (grid1.coords t) (iblk1 V c 0 t) (iblk1 V c 1 t)) ∗ rest1 (F := F) c) := by
  rw [Phi1_last V c _ _ (by omega)]; rfl

/-- The scoped buffers no window of this region stages: the accumulator, and the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) acc1M fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [Idealize.SL.BI.bigSepL_singleton, acc1M, owns_whole]
  rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

set_option maxHeartbeats 1000000 in
/-- The body at any point. The inputs' buffers hold their blocks. At a first half the invariant hands over the
    accumulator at anything and takes it back at `acc1_first`; the result's buffer goes through untouched. At a second
    half the invariant hands over the accumulator at what the first half left and takes it back at anything; the result's
    buffer, handed over at anything, comes back at `out1_last`. The other scoped buffers, the generator register and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.castSucc = Phi1 V c t.val (Nat.le_of_lt t.isLt) from rfl,
    show (dat1 V c).Φ t.succ = Phi1 V c (t.val + 1) t.isLt from rfl,
    after1_0, after1_1, after1_2, after1_3]
  by_cases h : t.val % 2 = 0
  · rw [Phi1_first V c t.val _ h, Phi1_after_first V c t h,
      Dat.leavesExact_idle (dat1 V c) 4 t (idle1_4_first t h) (noflush1_4_first t h)]
    iintro ⟨⟨⟨%ds, HS⟩, HR⟩, Ho, ⟨%d0, H0⟩, ⟨%d1, H1⟩, ⟨%d2, H2⟩, ⟨%d3, H3⟩, H4⟩
    iapply (sound_kernel1_first c Set.univ (grid1.coords t) _ _ _ _ _ _ _ _ _ _ _ _ ((first1_iff t).mpr h)
      (fun hh => by have := (last1_iff t).mp hh; omega) (iblk1 V c 0 t) (iblk1 V c 1 t) _)
    isplitl [H0]; · iexact H0
    isplitl [H1]; · iexact H1
    isplitl [HS]; · iexists _; iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexact H4
  · have h1 : t.val % 2 = 1 := by omega
    rw [Phi1_last V c t.val _ h1, Phi1_first V c (t.val + 1) _ (by omega),
      show (dat1 V c).leavesExact 4 t = owns (c : Thread nD τ) (st1_4 t) fullShare ((dat1 V c).after 4 t) from by
        unfold Dat.leavesExact; rw [idle1_4_last t h1],
      after1_4]
    iintro ⟨⟨HS, HR⟩, Ho, ⟨%d0, H0⟩, ⟨%d1, H1⟩, ⟨%d2, H2⟩, ⟨%d3, H3⟩, ⟨%d4, H4⟩⟩
    iapply (sound_kernel1_last c Set.univ (grid1.coords t) _ _ _ _ _ _ _ _ _ _ _ _ (fun hh => h ((first1_iff t).mp hh))
      ((last1_iff t).mpr h1) (iblk1 V c 0 t) (iblk1 V c 1 t) (iblk1 V c 2 t) (iblk1 V c 3 t)
      (accAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexact H4

theorem body_obligation1 (c : Dev nD) : BodyObligation (dat1 (F := F) V c) (defs₀ (F := F)) Variants.none () Set.univ := fun t => by
  rw [bigSep_W1, bigSep_W1]
  exact sound_body1 V c t

/-- The invariant before the first point is the generator register and the scoped buffers no window stages, the
    accumulator at anything among them; -/
theorem phi_in1 (c : Dev nD) : iprop((∃ r, prngReg c r) ∗ Pipeline.scopedRest (Ix := Unit) (Name := ℕ) (U := UR sig nD τ) (Lvl := ℕ) spec1 c) ⊢ ((dat1 V c).Φ 0 : sProp 𝕄) := by
  rw [show (dat1 V c).Φ 0 = Phi1 V c 0 (Nat.zero_le _) from rfl, Phi1_first V c 0 _ rfl, scopedRest1_split]
  unfold rest1
  iintro ⟨Hp, HS, HR⟩
  isplitl [HS]; · iexact HS
  isplitl [HR]; · iexact HR
  iexact Hp

/-- and after the last point (a second half) it gives them back, the accumulator's contents forgotten. -/
theorem phi_out1 (c : Dev nD) : (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V c).Φ (Fin.last cfg1.N) = Phi1 V c cfg1.N (le_refl _) from rfl,
    Phi1_first V c cfg1.N _ (by rw [show cfg1.N = 16 from N_1]), scopedRest1_split]
  unfold rest1
  iintro ⟨HS, HR, Hp⟩
  isplitl [Hp]; · iexact Hp
  isplitl [HS]; · iexact HS
  iexact HR

end Cert.KernelIdeal.Hand

end
-- ==== Proof.Reg2.lean ====
/-
  The third region of the program, as proof data for the pipeline rule: what each window's buffer and the accumulator
  hold before and after the body at every grid point, and that the body, run on those buffers, leaves them so.

  The region computes z = adj · t2 + b2, 1024 rows of the result at a time.  A block of 1024 rows of adj is 8192 wide and
  comes in two halves of 4096 columns: the sixteen grid points are eight row blocks times two halves.  At the first
  half the body zeroes the accumulator and adds the product of the half block of adj with rows 0 … 4095 of t2; at the
  second half it adds the product with rows 4096 … 8191, then adds the bias row and stores the block of the result.  The
  result's buffer is untouched at a first half and written back after a second half.  Everything here holds for any
  float instance.
-/
import proofs.«129237_j28346784154172_2_alg».proof.Proof.Gen.KernelIdeal.Launch
import proofs.«129237_j28346784154172_2_alg».proof.Proof.Gen.KernelIdeal.Skeleton
import proofs.«129237_j28346784154172_2_alg».proof.Proof.Gen.KernelIdeal.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The third region: half a block of 1024 rows of adj, all of t2 and the bias row, to one block of 1024 rows of z -/

/-- Window `w`'s block at grid point `t`, read off its array as the region finds it. For adj that is rows
    1024·(t / 2) … and columns 4096·(t % 2) …; for the result rows 1024·(t / 2) …; t2 and the bias row are one block, the
    whole array, at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or the
    block index has not moved since it was fetched: the body never writes an input's buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The half block of adj, the bias row and the accumulator (and the result's buffer) are loaded and stored whole; -/
abbrev r2_adj : Rect S1024x4096 := Rect.unit (s := S1024x4096) ![0, 0] S1024x4096.size inb_S1024x4096_S1024x4096_0_0
abbrev r2_bias : Rect S64 := Rect.unit (s := S64) ![0] S64.size inb_S64_S64_0
abbrev r2_acc : Rect S1024x64 := Rect.unit (s := S1024x64) ![0, 0] S1024x64.size inb_S1024x64_S1024x64_0_0
/-- of t2 the body loads the 4096 rows that meet the half block's columns: rows 4096·k … at the point's half `k`. -/
abbrev r2_rows (i : grid2.Coords) : Rect S8192x64 := Rect.unit (s := S8192x64) (k2_off1 i) S4096x64.size (k2_off1_inb i)

/-- The accumulator, as the body is handed it. -/
abbrev acc2M : Memref sig .tc .vmem S1024x64 .f32 := Memref.whole cc2_scratch0

/-! ## What the body leaves -/

/-- The accumulator after a first half: zero plus the product of the half block of adj with its 4096 rows of t2. -/
def acc2_first (i : grid2.Coords) (x0 : Vec F S1024x4096 .f32) (x1 : Vec F S8192x64 .f32) : Vec F S1024x64 .f32 :=
  k2_pay2 (View.ld x1 (r2_rows i)) x0 k2_pay1

/-- The result's buffer after a second half: what the first half left in the accumulator (`xs`), plus this half's
    product, plus the bias row. -/
def out2_last (i : grid2.Coords) (x0 : Vec F S1024x4096 .f32) (x1 : Vec F S8192x64 .f32) (x2 : Vec F S64 .f32) (xs : Vec F S1024x64 .f32) :
    Vec F S1024x64 .f32 :=
  k2_pay3 (k2_pay2 (View.ld x1 (r2_rows i)) x0 xs) x2

/-- The accumulator after the first half at position `n`, from that point's blocks. -/
def accAt2 (c : Dev nD) (n : ℕ) (hn : n < cfg2.N) : Vec F S1024x64 .f32 :=
  acc2_first (grid2.coords ⟨n, hn⟩) (iblk2 V c 0 ⟨n, hn⟩) (iblk2 V c 1 ⟨n, hn⟩)

/-! ## The invariant between points -/

/-- The scoped buffers that are neither this region's staging buffers nor its accumulator, at anything, and the
    generator register at some state: the body touches none of them. -/
def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- Before position `n`: before a second half (`n` odd) the accumulator holds what the first half before it left;
    before a first half, and after the last point, it holds anything — a first half zeroes it before reading it. -/
def Phi2 (c : Dev nD) (n : ℕ) (hn : n ≤ cfg2.N) : sProp 𝕄 :=
  if h : n % 2 = 1 then
    iprop(owns (c : Thread nD τ) acc2M fullShare (accAt2 V c (n - 1) (by omega)) ∗ rest2 (F := F) c)
  else iprop((∃ d, owns (c : Thread nD τ) acc2M fullShare d) ∗ rest2 (F := F) c)

/-! ## The proof data -/

/-- The arrays as the region finds them; after the body at point `t` each input's buffer at its block and the result's
    at `out2_last` of the point's blocks and of what the point before left in the accumulator (read only where `t` is
    a second half: at a first half the result's buffer is handed back as found); the invariant `Phi2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_last (grid2.coords t) (iblk2 V c 0 t) (iblk2 V c 1 t) (iblk2 V c 2 t)
        (accAt2 V c (t.val - 1) (Nat.lt_of_le_of_lt (Nat.sub_le _ _) t.isLt))
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem owed2 (c : Dev nD) (t : Fin (cfg2.N + 1)) : (dat2 V c).owed t = 0 := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_last (grid2.coords t) (iblk2 V c 0 t) (iblk2 V c 1 t) (iblk2 V c 2 t)
    (accAt2 V c (t.val - 1) (Nat.lt_of_le_of_lt (Nat.sub_le _ _) t.isLt)) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The two control cases -/

/-- The zero offsets of a whole-buffer access, as a constant function. -/
theorem zero_off2 : (![0, 0] : Fin 2 → Nat) = fun _ => 0 := funext fun a => by fin_cases a <;> rfl
theorem zero_off1 : (![0] : Fin 1 → Nat) = fun _ => 0 := funext fun a => by fin_cases a <;> rfl

/-- The body's first test: is this the first half (the second grid coordinate is 0)? -/
abbrev first2 (i : grid2.Coords) : Prop := (Scalar.cmpi .ne (Scalar.extui (Scalar.cmpi .eq (BitVec.ofNat 32 (i 1).val) 0#32)) 0#32) = 1#1
/-- It holds at the even positions, -/
theorem first2_iff : ∀ t : Fin cfg2.N, first2 (grid2.coords t) ↔ t.val % 2 = 0 :=
  (by decide +kernel : ∀ t : Fin grid2.N, first2 (grid2.coords t) ↔ t.val % 2 = 0)
/-- and the second test (is this the second half?) at the odd ones. -/
theorem last2_iff : ∀ t : Fin cfg2.N, k2_cond2 (grid2.coords t) = 1#1 ↔ t.val % 2 = 1 :=
  (by decide +kernel : ∀ t : Fin grid2.N, k2_cond2 (grid2.coords t) = 1#1 ↔ t.val % 2 = 1)
/-- The result's window is idle exactly at the first halves, and those are not written back. -/
theorem idle2_3_first : ∀ t : Fin cfg2.N, t.val % 2 = 0 → cfg2.idle 3 (grid2.coords t) = true :=
  (by decide +kernel : ∀ t : Fin grid2.N, t.val % 2 = 0 → idle2 3 (grid2.coords t) = true)
theorem idle2_3_last : ∀ t : Fin cfg2.N, t.val % 2 = 1 → cfg2.idle 3 (grid2.coords t) = false :=
  (by decide +kernel : ∀ t : Fin grid2.N, t.val % 2 = 1 → idle2 3 (grid2.coords t) = false)
theorem noflush2_3_first (t : Fin cfg2.N) (h : t.val % 2 = 0) : (cfg2.win 3).flush t = false :=
  Bool.eq_false_iff.mpr fun hf => by have := (flush2_3 t).mp hf; omega

set_option maxHeartbeats 1000000 in
/-- The body at a first half, on whole buffers: the half block of adj and t2 at known contents, the accumulator at
    anything. It zeroes the accumulator, reads it back, adds the product and stores: the inputs are left as they were and
    the accumulator holds `acc2_first`. The bias row's and the result's buffers are not touched. -/
theorem sound_kernel2_first (c : Dev nD) (E : Set ℕ) (i : grid2.Coords) (arg2 : Memref sig .tc .vmem S1024x4096 .f32) (harg2 : arg2.IsWhole) (arg3 : Memref sig .tc .vmem S8192x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole)
    (hc0 : first2 i) (hc1 : ¬ k2_cond2 i = 1#1)
    (x0 : Vec F S1024x4096 .f32) (x1 : Vec F S8192x64 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1 ∗ owns (c : Thread nD τ) arg6 fullShare (acc2_first i x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%d6, %f6, -, H6⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  rw [View.read_writes_eq_canon _ _ _ (fun y => ⟨_, List.mem_cons_self, View.mem_set_unit_zero zero_off2 inb_S1024x64_S1024x64_0_0 y⟩),
    View.canon_cons_unit_zero zero_off2]
  unfold acc2_first
  sl_unfold_run_names
  rw [View.readCov_unit_zero _ zero_off2, View.readAt_eq_ld, View.readAt_eq_ld,
    View.ld_unit_zero (S := S1024x4096) zero_off2]

set_option maxHeartbeats 1000000 in
/-- The body at a second half, on whole buffers: the inputs at known contents, the accumulator at what the first half
    left (`xs`), the result's buffer at anything. It adds the product to the accumulator, reads it back, adds the bias row
    and stores the result: the inputs are left as they were and the result's buffer holds `out2_last`. -/
theorem sound_kernel2_last (c : Dev nD) (E : Set ℕ) (i : grid2.Coords) (arg2 : Memref sig .tc .vmem S1024x4096 .f32) (harg2 : arg2.IsWhole) (arg3 : Memref sig .tc .vmem S8192x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole)
    (hc0 : ¬ first2 i) (hc1 : k2_cond2 i = 1#1)
    (x0 : Vec F S1024x4096 .f32) (x1 : Vec F S8192x64 .f32) (x2 : Vec F S64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out2_last i x0 x1 x2 xs) ∗ (∃ d, owns (c : Thread nD τ) arg6 fullShare d)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0 hf1 hf2 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (fun y => ⟨_, List.mem_cons_self, View.mem_set_unit_zero zero_off2 inb_S1024x64_S1024x64_0_0 y⟩),
      View.canon_cons_unit_zero zero_off2]
    unfold out2_last
    sl_unfold_run_names
    rw [View.readCov_unit_zero _ zero_off2, View.readAt_eq_ld, View.readAt_eq_ld, View.readAt_eq_ld, View.readAt_eq_ld,
      View.ld_unit_zero (S := S1024x4096) zero_off2, View.ld_unit_zero (S := S1024x64) zero_off2,
      View.ld_unit_zero (S := S64) zero_off1]
  iexists _; iexists _; isplitr
  swap; · iexact H6
  ipureintro; rfl

/-! ## The invariant, case by case -/

theorem Phi2_first (c : Dev nD) (n : ℕ) (hn : n ≤ cfg2.N) (h : n % 2 = 0) :
    Phi2 V c n hn = iprop((∃ d, owns (c : Thread nD τ) acc2M fullShare d) ∗ rest2 (F := F) c) := by
  unfold Phi2; rw [dif_neg (by omega)]

theorem Phi2_last (c : Dev nD) (n : ℕ) (hn : n ≤ cfg2.N) (h : n % 2 = 1) :
    Phi2 V c n hn = iprop(owns (c : Thread nD τ) acc2M fullShare (accAt2 V c (n - 1) (by omega)) ∗ rest2 (F := F) c) := by
  unfold Phi2; rw [dif_pos h]

/-- After a first half at point `t`: the accumulator at `acc2_first` of the point's blocks. -/
theorem Phi2_after_first (c : Dev nD) (t : Fin cfg2.N) (h : t.val % 2 = 0) :
    Phi2 V c (t.val + 1) t.isLt = iprop(owns (c : Thread nD τ) acc2M fullShare
      (acc2_first (grid2.coords t) (iblk2 V c 0 t) (iblk2 V c 1 t)) ∗ rest2 (F := F) c) := by
  rw [Phi2_last V c _ _ (by omega)]; rfl

/-- The scoped buffers no window of this region stages: the accumulator, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) acc2M fullShare d)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [Idealize.SL.BI.bigSepL_singleton, acc2M, owns_whole]
  rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 1000000 in
/-- The body at any point. The inputs' buffers hold their blocks. At a first half the invariant hands over the
    accumulator at anything and takes it back at `acc2_first`; the result's buffer goes through untouched. At a second
    half the invariant hands over the accumulator at what the first half left and takes it back at anything; the result's
    buffer, handed over at anything, comes back at `out2_last`. The other scoped buffers, the generator register and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.castSucc = Phi2 V c t.val (Nat.le_of_lt t.isLt) from rfl,
    show (dat2 V c).Φ t.succ = Phi2 V c (t.val + 1) t.isLt from rfl,
    after2_0, after2_1, after2_2]
  by_cases h : t.val % 2 = 0
  · rw [Phi2_first V c t.val _ h, Phi2_after_first V c t h,
      Dat.leavesExact_idle (dat2 V c) 3 t (idle2_3_first t h) (noflush2_3_first t h)]
    iintro ⟨⟨⟨%ds, HS⟩, HR⟩, Ho, ⟨%d0, H0⟩, ⟨%d1, H1⟩, ⟨%d2, H2⟩, H3⟩
    iapply (sound_kernel2_first c Set.univ (grid2.coords t) _ _ _ _ _ _ _ _ _ _ ((first2_iff t).mpr h)
      (fun hh => by have := (last2_iff t).mp hh; omega) (iblk2 V c 0 t) (iblk2 V c 1 t) _)
    isplitl [H0]; · iexact H0
    isplitl [H1]; · iexact H1
    isplitl [HS]; · iexists _; iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexact H3
  · have h1 : t.val % 2 = 1 := by omega
    rw [Phi2_last V c t.val _ h1, Phi2_first V c (t.val + 1) _ (by omega),
      show (dat2 V c).leavesExact 3 t = owns (c : Thread nD τ) (st2_3 t) fullShare ((dat2 V c).after 3 t) from by
        unfold Dat.leavesExact; rw [idle2_3_last t h1],
      after2_3]
    iintro ⟨⟨HS, HR⟩, Ho, ⟨%d0, H0⟩, ⟨%d1, H1⟩, ⟨%d2, H2⟩, ⟨%d3, H3⟩⟩
    iapply (sound_kernel2_last c Set.univ (grid2.coords t) _ _ _ _ _ _ _ _ _ _ (fun hh => h ((first2_iff t).mp hh))
      ((last2_iff t).mpr h1) (iblk2 V c 0 t) (iblk2 V c 1 t) (iblk2 V c 2 t)
      (accAt2 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

/-- The invariant before the first point is the generator register and the scoped buffers no window stages, the
    accumulator at anything among them; -/
theorem phi_in2 (c : Dev nD) : iprop((∃ r, prngReg c r) ∗ Pipeline.scopedRest (Ix := Unit) (Name := ℕ) (U := UR sig nD τ) (Lvl := ℕ) spec2 c) ⊢ ((dat2 V c).Φ 0 : sProp 𝕄) := by
  rw [show (dat2 V c).Φ 0 = Phi2 V c 0 (Nat.zero_le _) from rfl, Phi2_first V c 0 _ rfl, scopedRest2_split]
  unfold rest2
  iintro ⟨Hp, HS, HR⟩
  isplitl [HS]; · iexact HS
  isplitl [HR]; · iexact HR
  iexact Hp

/-- and after the last point (a second half) it gives them back, the accumulator's contents forgotten. -/
theorem phi_out2 (c : Dev nD) : (dat2 V c).Φ (Fin.last cfg2.N) ⊢ (iprop((∃ r, prngReg c r) ∗ Pipeline.scopedRest (Ix := Unit) (Name := ℕ) (U := UR sig nD τ) (Lvl := ℕ) spec2 c) : sProp 𝕄) := by
  rw [show (dat2 V c).Φ (Fin.last cfg2.N) = Phi2 V c cfg2.N (le_refl _) from rfl,
    Phi2_first V c cfg2.N _ (by rw [show cfg2.N = 16 from N_2]), scopedRest2_split]
  unfold rest2
  iintro ⟨HS, HR, Hp⟩
  isplitl [Hp]; · iexact Hp
  isplitl [HS]; · iexact HS
  iexact HR

end Cert.KernelIdeal.Hand

end
-- ==== Proof.Reg3.lean ====
/-
  The last region of the program, the decode, as proof data for the pipeline rule: what each window's buffer holds
  before and after the body at every grid point, and that the body, run on those buffers, leaves them so.

  The region computes out = logistic (z · zᵀ), a block of 2048 × 2048 entries at each of the 4 × 4 grid points
  (i, j): rows 2048·i … of z against rows 2048·j … of z.  Both input windows stage the whole of the SAME array z,
  once, at the first point; the body cuts its two row blocks out of the staged copies at offsets computed from the
  point, multiplies them rows against rows, applies the logistic function and stores the block whole.  One control
  case, nothing carried from point to point.  Because the two input windows read one array, each holds half of the
  full share of it.  Everything here holds for any float instance.
-/
import proofs.«129237_j28346784154172_2_alg».proof.Proof.Gen.KernelIdeal.Launch
import proofs.«129237_j28346784154172_2_alg».proof.Proof.Gen.KernelIdeal.Skeleton
import proofs.«129237_j28346784154172_2_alg».proof.Proof.Gen.KernelIdeal.Points
import Idealize.ShloMosaic.Lib.Pipeline.Frame
import Idealize.ShloMosaic.Lib.Pipeline.FrameBody
import Idealize.ShloMosaic.Lib.Pipeline.Cells
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # The decode: all of z, twice, to one block of 2048 × 2048 entries of the result -/

/-- Window `w`'s block at grid point `t`, read off its array as the region finds it. For the two input windows that
    is the whole of z at every point; for the result it is rows 2048·i …, columns 2048·j … at the point (i, j). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block, the whole of z, at every point, whether the point
    fetched it or the block index has not moved since it was fetched: the body never writes an input's buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: a block of 2048 rows out of each staged copy of z, at the point's offsets, and the result's
    buffer whole -/

abbrev r3_0 (i : grid3.Coords) : Rect S8192x64 := Rect.unit (s := S8192x64) (k3_off1 i) S2048x64.size (k3_off1_inb i)
abbrev r3_1 (i : grid3.Coords) : Rect S8192x64 := Rect.unit (s := S8192x64) (k3_off2 i) S2048x64.size (k3_off2_inb i)
abbrev r3_2 : Rect S2048x2048 := Rect.unit (s := S2048x2048) ![0, 0] S2048x2048.size inb_S2048x2048_S2048x2048_0_0

/-- What the body leaves in the result's buffer at the point with coordinates `i`: the logistic function of the
    product, rows against rows, of the two row blocks it cut out of the staged copies, stored whole. -/
def out3_2 (i : grid3.Coords) (x0 : Vec F S8192x64 .f32) (x1 : Vec F S8192x64 .f32) : Vec F S2048x2048 .f32 :=
  View.canon [⟨r3_2, k3_pay1 (View.ld x0 (r3_0 i)) (View.ld x1 (r3_1 i))⟩]

/-- The one store covers the buffer. -/
theorem cover3_2 (p0 : Vec F S2048x2048 .f32) (y : S2048x2048.Idx) :
    ∃ pc ∈ ([⟨r3_2, p0⟩] : List (View.Piece (Elt F) S2048x2048 .f32)), y ∈ pc.1.set :=
  View.cover_of_tiled [⟨r3_2, p0⟩] S2048x2048.size (by rfl) y

set_option maxHeartbeats 1000000 in
/-- The body on whole buffers, the inputs' at known contents and the result's at anything: it runs, leaves the inputs
    as they were and the result's buffer at `out3_2` of them. -/
theorem sound_kernel3 (c : Dev nD) (E : Set ℕ) (i : grid3.Coords) (arg2 : Memref sig .tc .vmem S8192x64 .f32) (harg2 : arg2.IsWhole) (arg3 : Memref sig .tc .vmem S8192x64 .f32) (harg3 : arg3.IsWhole) (arg4 : Memref sig .tc .vmem S2048x2048 .f32) (harg4 : arg4.IsWhole)
    (x0 : Vec F S8192x64 .f32) (x1 : Vec F S8192x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 i x0 x1)) -∗ K ⟨⟩))
      ⊢ wp frame (wpE (defs₀ (F := F)) Variants.none c none) E (cc3_kernel i arg2 harg2 arg3 harg3 arg4 harg4) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The arrays as the region finds them; after the body at point `t` each input's buffer still at the whole of z and
    the result's at `out3_2` of them; the invariant holds the scoped buffers no window stages and the generator
    register, untouched; nothing owed; the two input windows hold the two halves of the full share of z. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (grid3.coords t) (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem owed3 (c : Dev nD) (t : Fin (cfg3.N + 1)) : (dat3 V c).owed t = 0 := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (grid3.coords t) (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold the whole of z, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

/-- The invariant at the first point is the generator register and the scoped buffers no window stages; at the last
    point it gives them back. -/
theorem phi_in3 (c : Dev nD) : iprop((∃ r, prngReg c r) ∗ Pipeline.scopedRest (Ix := Unit) (Name := ℕ) (U := UR sig nD τ) (Lvl := ℕ) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp
theorem phi_out3 (c : Dev nD) : (dat3 V c).Φ (Fin.last cfg3.N) ⊢ (iprop((∃ r, prngReg c r) ∗ Pipeline.scopedRest (Ix := Unit) (Name := ℕ) (U := UR sig nD τ) (Lvl := ℕ) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

/-! ## The arrays on entry and on exit -/

/-- The shares the proof data hold the three arrays at: the two halves of the full share of z, the result outright. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- The three windows' arrays are whole buffers: their element sets are everything. -/
theorem set3_0 : (cfg3.win 0).arr.view.set = Finset.univ := (arr_whole3 0).set_eq_univ
theorem set3_1 : (cfg3.win 1).arr.view.set = Finset.univ := (arr_whole3 1).set_eq_univ
theorem set3_2 : (cfg3.win 2).arr.view.set = Finset.univ := (arr_whole3 2).set_eq_univ

/-- Entering the region: z whole at the full share splits into the two halves the input windows hold; the result's
    array is held outright. -/
theorem arrays_in3 (c : Dev nD) :
    iprop((((c : Thread nD τ).loc main_v3) ↦{fullShare} V c main_v3) ∗ (((c : Thread nD τ).loc main_v4) ↦{fullShare} V c main_v4))
      ⊢ ((dat3 V c).arrays ((dat3 V c).arrAt · 0) : sProp 𝕄) := by
  unfold Dat.arrays
  rw [bigSep_W3, set3_0, set3_2, share3_0, share3_1, share3_2]
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- An input window's array is never written: at every point it is as the region found it. -/
theorem arrAt3_0 (c : Dev nD) (n : Nat) : (dat3 V c).arrAt 0 n = V c main_v3 :=
  ((dat3 V c).arrAt_in 0 rfl n).trans (A_eq3 V c 0)
theorem arrAt3_1 (c : Dev nD) (n : Nat) : (dat3 V c).arrAt 1 n = V c main_v3 :=
  ((dat3 V c).arrAt_in 1 rfl n).trans (A_eq3 V c 1)

/-- Leaving it: the two halves join to z whole at the full share, as it was entered; the result's array holds what
    the write-backs left. -/
theorem arrays_out3 (c : Dev nD) :
    (dat3 V c).arrays ((dat3 V c).arrAt · cfg3.N)
      ⊢ (iprop((((c : Thread nD τ).loc main_v3) ↦{fullShare} V c main_v3) ∗ (((c : Thread nD τ).loc main_v4) ↦{fullShare} (dat3 V c).arrAt 2 cfg3.N)) : sProp 𝕄) := by
  unfold Dat.arrays
  rw [bigSep_W3, set3_0, set3_2, share3_0, share3_1, share3_2]
  dsimp only
  rw [arrAt3_0, arrAt3_1]
  iintro ⟨Hl, Hr, H4⟩
  isplitl [Hl Hr]
  · iapply (pointsTo_share (PosShare.mem_left_op_right fullShare)).2
    isplitl [Hl]; · iexact Hl
    iexact Hr
  iexact H4

end Cert.KernelIdeal.Hand

end
-- ==== Proof.Reg3Bufs.lean ====
/-
  The decode region's buffers.  Its three windows stand on two arrays — the embeddings, read through two windows, and
  the result — so a core's unscoped buffers are: the embeddings' buffer, the result's buffer, and the rest, which no
  window of the region touches.  Changing what the result's buffer holds leaves the rest as it was.
-/
import proofs.«129237_j28346784154172_2_alg».proof.Proof.Reg3
import Idealize.ShloMosaic.Lib.Pipeline.Frame
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The distinct arrays behind the decode's windows are the embeddings and the result. -/
theorem arrs3 : Finset.univ.image (Pipeline.arrRef spec3) = ([main_v3, main_v4] : List (Ref sig .tc)).toFinset := by decide

/-- A core's unscoped buffers at contents `V`: the embeddings' buffer, the result's buffer, the rest. -/
theorem bufs_split3 (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v3) ↦{fullShare} V main_v3) ∗ (((c : Thread nD τ).loc main_v4) ↦{fullShare} V main_v4))
          ∗ Pipeline.unscopedRest (Ix := Unit) (Name := ℕ) (U := UR sig nD τ) (Lvl := ℕ) spec3 c V) := by
  have e : (unscopedBufs (Ix := Unit) (Name := ℕ) (U := UR sig nD τ) (Lvl := ℕ) c V : sProp 𝕄)
      = iprop((Pipeline.arrBufs (Ix := Unit) (Name := ℕ) (U := UR sig nD τ) (Lvl := ℕ) spec3 c V : sProp 𝕄)
          ∗ Pipeline.unscopedRest (Ix := Unit) (Name := ℕ) (U := UR sig nD τ) (Lvl := ℕ) spec3 c V) :=
    Pipeline.unscopedBufs_split₀ (cfgs := cfgs) (p := 3) (by decide) c V
  rw [e]
  unfold Pipeline.arrBufs
  rw [bigSep_eq_bigSepL_of_eq [main_v3, main_v4] arrs3 (by decide)]
  rfl

/-- The rest reads `V` off the two arrays only. -/
theorem rest_congr3 (c : Dev nD) (V V' : (b : Ref sig .tc) → Buf (Elt F) ((c : Thread nD τ).loc b))
    (h : ∀ b, b ≠ main_v3 → b ≠ main_v4 → V' b = V b) :
    (Pipeline.unscopedRest (Ix := Unit) (Name := ℕ) (U := UR sig nD τ) (Lvl := ℕ) spec3 c V' : sProp 𝕄)
      = Pipeline.unscopedRest (Ix := Unit) (Name := ℕ) (U := UR sig nD τ) (Lvl := ℕ) spec3 c V := by
  unfold Pipeline.unscopedRest
  refine bigSep_congr fun b hb => ?_
  have hb' := (Finset.mem_sdiff.mp hb).2
  rw [arrs3] at hb'
  have h3 : b ≠ main_v3 := fun e => hb' (by rw [e]; decide)
  have h4 : b ≠ main_v4 := fun e => hb' (by rw [e]; decide)
  rw [h b h3 h4]

end Cert.KernelIdeal.Hand

end
-- ==== Proof.Run.lean ====
/-
  The whole program's run, assembled from its four regions.

  The program is a short host stretch (a row of zeros, the first region's bias) followed by four kernel regions, each
  reading what the one before it wrote: t1 = x · W1; t2 = max (adj · t1 + b1) 0 · W2; z = adj · t2 + b2; the decode
  logistic (z · zᵀ).  Between two segments the core holds every unscoped buffer whole at a known valuation: the launch
  memory, then the host operations' results, then, after each region, its result array at what the region's
  write-backs leave and everything else unchanged.  Each region is entered by splitting its arrays out of that state
  and left by putting them back.  No region writes an argument, so the arguments end as launched; the result array
  ends at the last valuation's contents.  Everything here holds for any float instance.
-/
import proofs.«129237_j28346784154172_2_alg».proof.Proof.Reg0
import proofs.«129237_j28346784154172_2_alg».proof.Proof.Reg1
import proofs.«129237_j28346784154172_2_alg».proof.Proof.Reg2
import proofs.«129237_j28346784154172_2_alg».proof.Proof.Reg3
import proofs.«129237_j28346784154172_2_alg».proof.Proof.Reg3Bufs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program: a fold from the launch memory -/

/-- Core `c`'s buffers at launch. -/
abbrev W0 : Dev nD → Valuation τ sig (Elt F) := fun c b => (s₀ m ρ).mem ((c : Dev nD), b)
/-- After the two host operations (the zero bias row): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The host operations write the scalar zero and the bias row only. -/
theorem host0_fresh : (hostOps0 : List (HloOp τ sig (Elt F))).Forall fun op => op.fresh = ∅ := by
  simp only [List.Forall]; repeat' constructor
theorem W1_of_ne (c : Dev nD) (b : Ref sig .tc) (hb : b ∉ ([main_cst, main_v0] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, Finset.mem_singleton]
    refine ⟨StableHlo.devRef_ne_of_ne ?_, StableHlo.devRef_ne_of_ne ?_⟩
    · rintro rfl; exact hb (by decide)
    · rintro rfl; exact hb (by decide)))

/-- At region 0's exit: its arrays at what the pipeline leaves (the inputs as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the result's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves the region as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the result's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves the region as it entered. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At the last region's exit: the decode's result array at what the pipeline leaves, every other buffer as entered
    (its two input windows read one array, which it leaves alone). -/
def W5 (c : Dev nD) : Valuation τ sig (Elt F) :=
  Function.update (W4 m ρ c) (Proc.devRef .tc main_v4) ((dat3 (V4 m ρ) c).arrAt 2 cfg3.N)
theorem W5_out (c : Dev nD) : W5 m ρ c (Proc.devRef .tc main_v4) = (dat3 (V4 m ρ) c).arrAt 2 cfg3.N := by
  unfold W5; exact Function.update_self _ _ _
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) _ _
abbrev V5 : (c : Dev nD) → (b : Ref sig .tc) → Buf (Elt F) ((c : Thread nD τ).loc b) := fun c b => W5 m ρ c b

/-! ### An argument's buffer holds its launch contents at every boundary: no host operation and no region writes one -/

theorem W1_main_arg0 (c : Dev nD) : W1 m ρ c (Proc.devRef .tc main_arg0) = m ((c : Thread nD τ).loc main_arg0) :=
  (W1_of_ne m ρ c main_arg0 (by decide)).trans rfl
theorem W2_main_arg0 (c : Dev nD) : W2 m ρ c (Proc.devRef .tc main_arg0) = m ((c : Thread nD τ).loc main_arg0) :=
  (W2_in m ρ c 0 rfl).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)

theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (W3_in m ρ c 0 rfl).trans (W2_main_arg1 m ρ c)
theorem W4_main_arg1 (c : Dev nD) : W4 m ρ c (Proc.devRef .tc main_arg1) = m ((c : Thread nD τ).loc main_arg1) :=
  (W4_in m ρ c 0 rfl).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)

theorem W1_main_arg2 (c : Dev nD) : W1 m ρ c (Proc.devRef .tc main_arg2) = m ((c : Thread nD τ).loc main_arg2) :=
  (W1_of_ne m ρ c main_arg2 (by decide)).trans rfl
theorem W2_main_arg2 (c : Dev nD) : W2 m ρ c (Proc.devRef .tc main_arg2) = m ((c : Thread nD τ).loc main_arg2) :=
  (W2_in m ρ c 1 rfl).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of_ne m ρ c main_arg2 (by decide)).trans (W4_main_arg2 m ρ c)

theorem W1_main_arg3 (c : Dev nD) : W1 m ρ c (Proc.devRef .tc main_arg3) = m ((c : Thread nD τ).loc main_arg3) :=
  (W1_of_ne m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (W3_in m ρ c 2 rfl).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)

theorem W1_main_arg4 (c : Dev nD) : W1 m ρ c (Proc.devRef .tc main_arg4) = m ((c : Thread nD τ).loc main_arg4) :=
  (W1_of_ne m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_in m ρ c 3 rfl).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)

theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (W4_in m ρ c 2 rfl).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)

/-! # The proof data family and the thread state -/

/-- No pallas_call prefetches a table. -/
abbrev adm : (p : Fin 4) → (pcfgs (F := F) p).Adm := fun p => (cfgs p).toPCfg_adm
/-- Every region's proof data, each at its own entry contents: a literal match on the region. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! # The regions as segments -/

set_option backward.isDefEq.respectTransparency.types false in
/-- Region 0 over the thread state "every unscoped buffer at the boundary's contents, the generator register at
    some state, nothing owed": entered at `W1`, left at `W2`. Its arrays are split out of the unscoped buffers
    and put back at their exit contents; the generator register and the scoped buffers no window stages go into the
    region's invariant and come back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (?_ : _ ⊢ (iprop((∃ r, prngReg c r) ∗ Pipeline.scopedRest (Ix := Unit) (Name := ℕ) (U := UR sig nD τ) (Lvl := ℕ) spec0 c) : sProp 𝕄)).trans (phi_in0 (V1 m ρ) c)
    iintro ⟨Hp, -, Hr⟩
    isplitl [Hp]; · iexact Hp
    iexact Hr
  hout c := by
    rw [Pipeline.ownSems0_none, show (pdats m ρ 0 c).Φ (Fin.last _) = (dat0 (V1 m ρ) c).Φ (Fin.last cfg0.N) from rfl]
    refine (phi_out0 (V1 m ρ) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": entered at `W2`, left at `W3`. Its arrays are split out of the unscoped buffers
    and put back at their exit contents; the generator register and the scoped buffers no window stages go into the
    region's invariant and come back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ (iprop((∃ r, prngReg c r) ∗ Pipeline.scopedRest (Ix := Unit) (Name := ℕ) (U := UR sig nD τ) (Lvl := ℕ) spec1 c) : sProp 𝕄)).trans (phi_in1 (V2 m ρ) c)
    iintro ⟨Hp, -, Hr⟩
    isplitl [Hp]; · iexact Hp
    iexact Hr
  hout c := by
    rw [Pipeline.ownSems0_none, show (pdats m ρ 1 c).Φ (Fin.last _) = (dat1 (V2 m ρ) c).Φ (Fin.last cfg1.N) from rfl]
    refine (phi_out1 (V2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at
    some state, nothing owed": entered at `W3`, left at `W4`. Its arrays are split out of the unscoped buffers
    and put back at their exit contents; the generator register and the scoped buffers no window stages go into the
    region's invariant and come back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    refine (?_ : _ ⊢ (iprop((∃ r, prngReg c r) ∗ Pipeline.scopedRest (Ix := Unit) (Name := ℕ) (U := UR sig nD τ) (Lvl := ℕ) spec2 c) : sProp 𝕄)).trans (phi_in2 (V3 m ρ) c)
    iintro ⟨Hp, -, Hr⟩
    isplitl [Hp]; · iexact Hp
    iexact Hr
  hout c := by
    rw [Pipeline.ownSems0_none, show (pdats m ρ 2 c).Φ (Fin.last _) = (dat2 (V3 m ρ) c).Φ (Fin.last cfg2.N) from rfl]
    refine (phi_out2 (V3 m ρ) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decode region over the same thread state: entered at `W4`, left at `W5`. Its two input windows read the one
    array of embeddings, each holding half of it; the buffer is split between them at entry and joined again at exit. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (StableHlo.held (c : Thread nD τ) (Pipeline.ucRefs τ sig) (W4 m ρ c) : sProp 𝕄)
        ⊢ iprop((pdats m ρ 3 c).arrays ((pdats m ρ 3 c).arrAt · 0)
            ∗ Pipeline.unscopedRest (Ix := Unit) (Name := ℕ) (U := UR sig nD τ) (Lvl := ℕ) spec3 c (V4 m ρ c)) := by
      refine (Entails.of_eq ((Pipeline.unscopedBufs_held c (W4 m ρ c)).symm.trans (bufs_split3 c (V4 m ρ c)))).trans ?_
      exact BIClass.sep_mono (arrays_in3 (V4 m ρ) c) Entails.rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V4 m ρ) c).Φ 0 from rfl]
    refine (?_ : _ ⊢ (iprop((∃ r, prngReg c r) ∗ Pipeline.scopedRest (Ix := Unit) (Name := ℕ) (U := UR sig nD τ) (Lvl := ℕ) spec3 c) : sProp 𝕄)).trans (phi_in3 (V4 m ρ) c)
    iintro ⟨Hp, -, Hr⟩
    isplitl [Hp]; · iexact Hp
    iexact Hr
  hout c := by
    rw [Pipeline.ownSems0_none, show (pdats m ρ 3 c).Φ (Fin.last _) = (dat3 (V4 m ρ) c).Φ (Fin.last cfg3.N) from rfl]
    refine (phi_out3 (V4 m ρ) c).trans ?_
    iintro ⟨Hp, Hr⟩
    isplitl [Hp]; · iexact Hp
    isplitr; · iempintro
    iexact Hr
  hexit c := by
    have hjoin : (iprop((pdats m ρ 3 c).arrays ((pdats m ρ 3 c).arrAt · cfg3.N)
          ∗ Pipeline.unscopedRest (Ix := Unit) (Name := ℕ) (U := UR sig nD τ) (Lvl := ℕ) spec3 c (V4 m ρ c)) : sProp 𝕄)
        ⊢ StableHlo.held (c : Thread nD τ) (Pipeline.ucRefs τ sig) (W5 m ρ c) := by
      refine (BIClass.sep_mono (arrays_out3 (V4 m ρ) c) (Entails.of_eq (rest_congr3 c (V4 m ρ c) (V5 m ρ c) ?_).symm)).trans ?_
      · intro b _ h4; exact W5_of_ne m ρ c b h4
      · refine Entails.of_eq ?_
        rw [← Pipeline.unscopedBufs_held c (W5 m ρ c), bufs_split3 c (V5 m ρ c),
          show V5 m ρ c main_v3 = V4 m ρ c main_v3 from W5_of_ne m ρ c main_v3 (by decide),
          show V5 m ρ c main_v4 = (dat3 (V4 m ρ) c).arrAt 2 cfg3.N from W5_out m ρ c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the run -/

/-- The program's five segments in order: the host stretch, then the four regions. -/
abbrev segs : List (Pipeline.Seg (pcfgs (F := F)) adm (pdats m ρ) () defs₀ 𝒱₀ L lv) :=
  [ .host (hseg hostOps0 hostOps0_sub host0_fresh (W0 m ρ)),
    .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting; every final memory holds each argument array as launched and the result array at the last boundary's
    contents `V5` — what the decode region's write-backs leave. -/
theorem run_main : θ_run defs (onTc (τ := τ) (main (F := F))) ⟨m, fun _ => 0, ρ⟩ (fun r => ∀ c : Dev nD,
      r.2.mem ((c.tc : Thread nD τ).loc main_v4) = V5 m ρ c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c)
          ∗ (∃ r, prngReg c r) ∗ ∃ W, owes (c : Thread nD τ) (0 : CellTallies nD τ sig Unit) W) : sProp 𝕄)
        ⊢ iprop((StableHlo.held (c : Thread nD τ) (Pipeline.ucRefs τ sig) (W5 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Hand

end
-- ==== Proof.Spec.lean ====
/-
  The function both programs compute, stage by stage, on the extended reals.

  A two-layer graph convolution followed by a dot-product decode.  With x the node features, adj the adjacency,
  W1, b1, W2, b2 the two layers' weights and biases:

    t1  = x · W1                                  (8192 × 256)
    hid = max (adj · t1 + b1) 0                   (8192 × 256)
    t2  = hid · W2                                (8192 × 64)
    z   = adj · t2 + b2                           (8192 × 64)
    out = logistic (z · zᵀ)                       (8192 × 8192)

  Every product is a plain sum of products over the contracted axis; every entry is stated index by index, an index
  given by its row and its column.  Nothing here needs the entries to be finite: the only laws used downstream are
  the commutative-monoid laws of addition, which hold on all extended reals.
-/
import Idealize.ShloMosaic.PureOps.Ideal
import Idealize.ShloMosaic.Lib.ValueIdx

noncomputable section

open scoped BigOperators

namespace Cert.Spec

open Idealize.ShloMosaic Idealize.ShloMosaic.ValueIdx

/-- A matrix product with a row of biases added: entry (r, c) is the sum over k of a (r, k) · b (k, c), plus bias c. -/
def affine {M K N : Nat} (a : FVec Ideal ⟨2, ![M, K]⟩ .f32) (b : FVec Ideal ⟨2, ![K, N]⟩ .f32)
    (bias : FVec Ideal ⟨1, ![N]⟩ .f32) : FVec Ideal ⟨2, ![M, N]⟩ .f32 :=
  fun i => (∑ k : Fin K, a (ix2 (i 0) k) * b (ix2 k (i 1))) + bias (ix1 (i 1))

/-- A plain matrix product: entry (r, c) is the sum over k of a (r, k) · b (k, c). -/
def prod {M K N : Nat} (a : FVec Ideal ⟨2, ![M, K]⟩ .f32) (b : FVec Ideal ⟨2, ![K, N]⟩ .f32) :
    FVec Ideal ⟨2, ![M, N]⟩ .f32 :=
  fun i => ∑ k : Fin K, a (ix2 (i 0) k) * b (ix2 k (i 1))

/-- Adding a row of zeros to a product changes nothing, on every extended real. -/
theorem affine_zero {M K N : Nat} (a : FVec Ideal ⟨2, ![M, K]⟩ .f32) (b : FVec Ideal ⟨2, ![K, N]⟩ .f32)
    (bias : FVec Ideal ⟨1, ![N]⟩ .f32) (h : ∀ j, bias j = 0) : affine a b bias = prod a b := by
  funext i; unfold affine prod; rw [h, add_zero]

/-- The first layer's feature transform: x · W1. -/
def t1 (x : FVec Ideal ⟨2, ![8192, 512]⟩ .f32) (w1 : FVec Ideal ⟨2, ![512, 256]⟩ .f32) :
    FVec Ideal ⟨2, ![8192, 256]⟩ .f32 := prod x w1

/-- The hidden layer: the aggregated features plus the bias, clamped below at zero. -/
def hid (adj : FVec Ideal ⟨2, ![8192, 8192]⟩ .f32) (t : FVec Ideal ⟨2, ![8192, 256]⟩ .f32)
    (b1 : FVec Ideal ⟨1, ![256]⟩ .f32) : FVec Ideal ⟨2, ![8192, 256]⟩ .f32 :=
  fun i => max (affine adj t b1 i) 0

/-- The second layer's feature transform of the hidden layer: hid · W2. -/
def t2 (adj : FVec Ideal ⟨2, ![8192, 8192]⟩ .f32) (t : FVec Ideal ⟨2, ![8192, 256]⟩ .f32)
    (b1 : FVec Ideal ⟨1, ![256]⟩ .f32) (w2 : FVec Ideal ⟨2, ![256, 64]⟩ .f32) :
    FVec Ideal ⟨2, ![8192, 64]⟩ .f32 := prod (hid adj t b1) w2

/-- The embeddings: the aggregated second-layer features plus the bias. -/
def z (adj : FVec Ideal ⟨2, ![8192, 8192]⟩ .f32) (s : FVec Ideal ⟨2, ![8192, 64]⟩ .f32)
    (b2 : FVec Ideal ⟨1, ![64]⟩ .f32) : FVec Ideal ⟨2, ![8192, 64]⟩ .f32 := affine adj s b2

/-- The decode: entry (r, c) is the logistic function of the inner product of embeddings r and c. -/
def dec (e : FVec Ideal ⟨2, ![8192, 64]⟩ .f32) : FVec Ideal ⟨2, ![8192, 8192]⟩ .f32 :=
  fun i => Ideal.logistic (∑ k : Fin 64, e (ix2 (i 0) k) * e (ix2 (i 1) k))

/-- The whole function of the six arguments. -/
def out (x : FVec Ideal ⟨2, ![8192, 512]⟩ .f32) (adj : FVec Ideal ⟨2, ![8192, 8192]⟩ .f32)
    (w1 : FVec Ideal ⟨2, ![512, 256]⟩ .f32) (b1 : FVec Ideal ⟨1, ![256]⟩ .f32)
    (w2 : FVec Ideal ⟨2, ![256, 64]⟩ .f32) (b2 : FVec Ideal ⟨1, ![64]⟩ .f32) :
    FVec Ideal ⟨2, ![8192, 8192]⟩ .f32 :=
  dec (z adj (t2 adj (t1 x w1) b1 w2) b2)

end Cert.Spec

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowDot.lean ====
/-
  A product of rows against rows, read at an index, generic in the three extents.

  For the dimension numbers "rows × contraction times columns × contraction" (`DotDims.transposedRhs M K N`: no batch
  axis, both operands contracted on their last axis), at the ideal values — floats extended reals, every operation
  exact — a matrix product into the zero accumulator, read at the output index (r, c), is the plain sum over k of
  lhs (r, k) · rhs (c, k): row r of the left operand against row c of the right one. The contraction index, a
  one-axis multi-index, is re-indexed by its one coordinate.
-/
import Idealize.ShloMosaic.Lib.ValueIdx
import Idealize.ShloMosaic.PureOps.Ideal.Laws

noncomputable section

namespace Cert.Lib.RowDot

open Idealize.ShloMosaic Idealize.ShloMosaic.ValueIdx

variable {M K N : Nat}

/-- The left operand's index at output index (r, c) and contraction position k is (r, k). -/
theorem lhsIdx_rows (r : Fin M) (c : Fin N) (k : Fin K) :
    (DotDims.transposedRhs M K N).lhsIdx (ix2 r c) ((contrEquiv1 (DotDims.transposedRhs M K N) K rfl rfl).symm k) = ix2 r k := by
  have hk := contrEquiv1_symm_val (DotDims.transposedRhs M K N) K rfl rfl k
  exact funext fun a => Fin.ext (by
    match a with
    | ⟨0, _⟩ => rfl
    | ⟨1, _⟩ => exact ((DotDims.transposedRhs M K N).lhsIdx_val_of_single rfl _ _).trans hk)

/-- The right operand's index at output index (r, c) and contraction position k is (c, k). -/
theorem rhsIdx_rows (r : Fin M) (c : Fin N) (k : Fin K) :
    (DotDims.transposedRhs M K N).rhsIdx (ix2 r c) ((contrEquiv1 (DotDims.transposedRhs M K N) K rfl rfl).symm k) = ix2 c k := by
  have hk := contrEquiv1_symm_val (DotDims.transposedRhs M K N) K rfl rfl k
  exact funext fun a => Fin.ext (by
    match a with
    | ⟨0, _⟩ => rfl
    | ⟨1, _⟩ => exact ((DotDims.transposedRhs M K N).rhsIdx_val_of_single rfl _ _).trans hk)

/-- A rows-against-rows matrix product into the zero accumulator, at the ideal values, read at (r, c):
    the sum over k of lhs (r, k) · rhs (c, k). -/
theorem matmul_rows_zero_apply {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  rw [lhsIdx_rows, rhsIdx_rows]

end Cert.Lib.RowDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.Payloads.lean ====
/-
  The arithmetic of each kernel body, read entry by entry on the extended reals.

  Each body stores a value that is a pure function of the blocks it loaded.  Read at a row p and a column q, and
  with every float an exact extended real (a change of float format is then the identity, and a matrix product
  into a zero accumulator is the plain sum of products over the contracted axis):

    the feature transform stores   (sum over k of x (p, k) · w (k, q)) + bias q;
    the aggregation starts from 0, adds (sum over k of adj (p, k) · t (k, q)) to what the accumulator holds,
    and ends with (sum over k of max (acc (p, k) + b1 k) 0 · w2 (k, q)) in the first layer,
    with acc (p, q) + b2 q in the second;
    the decode stores the logistic function of the sum over k of z (p, k) · z' (q, k).
-/
import proofs.«129237_j28346784154172_2_alg».proof.Proof.Gen.KernelIdeal.Skeleton
import proofs.«129237_j28346784154172_2_alg».proof.Proof.LibPlainDot
import proofs.«129237_j28346784154172_2_alg».proof.Proof.LibRowDot
import proofs.«129237_j28346784154172_2_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Idealize.ShloMosaic Idealize.ShloMosaic.ValueIdx

/-- A vector [C] reshaped to itself, then to the row [1, C], then repeated down R rows, read at (p, q), is the
    vector at q. -/
theorem row_of_vec {R C : Nat} (v : (⟨1, ![C]⟩ : Shape).Idx → EReal)
    (h0 : (⟨1, ![C]⟩ : Shape).ShapeCasts ⟨1, ![C]⟩) (h1 : (⟨1, ![C]⟩ : Shape).ShapeCasts ⟨2, ![1, C]⟩)
    (h2 : (⟨2, ![1, C]⟩ : Shape).Broadcasts ⟨2, ![R, C]⟩) (p : Fin R) (q : Fin C) :
    broadcastTo ⟨2, ![R, C]⟩ (shapeCast ⟨2, ![1, C]⟩ (shapeCast ⟨1, ![C]⟩ v h0) h1) h2 (ix2 p q) = v (ix1 q) := by
  rw [Cert.Lib.Rows.broadcastTo_row_apply, Cert.Lib.Rows.shapeCast_vec_row_apply, shapeCast_self]

/-- A vector [C] reshaped to the row [1, C] and repeated down R rows, read at (p, q), is the vector at q. -/
theorem row_of_vec' {R C : Nat} (v : (⟨1, ![C]⟩ : Shape).Idx → EReal)
    (h1 : (⟨1, ![C]⟩ : Shape).ShapeCasts ⟨2, ![1, C]⟩)
    (h2 : (⟨2, ![1, C]⟩ : Shape).Broadcasts ⟨2, ![R, C]⟩) (p : Fin R) (q : Fin C) :
    broadcastTo ⟨2, ![R, C]⟩ (shapeCast ⟨2, ![1, C]⟩ v h1) h2 (ix2 p q) = v (ix1 q) := by
  rw [Cert.Lib.Rows.broadcastTo_row_apply, Cert.Lib.Rows.shapeCast_vec_row_apply]

/-- The feature transform's stored value at (p, q): row p of the features against column q of the weights,
    plus the bias at q. -/
theorem pay0 (v0 : Vec Ideal S2048x512 .f32) (v2 : Vec Ideal S512x256 .f32) (v5 : Vec Ideal S256 .f32)
    (p : Fin 2048) (q : Fin 256) :
    Gen.k0_pay1 v0 v2 v5 (ix2 p q) = (∑ k : Fin 512, v0 (ix2 p k) * v2 (ix2 k q)) + v5 (ix1 q) := by
  unfold Gen.k0_pay1
  refine congrArg₂ (fun a b : EReal => a + b) ?_ ?_
  · exact Cert.Lib.PlainDot.matmul_plain_zero_apply (M := 2048) (K := 512) (N := 256) (φ₁ := .bf16) (φ₂ := .bf16) none
      (truncf .bf16 v0 Gen.bitsLt_bf16_f32) (truncf .bf16 v2 Gen.bitsLt_bf16_f32) p q
  · exact row_of_vec (R := 2048) (C := 256) v5 _ _ _ p q

/-- The first aggregation's accumulator starts from zero. -/
theorem pay1_init (j : S1024x256.Idx) : Gen.k1_pay1 (F := Ideal) j = 0 := by
  unfold Gen.k1_pay1
  rw [shapeCast_self]
  exact Ideal.ofBits_zero_f32

/-- One step of the first aggregation at (p, q): what the accumulator holds, plus row p of the adjacency block
    against column q of the chunk of transformed features. -/
theorem pay1_acc (v6 : Vec Ideal S4096x256 .f32) (v8 : Vec Ideal S1024x4096 .f32) (v11 : Vec Ideal S1024x256 .f32)
    (p : Fin 1024) (q : Fin 256) :
    Gen.k1_pay2 v6 v8 v11 (ix2 p q) = v11 (ix2 p q) + ∑ k : Fin 4096, v8 (ix2 p k) * v6 (ix2 k q) := by
  unfold Gen.k1_pay2
  rw [shapeCast_self, shapeCast_self]
  refine congrArg (fun a : EReal => v11 (ix2 p q) + a) ?_
  exact Cert.Lib.PlainDot.matmul_plain_zero_apply (M := 1024) (K := 4096) (N := 256) (φ₁ := .bf16) (φ₂ := .bf16) none
    (truncf .bf16 v8 Gen.bitsLt_bf16_f32) (truncf .bf16 v6 Gen.bitsLt_bf16_f32) p q

/-- The first layer's epilogue at (p, q): the accumulator plus the bias, clamped below at zero, row p against
    column q of the second weights. -/
theorem pay1_fin (v20 : Vec Ideal S1024x256 .f32) (v21 : Vec Ideal S256 .f32) (v28 : Vec Ideal S256x64 .f32)
    (p : Fin 1024) (q : Fin 64) :
    Gen.k1_pay3 v20 v21 v28 (ix2 p q) = ∑ k : Fin 256, max (v20 (ix2 p k) + v21 (ix1 k)) 0 * v28 (ix2 k q) := by
  unfold Gen.k1_pay3
  refine (Cert.Lib.PlainDot.matmul_plain_zero_apply (M := 1024) (K := 256) (N := 64) (φ₁ := .bf16) (φ₂ := .bf16) none
    _ _ p q).trans ?_
  refine Finset.sum_congr rfl fun k _ => ?_
  refine congrArg (fun a : EReal => a * v28 (ix2 k q)) ?_
  refine congrArg₂ (fun a b : EReal => max (v20 (ix2 p k) + a) b) ?_ ?_
  · exact row_of_vec' (R := 1024) (C := 256) v21 _ _ p k
  · exact Ideal.ofBits_zero_f32

/-- The second aggregation's accumulator starts from zero. -/
theorem pay2_init (j : S1024x64.Idx) : Gen.k2_pay1 (F := Ideal) j = 0 := by
  unfold Gen.k2_pay1
  rw [shapeCast_self]
  exact Ideal.ofBits_zero_f32

/-- One step of the second aggregation at (p, q): what the accumulator holds, plus row p of the adjacency block
    against column q of the chunk of second-layer features. -/
theorem pay2_acc (v6 : Vec Ideal S4096x64 .f32) (v8 : Vec Ideal S1024x4096 .f32) (v11 : Vec Ideal S1024x64 .f32)
    (p : Fin 1024) (q : Fin 64) :
    Gen.k2_pay2 v6 v8 v11 (ix2 p q) = v11 (ix2 p q) + ∑ k : Fin 4096, v8 (ix2 p k) * v6 (ix2 k q) := by
  unfold Gen.k2_pay2
  rw [shapeCast_self, shapeCast_self]
  refine congrArg (fun a : EReal => v11 (ix2 p q) + a) ?_
  exact Cert.Lib.PlainDot.matmul_plain_zero_apply (M := 1024) (K := 4096) (N := 64) (φ₁ := .bf16) (φ₂ := .bf16) none
    (truncf .bf16 v8 Gen.bitsLt_bf16_f32) (truncf .bf16 v6 Gen.bitsLt_bf16_f32) p q

/-- The second layer's epilogue at (p, q): the accumulator plus the bias at q. -/
theorem pay2_fin (v20 : Vec Ideal S1024x64 .f32) (v21 : Vec Ideal S64 .f32) (p : Fin 1024) (q : Fin 64) :
    Gen.k2_pay3 v20 v21 (ix2 p q) = v20 (ix2 p q) + v21 (ix1 q) := by
  unfold Gen.k2_pay3
  refine congrArg (fun a : EReal => v20 (ix2 p q) + a) ?_
  exact row_of_vec' (R := 1024) (C := 64) v21 _ _ p q

/-- The decode's stored value at (p, q): the logistic function of row p of the first block of embeddings against
    row q of the second. -/
theorem pay3 (v5 v8 : Vec Ideal S2048x64 .f32) (p q : Fin 2048) :
    Gen.k3_pay1 v5 v8 (ix2 p q) = Ideal.logistic (∑ k : Fin 64, v5 (ix2 p k) * v8 (ix2 q k)) := by
  unfold Gen.k3_pay1
  refine congrArg Ideal.logistic ?_
  rw [shapeCast_self, shapeCast_self]
  exact Cert.Lib.RowDot.matmul_rows_zero_apply (M := 2048) (K := 64) (N := 2048) (φ₁ := .f32) (φ₂ := .f32) none v5 v8 p q

end Cert.KernelIdeal.Pay

end
-- ==== Proof.Reg0Value.lean ====
/-
  What the feature transform leaves in its result's array: x · W1 plus the bias row, entry by entry, on the extended
  reals.

  At grid point t the first buffer holds rows 2048·t … 2048·t + 2047 of x, the second all of W1, the third the bias row;
  the body stores, at (p, q), row p of that block against column q of W1, plus the bias at q.  That is entry
  (2048·t + p, q) of the product of x and W1 with the bias added — the entry of the result's array the write-back of
  point t puts it in.  The four blocks of 2048 rows tile the array (the point that covers row r is r / 2048), so after
  the last point the array is that function everywhere.
-/
import proofs.«129237_j28346784154172_2_alg».proof.Proof.Reg0
import proofs.«129237_j28346784154172_2_alg».proof.Proof.Spec
import proofs.«129237_j28346784154172_2_alg».proof.Proof.Payloads
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the core's buffer contents when the region is entered, at the extended reals
variable (V : (c : Dev nD) → (b : Ref sig .tc) → Buf (Elt Ideal) ((c : Thread nD τ).loc b))

theorem origin2_t1 : (![0, 0] : Fin 2 → Nat) = fun _ => 0 := funext fun a => by fin_cases a <;> rfl
theorem origin1_t1 : (![0] : Fin 1 → Nat) = fun _ => 0 := funext fun a => by fin_cases a <;> rfl

/-! ## One entry of the block a point stores -/

/-- Entry (p, q) of the stored block, the first buffer holding rows 2048·n … of `x`, the others `w` and `b`: the
    product of `x` and `w` plus the bias, at (r, q), whenever r = 2048·n + p. -/
theorem stored_entry_t1 (x : FVec Ideal S8192x512 .f32) (w : FVec Ideal S512x256 .f32) (b : FVec Ideal S256 .f32)
    (x0 : Vec Ideal S2048x512 .f32) (x1 : Vec Ideal S512x256 .f32) (x2 : Vec Ideal S256 .f32) (n : Nat)
    (h0 : ∀ (p : Fin 2048) (k : Fin 512) (r : Fin 8192), r.val = 2048 * n + p.val → x0 (ix2 p k) = x (ix2 r k))
    (h1 : ∀ y, x1 y = w y) (h2 : ∀ y, x2 y = b y)
    (p : Fin 2048) (q : Fin 256) (r : Fin 8192) (hr : r.val = 2048 * n + p.val) :
    k0_pay1 x0 x1 x2 (ix2 p q) = Cert.Spec.affine x w b (ix2 r q) := by
  refine (Cert.KernelIdeal.Pay.pay0 x0 x1 x2 p q).trans ?_
  show (∑ k : Fin 512, x0 (ix2 p k) * x1 (ix2 k q)) + x2 (ix1 q) = (∑ k : Fin 512, x (ix2 r k) * w (ix2 k q)) + b (ix1 q)
  rw [h2]
  refine congrArg (fun a : EReal => a + b (ix1 q)) (Finset.sum_congr rfl fun k _ => ?_)
  rw [h0 p k r hr, h1]

/-- The same at any index `j` of the block and any index `g` of the array in the same column, 2048·n rows further down. -/
theorem stored_at_t1 (x : FVec Ideal S8192x512 .f32) (w : FVec Ideal S512x256 .f32) (b : FVec Ideal S256 .f32)
    (x0 : Vec Ideal S2048x512 .f32) (x1 : Vec Ideal S512x256 .f32) (x2 : Vec Ideal S256 .f32) (n : Nat)
    (h0 : ∀ (p : Fin 2048) (k : Fin 512) (r : Fin 8192), r.val = 2048 * n + p.val → x0 (ix2 p k) = x (ix2 r k))
    (h1 : ∀ y, x1 y = w y) (h2 : ∀ y, x2 y = b y)
    (j : S2048x256.Idx) (g : S8192x256.Idx) (hr : (g 0).val = 2048 * n + (j 0).val) (hs : (g 1).val = (j 1).val) :
    k0_pay1 x0 x1 x2 j = Cert.Spec.affine x w b g := by
  have hg : g = ix2 (g 0) (j 1) := (eq_ix2 g).trans (congrArg (ix2 (g 0)) (Fin.ext hs))
  rw [eq_ix2 j, hg]
  exact stored_entry_t1 x w b x0 x1 x2 n h0 h1 h2 (j 0) (j 1) (g 0) hr

/-! ## The windows' block indices, decided over the grid -/

/-- The windows of x and of the result are on block (t, 0) at point t; W1 and the bias row stay on their one block. -/
theorem idx_facts0 : ∀ t : Fin cfg0.N, win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = (grid0.coords t 0).val ∧ win0_3.index t (1 : Fin 2) = 0 :=
  (by decide +kernel : ∀ t : Fin grid0.N, _)

/-- Every block of rows of the result is some point's. -/
theorem idx_onto0 : ∀ (q0 : Fin 4), ∃ t : Fin cfg0.N, win0_3.index t = ![q0.val, 0] :=
  (by decide +kernel : ∀ (q0 : Fin 4), ∃ t : Fin grid0.N, win0_3.index t = ![q0.val, 0])

/-- The first window's block at point t is rows 2048·t … of x as the region found it. -/
theorem iblk0_0_apply (c : Dev nD) (t : Fin cfg0.N) (p : Fin 2048) (k : Fin 512) (r : Fin 8192)
    (hr : r.val = 2048 * (grid0.coords t 0).val + p.val) : iblk0 V c 0 t (ix2 p k) = V c main_arg0 (ix2 r k) := by
  show V c main_arg0 (((cfg0.win 0).blk t).view.emb (ix2 p k)) = V c main_arg0 (ix2 r k)
  obtain ⟨e0, e1, -⟩ := idx_facts0 t
  refine congrArg (V c main_arg0) (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega
/-- The second window's block, at every point, is W1 as the region found it. -/
theorem iblk0_1_apply (c : Dev nD) (t : Fin cfg0.N) (y : S512x256.Idx) : iblk0 V c 1 t y = V c main_arg2 y := by
  show V c main_arg2 (((cfg0.win 1).blk t).view.emb y) = V c main_arg2 y
  obtain ⟨-, -, e0, e1, -⟩ := idx_facts0 t
  refine congrArg (V c main_arg2) (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega
/-- The third window's block, at every point, is the bias row as the region found it. -/
theorem iblk0_2_apply (c : Dev nD) (t : Fin cfg0.N) (y : S256.Idx) : iblk0 V c 2 t y = V c main_v0 y := by
  show V c main_v0 (((cfg0.win 2).blk t).view.emb y) = V c main_v0 y
  obtain ⟨-, -, -, -, e0, -⟩ := idx_facts0 t
  refine congrArg (V c main_v0) (funext fun a => Fin.ext ?_)
  match a with
  | ⟨0, _⟩ => show win0_2.index t (0 : Fin 1) * 256 + 1 * (y 0).val = (y 0).val; omega

/-! ## What a point writes back -/

/-- What point `t` writes back is block `t` of the product of x and W1 with the bias added. -/
theorem flushed0_eq (c : Dev nD) (t : Fin cfg0.N) :
    (dat0 V c).flushed 3 t
      = ((cfg0.win 3).blk t).view.read (Elt Ideal) (Cert.Spec.affine (V c main_arg0) (V c main_arg2) (V c main_v0)) := by
  show (cfg0.win 3).cut (grid0.coords t) ((dat0 V c).after 3 t) = _
  rw [after0_3]
  unfold out0_3
  rw [View.canon_unit_zero origin2_t1]
  simp only [View.ld_unit_zero (S := S2048x512) origin2_t1, View.ld_unit_zero (S := S512x256) origin2_t1,
    View.ld_unit_zero (S := S256) origin1_t1]
  obtain ⟨-, -, -, -, -, e0, e1⟩ := idx_facts0 t
  funext j
  show k0_pay1 (iblk0 V c 0 t) (iblk0 V c 1 t) (iblk0 V c 2 t) j
    = Cert.Spec.affine (V c main_arg0) (V c main_arg2) (V c main_v0) (((cfg0.win 3).blk t).view.emb j)
  refine stored_at_t1 (V c main_arg0) (V c main_arg2) (V c main_v0) (iblk0 V c 0 t) (iblk0 V c 1 t) (iblk0 V c 2 t)
    (grid0.coords t 0).val (iblk0_0_apply V c t) (iblk0_1_apply V c t) (iblk0_2_apply V c t)
    j (((cfg0.win 3).blk t).view.emb j) ?_ ?_
  · show win0_3.index t (0 : Fin 2) * 2048 + 1 * (j 0).val = 2048 * (grid0.coords t 0).val + (j 0).val; omega
  · show win0_3.index t (1 : Fin 2) * 256 + 1 * (j 1).val = (j 1).val; omega

/-! ## From the blocks to the array -/

/-- An index of the array is in point `t`'s block iff each coordinate is in the block's range on its axis. -/
theorem mem_blk0 (t : Fin cfg0.N) (i : S8192x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v1).slice (win0_3.rect t)).set ↔ _
  rw [View.set_slice_whole, Rect.mem_set_unit]
  exact Iff.rfl

/-- Every entry of the array is in the block of the point (row / 2048). -/
theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := idx_onto0 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- The result's array after the region: the product of x and W1 with the bias row added, everywhere. -/
theorem final0 (c : Dev nD) :
    (dat0 V c).arrAt 3 cfg0.N = Cert.Spec.affine (V c main_arg0) (V c main_arg2) (V c main_v0) :=
  (dat0 V c).arrAt_eq_of_cover 3 _ (fun t _ => flushed0_eq V c t) cover0

end Cert.KernelIdeal.HandValue

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.Sums.lean ====
/-
  The contraction over all 8192 neighbours, taken in two halves.

  The aggregation kernels visit the contraction axis in two blocks of 4096 indices, in order.  A sum over the 8192
  indices is the sum over the first 4096 plus the sum over the last 4096; so an accumulator that starts at zero, adds
  the first half-sum, and then adds the second half-sum ends at the whole sum.  Only the laws of a commutative
  additive monoid are used, so this holds for sums of extended reals with no finiteness assumption.
-/
import Mathlib.Algebra.BigOperators.Fin
import proofs.«129237_j28346784154172_2_alg».proof.Proof.LibBlockSumGen

open scoped BigOperators

namespace Cert.Sums

variable {M : Type*} [AddCommMonoid M]

/-- An index of the first half, as an index of the whole axis. -/
def lo (k : Fin 4096) : Fin 8192 := ⟨k.val, by have := k.isLt; omega⟩

/-- An index of the second half, as an index of the whole axis. -/
def hi (k : Fin 4096) : Fin 8192 := ⟨4096 + k.val, by have := k.isLt; omega⟩

@[simp] theorem lo_val (k : Fin 4096) : (lo k).val = k.val := rfl
@[simp] theorem hi_val (k : Fin 4096) : (hi k).val = 4096 + k.val := rfl

/-- A sum over 8192 indices is the sum over the first 4096 plus the sum over the last 4096. -/
theorem sum_halves (f : Fin 8192 → M) :
    ∑ k : Fin 8192, f k = (∑ k : Fin 4096, f (lo k)) + ∑ k : Fin 4096, f (hi k) := by
  rw [Cert.LibBlockSumGen.sum_blocks (n := 8192) (K := 2) (B := 4096) rfl f, Fin.sum_univ_two]
  refine congrArg₂ (fun a b : M => a + b) ?_ ?_
  · exact Finset.sum_congr rfl fun k _ => congrArg f (Fin.ext (by show 4096 * 0 + k.val = k.val; omega))
  · exact Finset.sum_congr rfl fun k _ => congrArg f (Fin.ext (by show 4096 * 1 + k.val = 4096 + k.val; omega))

/-- The same with the indices spelt out. -/
theorem sum_halves' (f : Fin 8192 → M) :
    ∑ k : Fin 8192, f k
      = (∑ k : Fin 4096, f ⟨k.val, by have := k.isLt; omega⟩)
        + ∑ k : Fin 4096, f ⟨4096 + k.val, by have := k.isLt; omega⟩ :=
  sum_halves f

/-- An accumulator that starts at zero and receives the two half-sums in order holds the whole sum: after the first
    step it is zero plus the first half-sum, after the second that plus the second half-sum.  The half-sums' terms
    `g0`, `g1` are given with their identification with the terms of the whole sum. -/
theorem acc_two_steps (f : Fin 8192 → M) (g0 g1 : Fin 4096 → M)
    (h0 : ∀ k : Fin 4096, g0 k = f (lo k)) (h1 : ∀ k : Fin 4096, g1 k = f (hi k)) :
    (0 + ∑ k : Fin 4096, g0 k) + ∑ k : Fin 4096, g1 k = ∑ k : Fin 8192, f k := by
  rw [zero_add, sum_halves f]
  exact congrArg₂ (fun a b : M => a + b) (Finset.sum_congr rfl fun k _ => h0 k) (Finset.sum_congr rfl fun k _ => h1 k)

/-- The first step alone: zero plus the first half-sum is the first half-sum. -/
theorem acc_first_step (g0 : Fin 4096 → M) : (0 + ∑ k : Fin 4096, g0 k) = ∑ k : Fin 4096, g0 k := zero_add _

end Cert.Sums
-- ==== Proof.Reg1Value.lean ====
/-
  What the first aggregation leaves in its result's array: the hidden layer times W2, entry by entry, on the extended
  reals.

  The sixteen grid points are eight blocks of 1024 rows times two halves of the 8192 neighbours.  At a first half the
  accumulator becomes zero plus the sum, over the first 4096 neighbours k, of adj (r, k) · t1 (k, c); at the second
  half the body adds the sum over the last 4096 neighbours, so the accumulator holds entry (r, c) of adj · t1; it then
  adds the bias at c, clamps below at zero — that is the hidden layer at (r, c) — and stores the product of that block
  of the hidden layer with W2.  A sum over all 8192 neighbours is the sum over the first half plus the sum over the
  second, so the stored entry (p, q) of row block n is entry (1024·n + p, q) of the hidden layer times W2 — the entry
  of the result's array the write-back after the second half puts it in.  Only second halves write back; their eight
  blocks tile the array (the point that covers row r is the second half of row block r / 1024), so after the last
  point the array is that function everywhere.
-/
import proofs.«129237_j28346784154172_2_alg».proof.Proof.Reg1
import proofs.«129237_j28346784154172_2_alg».proof.Proof.Spec
import proofs.«129237_j28346784154172_2_alg».proof.Proof.Payloads
import proofs.«129237_j28346784154172_2_alg».proof.Proof.Sums
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the core's buffer contents when the region is entered, at the extended reals
variable (V : (c : Dev nD) → (b : Ref sig .tc) → Buf (Elt Ideal) ((c : Thread nD τ).loc b))

/-! ## One entry of the block stored after a second half -/

/-- Entry (p, q) of the block stored after the second half of row block `n`: `a0`, `a1` the two half blocks of
    `adj`, `s0`, `s1` the two chunks of 4096 rows of `t`, `x2` the bias row, `x3` the second weights.  It is the hidden
    layer times the weights, at (r, q), whenever r = 1024·n + p. -/
theorem stored_entry_t2 (adj : FVec Ideal S8192x8192 .f32) (t : FVec Ideal S8192x256 .f32) (b : FVec Ideal S256 .f32)
    (w : FVec Ideal S256x64 .f32)
    (a0 a1 : Vec Ideal S1024x4096 .f32) (s0 s1 : Vec Ideal S4096x256 .f32) (x2 : Vec Ideal S256 .f32)
    (x3 : Vec Ideal S256x64 .f32) (n : Nat)
    (ha0 : ∀ (p : Fin 1024) (k : Fin 4096) (r : Fin 8192), r.val = 1024 * n + p.val →
      a0 (ix2 p k) = adj (ix2 r (Cert.Sums.lo k)))
    (ha1 : ∀ (p : Fin 1024) (k : Fin 4096) (r : Fin 8192), r.val = 1024 * n + p.val →
      a1 (ix2 p k) = adj (ix2 r (Cert.Sums.hi k)))
    (hs0 : ∀ (k : Fin 4096) (q : Fin 256), s0 (ix2 k q) = t (ix2 (Cert.Sums.lo k) q))
    (hs1 : ∀ (k : Fin 4096) (q : Fin 256), s1 (ix2 k q) = t (ix2 (Cert.Sums.hi k) q))
    (h2 : ∀ y, x2 y = b y) (h3 : ∀ y, x3 y = w y) (p : Fin 1024) (q : Fin 64) (r : Fin 8192)
    (hr : r.val = 1024 * n + p.val) :
    k1_pay3 (k1_pay2 s1 a1 (k1_pay2 s0 a0 (k1_pay1 (F := Ideal)))) x2 x3 (ix2 p q)
      = Cert.Spec.t2 adj t b w (ix2 r q) := by
  refine (Cert.KernelIdeal.Pay.pay1_fin (k1_pay2 s1 a1 (k1_pay2 s0 a0 (k1_pay1 (F := Ideal)))) x2 x3 p q).trans ?_
  show (∑ c : Fin 256, max (k1_pay2 s1 a1 (k1_pay2 s0 a0 (k1_pay1 (F := Ideal))) (ix2 p c) + x2 (ix1 c)) 0 * x3 (ix2 c q))
    = ∑ c : Fin 256, max ((∑ k : Fin 8192, adj (ix2 r k) * t (ix2 k c)) + b (ix1 c)) 0 * w (ix2 c q)
  refine Finset.sum_congr rfl fun c _ => ?_
  rw [h2, h3]
  refine congrArg (fun a : EReal => max (a + b (ix1 c)) 0 * w (ix2 c q)) ?_
  rw [Cert.KernelIdeal.Pay.pay1_acc s1 a1 (k1_pay2 s0 a0 (k1_pay1 (F := Ideal))) p c,
    Cert.KernelIdeal.Pay.pay1_acc s0 a0 (k1_pay1 (F := Ideal)) p c, Cert.KernelIdeal.Pay.pay1_init]
  exact Cert.Sums.acc_two_steps (fun k : Fin 8192 => adj (ix2 r k) * t (ix2 k c)) _ _
    (fun k => by rw [ha0 p k r hr, hs0]) (fun k => by rw [ha1 p k r hr, hs1])

/-- The same at any index `j` of the block and any index `g` of the array in the same column, 1024·n rows further down. -/
theorem stored_at_t2 (adj : FVec Ideal S8192x8192 .f32) (t : FVec Ideal S8192x256 .f32) (b : FVec Ideal S256 .f32)
    (w : FVec Ideal S256x64 .f32)
    (a0 a1 : Vec Ideal S1024x4096 .f32) (s0 s1 : Vec Ideal S4096x256 .f32) (x2 : Vec Ideal S256 .f32)
    (x3 : Vec Ideal S256x64 .f32) (n : Nat)
    (ha0 : ∀ (p : Fin 1024) (k : Fin 4096) (r : Fin 8192), r.val = 1024 * n + p.val →
      a0 (ix2 p k) = adj (ix2 r (Cert.Sums.lo k)))
    (ha1 : ∀ (p : Fin 1024) (k : Fin 4096) (r : Fin 8192), r.val = 1024 * n + p.val →
      a1 (ix2 p k) = adj (ix2 r (Cert.Sums.hi k)))
    (hs0 : ∀ (k : Fin 4096) (q : Fin 256), s0 (ix2 k q) = t (ix2 (Cert.Sums.lo k) q))
    (hs1 : ∀ (k : Fin 4096) (q : Fin 256), s1 (ix2 k q) = t (ix2 (Cert.Sums.hi k) q))
    (h2 : ∀ y, x2 y = b y) (h3 : ∀ y, x3 y = w y) (j : S1024x64.Idx) (g : S8192x64.Idx)
    (hr : (g 0).val = 1024 * n + (j 0).val) (hs : (g 1).val = (j 1).val) :
    k1_pay3 (k1_pay2 s1 a1 (k1_pay2 s0 a0 (k1_pay1 (F := Ideal)))) x2 x3 j = Cert.Spec.t2 adj t b w g := by
  have hg : g = ix2 (g 0) (j 1) := (eq_ix2 g).trans (congrArg (ix2 (g 0)) (Fin.ext hs))
  rw [eq_ix2 j, hg]
  exact stored_entry_t2 adj t b w a0 a1 s0 s1 x2 x3 n ha0 ha1 hs0 hs1 h2 h3 (j 0) (j 1) (g 0) hr

/-! ## The grid's coordinates and the windows' block indices, decided over the grid -/

/-- Point t is half t % 2 of row block t / 2. -/
theorem coords_facts1 : ∀ t : Fin cfg1.N, (grid1.coords t 0).val = t.val / 2 ∧ (grid1.coords t 1).val = t.val % 2 :=
  (by decide +kernel : ∀ t : Fin grid1.N, _)

/-- The window of adj is on block (t / 2, t % 2) at point t, the result's on block (t / 2, 0); t1, the bias row and W2
    stay on their one block. -/
theorem idx_facts1 : ∀ t : Fin cfg1.N, win1_0.index t (0 : Fin 2) = t.val / 2 ∧ win1_0.index t (1 : Fin 2) = t.val % 2
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val / 2 ∧ win1_4.index t (1 : Fin 2) = 0 :=
  (by decide +kernel : ∀ t : Fin grid1.N, _)

/-- Every block of rows of the result is some second half's. -/
theorem idx_onto1 : ∀ (q0 : Fin 8), ∃ t : Fin cfg1.N, t.val % 2 = 1 ∧ win1_4.index t = ![q0.val, 0] :=
  (by decide +kernel : ∀ (q0 : Fin 8), ∃ t : Fin grid1.N, t.val % 2 = 1 ∧ win1_4.index t = ![q0.val, 0])

/-- The first window's block at point t is rows 1024·(t / 2) … and columns 4096·(t % 2) … of adj as the region found it. -/
theorem iblk1_0_apply (c : Dev nD) (t : Fin cfg1.N) (p : Fin 1024) (k : Fin 4096) (r m : Fin 8192)
    (hr : r.val = 1024 * (t.val / 2) + p.val) (hm : m.val = 4096 * (t.val % 2) + k.val) :
    iblk1 V c 0 t (ix2 p k) = V c main_arg1 (ix2 r m) := by
  show V c main_arg1 (((cfg1.win 0).blk t).view.emb (ix2 p k)) = V c main_arg1 (ix2 r m)
  obtain ⟨e0, e1, -⟩ := idx_facts1 t
  refine congrArg (V c main_arg1) (funext fun a => Fin.ext ?_)
  match a with
  | ⟨0, _⟩ => show win1_0.index t (0 : Fin 2) * 1024 + 1 * p.val = r.val; omega
  | ⟨1, _⟩ => show win1_0.index t (1 : Fin 2) * 4096 + 1 * k.val = m.val; omega
/-- The second window's block, at every point, is t1 as the region found it. -/
theorem iblk1_1_apply (c : Dev nD) (t : Fin cfg1.N) (y : S8192x256.Idx) : iblk1 V c 1 t y = V c main_v1 y := by
  show V c main_v1 (((cfg1.win 1).blk t).view.emb y) = V c main_v1 y
  obtain ⟨-, -, e0, e1, -⟩ := idx_facts1 t
  refine congrArg (V c main_v1) (funext fun a => Fin.ext ?_)
  match a with
  | ⟨0, _⟩ => show win1_1.index t (0 : Fin 2) * 8192 + 1 * (y 0).val = (y 0).val; omega
  | ⟨1, _⟩ => show win1_1.index t (1 : Fin 2) * 256 + 1 * (y 1).val = (y 1).val; omega
/-- The third window's block, at every point, is the bias row as the region found it. -/
theorem iblk1_2_apply (c : Dev nD) (t : Fin cfg1.N) (y : S256.Idx) : iblk1 V c 2 t y = V c main_arg3 y := by
  show V c main_arg3 (((cfg1.win 2).blk t).view.emb y) = V c main_arg3 y
  obtain ⟨-, -, -, -, e0, -⟩ := idx_facts1 t
  refine congrArg (V c main_arg3) (funext fun a => Fin.ext ?_)
  match a with
  | ⟨0, _⟩ => show win1_2.index t (0 : Fin 1) * 256 + 1 * (y 0).val = (y 0).val; omega
/-- The fourth window's block, at every point, is W2 as the region found it. -/
theorem iblk1_3_apply (c : Dev nD) (t : Fin cfg1.N) (y : S256x64.Idx) : iblk1 V c 3 t y = V c main_arg4 y := by
  show V c main_arg4 (((cfg1.win 3).blk t).view.emb y) = V c main_arg4 y
  obtain ⟨-, -, -, -, -, e0, e1, -⟩ := idx_facts1 t
  refine congrArg (V c main_arg4) (funext fun a => Fin.ext ?_)
  match a with
  | ⟨0, _⟩ => show win1_3.index t (0 : Fin 2) * 256 + 1 * (y 0).val = (y 0).val; omega
  | ⟨1, _⟩ => show win1_3.index t (1 : Fin 2) * 64 + 1 * (y 1).val = (y 1).val; omega

/-- The chunk of rows the body loads at the point with coordinates `i`, read at (k, q), is the buffer at
    (4096·i₁ + k, q). -/
theorem rows1_apply (x1 : Vec Ideal S8192x256 .f32) (i : grid1.Coords) (k : Fin 4096) (q : Fin 256) (m : Fin 8192)
    (hm : m.val = 4096 * (i 1).val + k.val) : View.ld x1 (r1_rows i) (ix2 k q) = x1 (ix2 m q) := by
  show x1 ((r1_rows i).emb (ix2 k q)) = x1 (ix2 m q)
  refine congrArg x1 (funext fun a => Fin.ext ?_)
  match a with
  | ⟨0, _⟩ =>
    show (k1_off1 i) 0 + 1 * k.val = m.val
    rw [k1_off1_eq i]; show 4096 * (i 1).val + 1 * k.val = m.val; omega
  | ⟨1, _⟩ =>
    show (k1_off1 i) 1 + 1 * q.val = q.val
    rw [k1_off1_eq i]; show 0 + 1 * q.val = q.val; omega

/-! ## What a second half writes back -/

/-- What a second half `t` writes back is block `t` of the hidden layer times W2. -/
theorem flushed1_eq (c : Dev nD) (t : Fin cfg1.N) (ht : t.val % 2 = 1) :
    (dat1 V c).flushed 4 t
      = ((cfg1.win 4).blk t).view.read (Elt Ideal)
          (Cert.Spec.t2 (V c main_arg1) (V c main_v1) (V c main_arg3) (V c main_arg4)) := by
  show (cfg1.win 4).cut (grid1.coords t) ((dat1 V c).after 4 t) = _
  rw [after1_4]
  unfold out1_last accAt1 acc1_first
  have hlt : t.val - 1 < cfg1.N := Nat.lt_of_le_of_lt (Nat.sub_le _ _) t.isLt
  obtain ⟨-, -, -, -, -, -, -, e0, e1⟩ := idx_facts1 t
  obtain ⟨-, ct1⟩ := coords_facts1 t
  obtain ⟨-, cs1⟩ := coords_facts1 ⟨t.val - 1, hlt⟩
  have hs1' : (grid1.coords ⟨t.val - 1, hlt⟩ 1).val = 0 := by rw [cs1]; show (t.val - 1) % 2 = 0; omega
  have ht1' : (grid1.coords t 1).val = 1 := by rw [ct1]; exact ht
  funext j
  show k1_pay3 (k1_pay2 (View.ld (iblk1 V c 1 t) (r1_rows (grid1.coords t))) (iblk1 V c 0 t)
        (k1_pay2 (View.ld (iblk1 V c 1 ⟨t.val - 1, hlt⟩) (r1_rows (grid1.coords ⟨t.val - 1, hlt⟩)))
          (iblk1 V c 0 ⟨t.val - 1, hlt⟩) (k1_pay1 (F := Ideal)))) (iblk1 V c 2 t) (iblk1 V c 3 t) j
    = Cert.Spec.t2 (V c main_arg1) (V c main_v1) (V c main_arg3) (V c main_arg4) (((cfg1.win 4).blk t).view.emb j)
  refine stored_at_t2 (V c main_arg1) (V c main_v1) (V c main_arg3) (V c main_arg4)
    (iblk1 V c 0 ⟨t.val - 1, hlt⟩) (iblk1 V c 0 t)
    (View.ld (iblk1 V c 1 ⟨t.val - 1, hlt⟩) (r1_rows (grid1.coords ⟨t.val - 1, hlt⟩)))
    (View.ld (iblk1 V c 1 t) (r1_rows (grid1.coords t))) (iblk1 V c 2 t) (iblk1 V c 3 t) (t.val / 2)
    (fun p k r hr => iblk1_0_apply V c ⟨t.val - 1, hlt⟩ p k r (Cert.Sums.lo k)
      (by show r.val = 1024 * ((t.val - 1) / 2) + p.val; omega)
      (by show k.val = 4096 * ((t.val - 1) % 2) + k.val; omega))
    (fun p k r hr => iblk1_0_apply V c t p k r (Cert.Sums.hi k) hr
      (by show 4096 + k.val = 4096 * (t.val % 2) + k.val; omega))
    (fun k q => (rows1_apply (iblk1 V c 1 ⟨t.val - 1, hlt⟩) (grid1.coords ⟨t.val - 1, hlt⟩) k q (Cert.Sums.lo k)
      (by show k.val = 4096 * (grid1.coords ⟨t.val - 1, hlt⟩ 1).val + k.val; omega)).trans (iblk1_1_apply V c _ _))
    (fun k q => (rows1_apply (iblk1 V c 1 t) (grid1.coords t) k q (Cert.Sums.hi k)
      (by show 4096 + k.val = 4096 * (grid1.coords t 1).val + k.val; omega)).trans (iblk1_1_apply V c _ _))
    (iblk1_2_apply V c t) (iblk1_3_apply V c t) j (((cfg1.win 4).blk t).view.emb j) ?_ ?_
  · show win1_4.index t (0 : Fin 2) * 1024 + 1 * (j 0).val = 1024 * (t.val / 2) + (j 0).val; omega
  · show win1_4.index t (1 : Fin 2) * 64 + 1 * (j 1).val = (j 1).val; omega

/-! ## From the blocks to the array -/

/-- An index of the array is in point `t`'s block iff each coordinate is in the block's range on its axis. -/
theorem mem_blk1 (t : Fin cfg1.N) (i : S8192x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v2).slice (win1_4.rect t)).set ↔ _
  rw [View.set_slice_whole, Rect.mem_set_unit]
  exact Iff.rfl

/-- Every entry of the array is in the block written back after the second half of row block (row / 1024). -/
theorem cover1 (i : S8192x64.Idx) : ∃ t : Fin cfg1.N, (cfg1.win 4).flush t = true ∧ i ∈ ((cfg1.win 4).blk t).view.set := by
  have hi0 : (i 0).val < 8192 := (i 0).isLt
  have hi1 : (i 1).val < 64 := (i 1).isLt
  obtain ⟨t, hodd, ht⟩ := idx_onto1 ⟨(i 0).val / 1024, by omega⟩
  have q0 : win1_4.index t (0 : Fin 2) = (i 0).val / 1024 := congrFun ht 0
  have q1 : win1_4.index t (1 : Fin 2) = 0 := congrFun ht 1
  refine ⟨t, (flush1_4 t).mpr hodd, ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 64 ≤ (i 1).val ∧ (i 1).val < win1_4.index t (1 : Fin 2) * 64 + 64; omega

/-- The result's array after the region: the hidden layer times W2, everywhere. -/
theorem final1 (c : Dev nD) :
    (dat1 V c).arrAt 4 cfg1.N = Cert.Spec.t2 (V c main_arg1) (V c main_v1) (V c main_arg3) (V c main_arg4) :=
  (dat1 V c).arrAt_eq_of_cover 4 _ (fun t hf => flushed1_eq V c t ((flush1_4 t).mp hf)) cover1

end Cert.KernelIdeal.HandValue

end
-- ==== Proof.Reg2Value.lean ====
/-
  What the second aggregation leaves in its result's array: adj · t2 plus the bias row, entry by entry, on the extended
  reals.

  The sixteen grid points are eight blocks of 1024 rows times two halves of the 8192 neighbours.  At a first half the
  accumulator becomes zero plus the sum, over the first 4096 neighbours k, of adj (r, k) · t2 (k, q); at the second
  half the body adds the sum over the last 4096 neighbours, then the bias at q, and stores the block.  A sum over all
  8192 neighbours is the sum over the first half plus the sum over the second, so the stored entry (p, q) of row block
  n is entry (1024·n + p, q) of adj · t2 plus the bias — the entry of the result's array the write-back after the
  second half puts it in.  Only second halves write back; their eight blocks tile the array (the point that covers row
  r is the second half of row block r / 1024), so after the last point the array is that function everywhere.
-/
import proofs.«129237_j28346784154172_2_alg».proof.Proof.Reg2
import proofs.«129237_j28346784154172_2_alg».proof.Proof.Spec
import proofs.«129237_j28346784154172_2_alg».proof.Proof.Payloads
import proofs.«129237_j28346784154172_2_alg».proof.Proof.Sums
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the core's buffer contents when the region is entered, at the extended reals
variable (V : (c : Dev nD) → (b : Ref sig .tc) → Buf (Elt Ideal) ((c : Thread nD τ).loc b))

/-! ## One entry of the block stored after a second half -/

/-- Entry (p, q) of the block stored after the second half of row block `n`: `a0`, `a1` the two half blocks of
    `adj`, `s0`, `s1` the two chunks of 4096 rows of `s`, `x2` the bias row.  It is the product of `adj` and `s` plus
    the bias, at (r, q), whenever r = 1024·n + p. -/
theorem stored_entry_z (adj : FVec Ideal S8192x8192 .f32) (s : FVec Ideal S8192x64 .f32) (b : FVec Ideal S64 .f32)
    (a0 a1 : Vec Ideal S1024x4096 .f32) (s0 s1 : Vec Ideal S4096x64 .f32) (x2 : Vec Ideal S64 .f32) (n : Nat)
    (ha0 : ∀ (p : Fin 1024) (k : Fin 4096) (r : Fin 8192), r.val = 1024 * n + p.val →
      a0 (ix2 p k) = adj (ix2 r (Cert.Sums.lo k)))
    (ha1 : ∀ (p : Fin 1024) (k : Fin 4096) (r : Fin 8192), r.val = 1024 * n + p.val →
      a1 (ix2 p k) = adj (ix2 r (Cert.Sums.hi k)))
    (hs0 : ∀ (k : Fin 4096) (q : Fin 64), s0 (ix2 k q) = s (ix2 (Cert.Sums.lo k) q))
    (hs1 : ∀ (k : Fin 4096) (q : Fin 64), s1 (ix2 k q) = s (ix2 (Cert.Sums.hi k) q))
    (h2 : ∀ y, x2 y = b y) (p : Fin 1024) (q : Fin 64) (r : Fin 8192) (hr : r.val = 1024 * n + p.val) :
    k2_pay3 (k2_pay2 s1 a1 (k2_pay2 s0 a0 (k2_pay1 (F := Ideal)))) x2 (ix2 p q) = Cert.Spec.z adj s b (ix2 r q) := by
  refine (Cert.KernelIdeal.Pay.pay2_fin (k2_pay2 s1 a1 (k2_pay2 s0 a0 (k2_pay1 (F := Ideal)))) x2 p q).trans ?_
  rw [Cert.KernelIdeal.Pay.pay2_acc s1 a1 (k2_pay2 s0 a0 (k2_pay1 (F := Ideal))) p q,
    Cert.KernelIdeal.Pay.pay2_acc s0 a0 (k2_pay1 (F := Ideal)) p q, Cert.KernelIdeal.Pay.pay2_init, h2]
  show ((0 + ∑ k : Fin 4096, a0 (ix2 p k) * s0 (ix2 k q)) + ∑ k : Fin 4096, a1 (ix2 p k) * s1 (ix2 k q)) + b (ix1 q)
    = (∑ k : Fin 8192, adj (ix2 r k) * s (ix2 k q)) + b (ix1 q)
  refine congrArg (fun a : EReal => a + b (ix1 q)) ?_
  exact Cert.Sums.acc_two_steps (fun k : Fin 8192 => adj (ix2 r k) * s (ix2 k q)) _ _
    (fun k => by rw [ha0 p k r hr, hs0]) (fun k => by rw [ha1 p k r hr, hs1])

/-- The same at any index `j` of the block and any index `g` of the array in the same column, 1024·n rows further down. -/
theorem stored_at_z (adj : FVec Ideal S8192x8192 .f32) (s : FVec Ideal S8192x64 .f32) (b : FVec Ideal S64 .f32)
    (a0 a1 : Vec Ideal S1024x4096 .f32) (s0 s1 : Vec Ideal S4096x64 .f32) (x2 : Vec Ideal S64 .f32) (n : Nat)
    (ha0 : ∀ (p : Fin 1024) (k : Fin 4096) (r : Fin 8192), r.val = 1024 * n + p.val →
      a0 (ix2 p k) = adj (ix2 r (Cert.Sums.lo k)))
    (ha1 : ∀ (p : Fin 1024) (k : Fin 4096) (r : Fin 8192), r.val = 1024 * n + p.val →
      a1 (ix2 p k) = adj (ix2 r (Cert.Sums.hi k)))
    (hs0 : ∀ (k : Fin 4096) (q : Fin 64), s0 (ix2 k q) = s (ix2 (Cert.Sums.lo k) q))
    (hs1 : ∀ (k : Fin 4096) (q : Fin 64), s1 (ix2 k q) = s (ix2 (Cert.Sums.hi k) q))
    (h2 : ∀ y, x2 y = b y) (j : S1024x64.Idx) (g : S8192x64.Idx)
    (hr : (g 0).val = 1024 * n + (j 0).val) (hs : (g 1).val = (j 1).val) :
    k2_pay3 (k2_pay2 s1 a1 (k2_pay2 s0 a0 (k2_pay1 (F := Ideal)))) x2 j = Cert.Spec.z adj s b g := by
  have hg : g = ix2 (g 0) (j 1) := (eq_ix2 g).trans (congrArg (ix2 (g 0)) (Fin.ext hs))
  rw [eq_ix2 j, hg]
  exact stored_entry_z adj s b a0 a1 s0 s1 x2 n ha0 ha1 hs0 hs1 h2 (j 0) (j 1) (g 0) hr

/-! ## The grid's coordinates and the windows' block indices, decided over the grid -/

/-- Point t is half t % 2 of row block t / 2. -/
theorem coords_facts2 : ∀ t : Fin cfg2.N, (grid2.coords t 0).val = t.val / 2 ∧ (grid2.coords t 1).val = t.val % 2 :=
  (by decide +kernel : ∀ t : Fin grid2.N, _)

/-- The window of adj is on block (t / 2, t % 2) at point t, the result's on block (t / 2, 0); t2 and the bias row
    stay on their one block. -/
theorem idx_facts2 : ∀ t : Fin cfg2.N, win2_0.index t (0 : Fin 2) = t.val / 2 ∧ win2_0.index t (1 : Fin 2) = t.val % 2
    ∧ win2_1.index t (0 : Fin 2) = 0 ∧ win2_1.index t (1 : Fin 2) = 0
    ∧ win2_2.index t (0 : Fin 1) = 0
    ∧ win2_3.index t (0 : Fin 2) = t.val / 2 ∧ win2_3.index t (1 : Fin 2) = 0 :=
  (by decide +kernel : ∀ t : Fin grid2.N, _)

/-- Every block of rows of the result is some second half's. -/
theorem idx_onto2 : ∀ (q0 : Fin 8), ∃ t : Fin cfg2.N, t.val % 2 = 1 ∧ win2_3.index t = ![q0.val, 0] :=
  (by decide +kernel : ∀ (q0 : Fin 8), ∃ t : Fin grid2.N, t.val % 2 = 1 ∧ win2_3.index t = ![q0.val, 0])

/-- The first window's block at point t is rows 1024·(t / 2) … and columns 4096·(t % 2) … of adj as the region found it. -/
theorem iblk2_0_apply (c : Dev nD) (t : Fin cfg2.N) (p : Fin 1024) (k : Fin 4096) (r m : Fin 8192)
    (hr : r.val = 1024 * (t.val / 2) + p.val) (hm : m.val = 4096 * (t.val % 2) + k.val) :
    iblk2 V c 0 t (ix2 p k) = V c main_arg1 (ix2 r m) := by
  show V c main_arg1 (((cfg2.win 0).blk t).view.emb (ix2 p k)) = V c main_arg1 (ix2 r m)
  obtain ⟨e0, e1, -⟩ := idx_facts2 t
  refine congrArg (V c main_arg1) (funext fun a => Fin.ext ?_)
  match a with
  | ⟨0, _⟩ => show win2_0.index t (0 : Fin 2) * 1024 + 1 * p.val = r.val; omega
  | ⟨1, _⟩ => show win2_0.index t (1 : Fin 2) * 4096 + 1 * k.val = m.val; omega
/-- The second window's block, at every point, is t2 as the region found it. -/
theorem iblk2_1_apply (c : Dev nD) (t : Fin cfg2.N) (y : S8192x64.Idx) : iblk2 V c 1 t y = V c main_v2 y := by
  show V c main_v2 (((cfg2.win 1).blk t).view.emb y) = V c main_v2 y
  obtain ⟨-, -, e0, e1, -⟩ := idx_facts2 t
  refine congrArg (V c main_v2) (funext fun a => Fin.ext ?_)
  match a with
  | ⟨0, _⟩ => show win2_1.index t (0 : Fin 2) * 8192 + 1 * (y 0).val = (y 0).val; omega
  | ⟨1, _⟩ => show win2_1.index t (1 : Fin 2) * 64 + 1 * (y 1).val = (y 1).val; omega
/-- The third window's block, at every point, is the bias row as the region found it. -/
theorem iblk2_2_apply (c : Dev nD) (t : Fin cfg2.N) (y : S64.Idx) : iblk2 V c 2 t y = V c main_arg5 y := by
  show V c main_arg5 (((cfg2.win 2).blk t).view.emb y) = V c main_arg5 y
  obtain ⟨-, -, -, -, e0, -⟩ := idx_facts2 t
  refine congrArg (V c main_arg5) (funext fun a => Fin.ext ?_)
  match a with
  | ⟨0, _⟩ => show win2_2.index t (0 : Fin 1) * 64 + 1 * (y 0).val = (y 0).val; omega

/-- The chunk of rows the body loads at the point with coordinates `i`, read at (k, q), is the buffer at
    (4096·i₁ + k, q). -/
theorem rows2_apply (x1 : Vec Ideal S8192x64 .f32) (i : grid2.Coords) (k : Fin 4096) (q : Fin 64) (m : Fin 8192)
    (hm : m.val = 4096 * (i 1).val + k.val) : View.ld x1 (r2_rows i) (ix2 k q) = x1 (ix2 m q) := by
  show x1 ((r2_rows i).emb (ix2 k q)) = x1 (ix2 m q)
  refine congrArg x1 (funext fun a => Fin.ext ?_)
  match a with
  | ⟨0, _⟩ =>
    show (k2_off1 i) 0 + 1 * k.val = m.val
    rw [k2_off1_eq i]; show 4096 * (i 1).val + 1 * k.val = m.val; omega
  | ⟨1, _⟩ =>
    show (k2_off1 i) 1 + 1 * q.val = q.val
    rw [k2_off1_eq i]; show 0 + 1 * q.val = q.val; omega

/-! ## What a second half writes back -/

/-- What a second half `t` writes back is block `t` of the product of adj and t2 with the bias added. -/
theorem flushed2_eq (c : Dev nD) (t : Fin cfg2.N) (ht : t.val % 2 = 1) :
    (dat2 V c).flushed 3 t
      = ((cfg2.win 3).blk t).view.read (Elt Ideal) (Cert.Spec.z (V c main_arg1) (V c main_v2) (V c main_arg5)) := by
  show (cfg2.win 3).cut (grid2.coords t) ((dat2 V c).after 3 t) = _
  rw [after2_3]
  unfold out2_last accAt2 acc2_first
  have hlt : t.val - 1 < cfg2.N := Nat.lt_of_le_of_lt (Nat.sub_le _ _) t.isLt
  obtain ⟨-, -, -, -, -, e0, e1⟩ := idx_facts2 t
  obtain ⟨-, ct1⟩ := coords_facts2 t
  obtain ⟨-, cs1⟩ := coords_facts2 ⟨t.val - 1, hlt⟩
  have hs1' : (grid2.coords ⟨t.val - 1, hlt⟩ 1).val = 0 := by rw [cs1]; show (t.val - 1) % 2 = 0; omega
  have ht1' : (grid2.coords t 1).val = 1 := by rw [ct1]; exact ht
  funext j
  show k2_pay3 (k2_pay2 (View.ld (iblk2 V c 1 t) (r2_rows (grid2.coords t))) (iblk2 V c 0 t)
        (k2_pay2 (View.ld (iblk2 V c 1 ⟨t.val - 1, hlt⟩) (r2_rows (grid2.coords ⟨t.val - 1, hlt⟩)))
          (iblk2 V c 0 ⟨t.val - 1, hlt⟩) (k2_pay1 (F := Ideal)))) (iblk2 V c 2 t) j
    = Cert.Spec.z (V c main_arg1) (V c main_v2) (V c main_arg5) (((cfg2.win 3).blk t).view.emb j)
  refine stored_at_z (V c main_arg1) (V c main_v2) (V c main_arg5) (iblk2 V c 0 ⟨t.val - 1, hlt⟩) (iblk2 V c 0 t)
    (View.ld (iblk2 V c 1 ⟨t.val - 1, hlt⟩) (r2_rows (grid2.coords ⟨t.val - 1, hlt⟩)))
    (View.ld (iblk2 V c 1 t) (r2_rows (grid2.coords t))) (iblk2 V c 2 t) (t.val / 2)
    (fun p k r hr => iblk2_0_apply V c ⟨t.val - 1, hlt⟩ p k r (Cert.Sums.lo k)
      (by show r.val = 1024 * ((t.val - 1) / 2) + p.val; omega)
      (by show k.val = 4096 * ((t.val - 1) % 2) + k.val; omega))
    (fun p k r hr => iblk2_0_apply V c t p k r (Cert.Sums.hi k) hr
      (by show 4096 + k.val = 4096 * (t.val % 2) + k.val; omega))
    (fun k q => (rows2_apply (iblk2 V c 1 ⟨t.val - 1, hlt⟩) (grid2.coords ⟨t.val - 1, hlt⟩) k q (Cert.Sums.lo k)
      (by show k.val = 4096 * (grid2.coords ⟨t.val - 1, hlt⟩ 1).val + k.val; omega)).trans (iblk2_1_apply V c _ _))
    (fun k q => (rows2_apply (iblk2 V c 1 t) (grid2.coords t) k q (Cert.Sums.hi k)
      (by show 4096 + k.val = 4096 * (grid2.coords t 1).val + k.val; omega)).trans (iblk2_1_apply V c _ _))
    (iblk2_2_apply V c t) j (((cfg2.win 3).blk t).view.emb j) ?_ ?_
  · show win2_3.index t (0 : Fin 2) * 1024 + 1 * (j 0).val = 1024 * (t.val / 2) + (j 0).val; omega
  · show win2_3.index t (1 : Fin 2) * 64 + 1 * (j 1).val = (j 1).val; omega

/-! ## From the blocks to the array -/

/-- An index of the array is in point `t`'s block iff each coordinate is in the block's range on its axis. -/
theorem mem_blk2 (t : Fin cfg2.N) (i : S8192x64.Idx) :
    i ∈ ((cfg2.win 3).blk t).view.set ↔ ∀ a : Fin 2, win2_3.index t a * S1024x64.size a ≤ (i a).val ∧ (i a).val < win2_3.index t a * S1024x64.size a + S1024x64.size a := by
  show i ∈ ((View.whole main_v3).slice (win2_3.rect t)).set ↔ _
  rw [View.set_slice_whole, Rect.mem_set_unit]
  exact Iff.rfl

/-- Every entry of the array is in the block written back after the second half of row block (row / 1024). -/
theorem cover2 (i : S8192x64.Idx) : ∃ t : Fin cfg2.N, (cfg2.win 3).flush t = true ∧ i ∈ ((cfg2.win 3).blk t).view.set := by
  have hi0 : (i 0).val < 8192 := (i 0).isLt
  have hi1 : (i 1).val < 64 := (i 1).isLt
  obtain ⟨t, hodd, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, (flush2_3 t).mpr hodd, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 64 ≤ (i 1).val ∧ (i 1).val < win2_3.index t (1 : Fin 2) * 64 + 64; omega

/-- The result's array after the region: the product of adj and t2 with the bias row added, everywhere. -/
theorem final2 (c : Dev nD) :
    (dat2 V c).arrAt 3 cfg2.N = Cert.Spec.z (V c main_arg1) (V c main_v2) (V c main_arg5) :=
  (dat2 V c).arrAt_eq_of_cover 3 _ (fun t hf => flushed2_eq V c t ((flush2_3 t).mp hf)) cover2

end Cert.KernelIdeal.HandValue

end
-- ==== Proof.Reg3Value.lean ====
/-
  What the decode leaves in the result's array: the logistic function of z · zᵀ, entry by entry, on the extended
  reals.

  At the grid point (i, j) the two input buffers hold all of z; the body cuts rows 2048·i … out of the first and rows
  2048·j … out of the second, and stores the logistic function of their rows-against-rows product.  Entry (p, q) of
  the stored block is therefore the logistic function of the inner product of rows 2048·i + p and 2048·j + q of z —
  which is entry (2048·i + p, 2048·j + q) of the decode of z, exactly the entry of the result's array that the
  write-back of this point puts it in.  The sixteen blocks tile the array (the point that covers entry (r, s) is
  (r / 2048, s / 2048)), so after the last point the array is the decode of z everywhere.
-/
import proofs.«129237_j28346784154172_2_alg».proof.Proof.Reg3
import proofs.«129237_j28346784154172_2_alg».proof.Proof.Spec
import proofs.«129237_j28346784154172_2_alg».proof.Proof.Payloads
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the core's buffer contents when the region is entered, at the extended reals
variable (V : (c : Dev nD) → (b : Ref sig .tc) → Buf (Elt Ideal) ((c : Thread nD τ).loc b))

theorem zero_off : (![0, 0] : Fin 2 → Nat) = fun _ => 0 := funext fun a => by fin_cases a <;> rfl

/-! ## One entry of the block a point stores -/

/-- Entry (p, q) of a stored block, from the two row blocks `v5` and `v8` the body loaded: if row p of the first is
    row r of `z` and row q of the second is row s of `z`, it is the decode of `z` at (r, s). -/
theorem stored_entry (z : FVec Ideal S8192x64 .f32) (v5 v8 : Vec Ideal S2048x64 .f32) (p q : Fin 2048) (r s : Fin 8192)
    (h5 : ∀ k : Fin 64, v5 (ix2 p k) = z (ix2 r k)) (h8 : ∀ k : Fin 64, v8 (ix2 q k) = z (ix2 s k)) :
    k3_pay1 v5 v8 (ix2 p q) = Cert.Spec.dec z (ix2 r s) := by
  refine (Cert.KernelIdeal.Pay.pay3 v5 v8 p q).trans ?_
  unfold Cert.Spec.dec
  refine congrArg Ideal.logistic (Finset.sum_congr rfl fun k _ => ?_)
  rw [h5, h8]

/-- The first row block the body loads at the point with coordinates `i`, off a buffer holding `z`: its row p is row
    2048·i₀ + p of `z`. -/
theorem rows_first (z : FVec Ideal S8192x64 .f32) (x0 : Vec Ideal S8192x64 .f32) (h0 : ∀ y, x0 y = z y) (i : grid3.Coords) (p : Fin 2048) (r : Fin 8192)
    (hr : r.val = 2048 * (i 0).val + p.val) (k : Fin 64) :
    (View.ld x0 (r3_0 i) : Vec Ideal S2048x64 .f32) (ix2 p k) = z (ix2 r k) := by
  show x0 ((r3_0 i).emb (ix2 p k)) = z (ix2 r k)
  rw [h0]
  refine congrArg z (funext fun a => Fin.ext ?_)
  match a with
  | ⟨0, _⟩ =>
    show (k3_off1 i) 0 + 1 * p.val = r.val
    rw [k3_off1_eq i]; show 2048 * (i 0).val + 1 * p.val = r.val; omega
  | ⟨1, _⟩ =>
    show (k3_off1 i) 1 + 1 * k.val = k.val
    rw [k3_off1_eq i]; show 0 + 1 * k.val = k.val; omega

/-- The second row block: its row q is row 2048·i₁ + q of `z`. -/
theorem rows_second (z : FVec Ideal S8192x64 .f32) (x1 : Vec Ideal S8192x64 .f32) (h1 : ∀ y, x1 y = z y) (i : grid3.Coords) (q : Fin 2048) (s : Fin 8192)
    (hs : s.val = 2048 * (i 1).val + q.val) (k : Fin 64) :
    (View.ld x1 (r3_1 i) : Vec Ideal S2048x64 .f32) (ix2 q k) = z (ix2 s k) := by
  show x1 ((r3_1 i).emb (ix2 q k)) = z (ix2 s k)
  rw [h1]
  refine congrArg z (funext fun a => Fin.ext ?_)
  match a with
  | ⟨0, _⟩ =>
    show (k3_off2 i) 0 + 1 * q.val = s.val
    rw [k3_off2_eq i]; show 2048 * (i 1).val + 1 * q.val = s.val; omega
  | ⟨1, _⟩ =>
    show (k3_off2 i) 1 + 1 * k.val = k.val
    rw [k3_off2_eq i]; show 0 + 1 * k.val = k.val; omega

/-- The block stored at the point with coordinates `i`, the two buffers holding `z`, at any index `j` of the block:
    the decode of `z` at any index `g` of the array whose coordinates are the block's offsets plus `j`'s. -/
theorem stored_at (z : FVec Ideal S8192x64 .f32) (x0 x1 : Vec Ideal S8192x64 .f32) (h0 : ∀ y, x0 y = z y) (h1 : ∀ y, x1 y = z y)
    (i : grid3.Coords) (j : S2048x2048.Idx) (g : S8192x8192.Idx)
    (hr : (g 0).val = 2048 * (i 0).val + (j 0).val) (hs : (g 1).val = 2048 * (i 1).val + (j 1).val) :
    k3_pay1 (View.ld x0 (r3_0 i)) (View.ld x1 (r3_1 i)) j = Cert.Spec.dec z g := by
  obtain ⟨p, q, rfl⟩ : ∃ (p q : Fin 2048), j = ix2 p q := ⟨j 0, j 1, eq_ix2 j⟩
  obtain ⟨r, s, rfl⟩ : ∃ (r s : Fin 8192), g = ix2 r s := ⟨g 0, g 1, eq_ix2 g⟩
  have hr' : r.val = 2048 * (i 0).val + p.val := hr
  have hs' : s.val = 2048 * (i 1).val + q.val := hs
  have e5 := rows_first z x0 h0 i p r hr'
  have e8 := rows_second z x1 h1 i q s hs'
  generalize (View.ld x0 (r3_0 i) : Vec Ideal S2048x64 .f32) = v5 at e5 ⊢
  generalize (View.ld x1 (r3_1 i) : Vec Ideal S2048x64 .f32) = v8 at e8 ⊢
  exact stored_entry z v5 v8 p q r s e5 e8

/-! ## The windows' block indices, decided over the grid -/

/-- Both input windows stay on block (0, 0), the whole array; the result's window is on block (i, j) at the point
    (i, j). -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = (grid3.coords t 0).val ∧ win3_2.index t (1 : Fin 2) = (grid3.coords t 1).val :=
  (by decide +kernel : ∀ t : Fin grid3.N, _)

/-- Every block of the result is some point's. -/
theorem idx_onto3 : ∀ (q0 : Fin 4) (q1 : Fin 4), ∃ t : Fin cfg3.N, win3_2.index t = ![q0.val, q1.val] :=
  (by decide +kernel : ∀ (q0 : Fin 4) (q1 : Fin 4), ∃ t : Fin grid3.N, win3_2.index t = ![q0.val, q1.val])

/-- An input window's block, at every point, is z as the region found it. -/
theorem iblk3_0_apply (c : Dev nD) (t : Fin cfg3.N) (y : S8192x64.Idx) : iblk3 V c 0 t y = V c main_v3 y := by
  show V c main_v3 (((cfg3.win 0).blk t).view.emb y) = V c main_v3 y
  obtain ⟨e0, e1, -⟩ := idx_facts3 t
  refine congrArg (V c main_v3) (funext fun a => Fin.ext ?_)
  match a with
  | ⟨0, _⟩ => show win3_0.index t (0 : Fin 2) * 8192 + 1 * (y 0).val = (y 0).val; omega
  | ⟨1, _⟩ => show win3_0.index t (1 : Fin 2) * 64 + 1 * (y 1).val = (y 1).val; omega
theorem iblk3_1_apply (c : Dev nD) (t : Fin cfg3.N) (y : S8192x64.Idx) : iblk3 V c 1 t y = V c main_v3 y := by
  show V c main_v3 (((cfg3.win 1).blk t).view.emb y) = V c main_v3 y
  obtain ⟨-, -, e0, e1, -⟩ := idx_facts3 t
  refine congrArg (V c main_v3) (funext fun a => Fin.ext ?_)
  match a with
  | ⟨0, _⟩ => show win3_1.index t (0 : Fin 2) * 8192 + 1 * (y 0).val = (y 0).val; omega
  | ⟨1, _⟩ => show win3_1.index t (1 : Fin 2) * 64 + 1 * (y 1).val = (y 1).val; omega

/-! ## What a point writes back -/

/-- What point `t` writes back is block `t` of the decode of z. -/
theorem flushed3_eq (c : Dev nD) (t : Fin cfg3.N) :
    (dat3 V c).flushed 2 t = ((cfg3.win 2).blk t).view.read (Elt Ideal) (Cert.Spec.dec (V c main_v3)) := by
  show (cfg3.win 2).cut (grid3.coords t) ((dat3 V c).after 2 t) = _
  rw [after3_2]
  unfold out3_2
  rw [View.canon_unit_zero zero_off]
  obtain ⟨-, -, -, -, e0, e1⟩ := idx_facts3 t
  funext j
  show k3_pay1 (View.ld (iblk3 V c 0 t) (r3_0 (grid3.coords t))) (View.ld (iblk3 V c 1 t) (r3_1 (grid3.coords t))) j
    = Cert.Spec.dec (V c main_v3) (((cfg3.win 2).blk t).view.emb j)
  refine stored_at (V c main_v3) (iblk3 V c 0 t) (iblk3 V c 1 t) (iblk3_0_apply V c t) (iblk3_1_apply V c t)
    (grid3.coords t) j (((cfg3.win 2).blk t).view.emb j) ?_ ?_
  · show win3_2.index t (0 : Fin 2) * 2048 + 1 * (j 0).val = 2048 * (grid3.coords t 0).val + (j 0).val; omega
  · show win3_2.index t (1 : Fin 2) * 2048 + 1 * (j 1).val = 2048 * (grid3.coords t 1).val + (j 1).val; omega

/-! ## From the blocks to the array -/

/-- An index of the array is in point `t`'s block iff each coordinate is in the block's range on its axis. -/
theorem mem_blk3 (t : Fin cfg3.N) (i : S8192x8192.Idx) :
    i ∈ ((cfg3.win 2).blk t).view.set ↔ ∀ a : Fin 2, win3_2.index t a * S2048x2048.size a ≤ (i a).val ∧ (i a).val < win3_2.index t a * S2048x2048.size a + S2048x2048.size a := by
  show i ∈ ((View.whole main_v4).slice (win3_2.rect t)).set ↔ _
  rw [View.set_slice_whole, Rect.mem_set_unit]
  exact Iff.rfl

/-- Every entry of the array is in the block of the point (row / 2048, column / 2048). -/
theorem cover3 (i : S8192x8192.Idx) : ∃ t : Fin cfg3.N, (cfg3.win 2).flush t = true ∧ i ∈ ((cfg3.win 2).blk t).view.set := by
  have hi0 : (i 0).val < 8192 := (i 0).isLt
  have hi1 : (i 1).val < 8192 := (i 1).isLt
  obtain ⟨t, ht⟩ := idx_onto3 ⟨(i 0).val / 2048, by omega⟩ ⟨(i 1).val / 2048, by omega⟩
  have q0 : win3_2.index t (0 : Fin 2) = (i 0).val / 2048 := congrFun ht 0
  have q1 : win3_2.index t (1 : Fin 2) = (i 1).val / 2048 := congrFun ht 1
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 2048 ≤ (i 1).val ∧ (i 1).val < win3_2.index t (1 : Fin 2) * 2048 + 2048; omega

/-- The result's array after the region: the decode of z as the region found it. -/
theorem final3 (c : Dev nD) : (dat3 V c).arrAt 2 cfg3.N = Cert.Spec.dec (V c main_v3) :=
  (dat3 V c).arrAt_eq_of_cover 2 (Cert.Spec.dec (V c main_v3)) (fun t _ => flushed3_eq V c t) cover3

end Cert.KernelIdeal.HandValue

end
-- ==== Proof.RunValue.lean ====
/-
  The result array, read back through the four regions to the launch memory.

  After the decode region the result array holds the decode of the embeddings array as that region found it; that
  array is what the third region's write-backs left: adj · t2 + b2 of the arrays IT found; and so on back to the first
  region, whose bias row — written by the host stretch before it — is zero, so that its result is the plain product
  x · W1.  Every argument array still holds its launch contents at every boundary.  Composing the four: the result is
  the specification's function of the six argument arrays.
-/
import proofs.«129237_j28346784154172_2_alg».proof.Proof.Run
import proofs.«129237_j28346784154172_2_alg».proof.Proof.Reg0Value
import proofs.«129237_j28346784154172_2_alg».proof.Proof.Reg1Value
import proofs.«129237_j28346784154172_2_alg».proof.Proof.Reg2Value
import proofs.«129237_j28346784154172_2_alg».proof.Proof.Reg3Value
import proofs.«129237_j28346784154172_2_alg».proof.Proof.Spec
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region's bias row, as the host stretch leaves it: zero at every entry. -/
theorem bias_zero (c : Dev nD) (j : S256.Idx) : (V1 m ρ c main_v0 : S256.Idx → EReal) j = (0 : EReal) := by
  have e : (V1 m ρ c main_v0 : S256.Idx → EReal)
      = broadcastInDim S256 ![] bcast_S_S256 (constant (F := Ideal) S_ .f32 0x00000000#32) := by
    dsimp only [V1, W1, hostOps0]; after_results <;> rfl
  rw [e]
  show Ideal.ofBits .f32 0x00000000#32 = (0 : EReal)
  exact Ideal.ofBits_zero_f32

/-- After the first region its result array holds x · W1. -/
theorem t1_val (c : Dev nD) : V2 m ρ c main_v1 = Cert.Spec.t1 (m ((c : Thread nD τ).loc main_arg0)) (m ((c : Thread nD τ).loc main_arg2)) := by
  have h : V2 m ρ c main_v1 = (dat0 (V1 m ρ) c).arrAt 3 cfg0.N := W2_arr m ρ c 3
  rw [h, final0 (V1 m ρ) c, show V1 m ρ c main_arg0 = _ from W1_main_arg0 m ρ c, show V1 m ρ c main_arg2 = _ from W1_main_arg2 m ρ c]
  exact Cert.Spec.affine_zero _ _ _ (bias_zero m ρ c)

/-- After the second region its result array holds max (adj · t1 + b1) 0 · W2. -/
theorem t2_val (c : Dev nD) : V3 m ρ c main_v2
    = Cert.Spec.t2 (m ((c : Thread nD τ).loc main_arg1)) (Cert.Spec.t1 (m ((c : Thread nD τ).loc main_arg0)) (m ((c : Thread nD τ).loc main_arg2))) (m ((c : Thread nD τ).loc main_arg3)) (m ((c : Thread nD τ).loc main_arg4)) := by
  have h : V3 m ρ c main_v2 = (dat1 (V2 m ρ) c).arrAt 4 cfg1.N := W3_arr m ρ c 4
  rw [h, final1 (V2 m ρ) c, show V2 m ρ c main_arg1 = _ from W2_main_arg1 m ρ c, t1_val m ρ c,
    show V2 m ρ c main_arg3 = _ from W2_main_arg3 m ρ c, show V2 m ρ c main_arg4 = _ from W2_main_arg4 m ρ c]

/-- After the third region its result array holds the embeddings adj · t2 + b2. -/
theorem z_val (c : Dev nD) : V4 m ρ c main_v3
    = Cert.Spec.z (m ((c : Thread nD τ).loc main_arg1)) (Cert.Spec.t2 (m ((c : Thread nD τ).loc main_arg1)) (Cert.Spec.t1 (m ((c : Thread nD τ).loc main_arg0)) (m ((c : Thread nD τ).loc main_arg2))) (m ((c : Thread nD τ).loc main_arg3)) (m ((c : Thread nD τ).loc main_arg4))) (m ((c : Thread nD τ).loc main_arg5)) := by
  have h : V4 m ρ c main_v3 = (dat2 (V3 m ρ) c).arrAt 3 cfg2.N := W4_arr m ρ c 3
  rw [h, final2 (V3 m ρ) c, show V3 m ρ c main_arg1 = _ from W3_main_arg1 m ρ c, t2_val m ρ c,
    show V3 m ρ c main_arg5 = _ from W3_main_arg5 m ρ c]

/-- After the last region the result array holds the specification's function of the six argument arrays. -/
theorem out_val (c : Dev nD) : V5 m ρ c main_v4
    = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : V5 m ρ c main_v4 = (dat3 (V4 m ρ) c).arrAt 2 cfg3.N := W5_out m ρ c
  rw [h, final3 (V4 m ρ) c, z_val m ρ c]
  rfl

/-- The idealized kernel's run with its result named: every weakly fair execution terminates, the result array at
    the specification's function of the launch contents of the arguments, the arguments unchanged. -/
theorem run_value : θ_run defs (onTc (τ := τ) (main (F := Ideal))) ⟨m, fun _ => 0, ρ⟩ (fun r => ∀ c : Dev nD,
      r.2.mem ((c.tc : Thread nD τ).loc main_v4)
        = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_val m ρ c), (h c).2⟩) (run_main m ρ)

end Cert.KernelIdeal.HandValue

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.RefIsSpec.lean ====
/-
  The reference program computes the specification.

  Read one operation at a time, the reference is: the product of the features and the first weights; the product of
  the adjacency with that, plus the first bias repeated down the rows, clamped below at zero (the clamp is a maximum
  against a constant whose word is the zero word); the product of that with the second weights; the product of the
  adjacency with that, plus the second bias; and, of these embeddings z, the quotient 1 / (1 + exp (−(z · zᵀ))), the
  ones given by the word of the number one, which is the logistic function of z · zᵀ.  The reference forms zᵀ by a
  transposition, so entry (r, c) of z · zᵀ is the sum over k of z (r, k) · z (c, k).

  Each stage is identified with the specification's stage, entry by entry; only the index functions have to be
  matched, and a sum's terms compared one by one.
-/
import proofs.«129237_j28346784154172_2_alg».proof.Proof.Gen.ReferenceIdeal.Read
import proofs.«129237_j28346784154172_2_alg».proof.Proof.Spec
import proofs.«129237_j28346784154172_2_alg».proof.Proof.LibSigmoid

noncomputable section

open scoped BigOperators

namespace Cert.ReferenceIdeal.RefValue

open Cert.ReferenceIdeal Cert.ReferenceIdeal.Read Idealize.ShloMosaic Idealize.ShloMosaic.ValueIdx

/-! ## The index functions of the products, the broadcasts and the transposition, at a row and a column -/

theorem lidx0 (r : Fin 8192) (c : Fin 256) (k : Fin 512) : lidx_main_v0 (ix2 r c) k = ix2 r k :=
  funext fun a => by
    match a with
    | ⟨0, _⟩ => rfl
    | ⟨1, _⟩ => rfl
theorem ridx0 (r : Fin 8192) (c : Fin 256) (k : Fin 512) : ridx_main_v0 (ix2 r c) k = ix2 k c :=
  funext fun a => by
    match a with
    | ⟨0, _⟩ => rfl
    | ⟨1, _⟩ => rfl
theorem lidx1 (r : Fin 8192) (c : Fin 256) (k : Fin 8192) : lidx_main_v1 (ix2 r c) k = ix2 r k :=
  funext fun a => by
    match a with
    | ⟨0, _⟩ => rfl
    | ⟨1, _⟩ => rfl
theorem ridx1 (r : Fin 8192) (c : Fin 256) (k : Fin 8192) : ridx_main_v1 (ix2 r c) k = ix2 k c :=
  funext fun a => by
    match a with
    | ⟨0, _⟩ => rfl
    | ⟨1, _⟩ => rfl
theorem idx23 (r : Fin 8192) (c : Fin 256) : idx_main_v2 (idx_main_v3 (ix2 r c)) = ix1 c :=
  funext fun a => by
    match a with
    | ⟨0, _⟩ => rfl
theorem lidx6 (r : Fin 8192) (c : Fin 64) (k : Fin 256) : lidx_main_v6 (ix2 r c) k = ix2 r k :=
  funext fun a => by
    match a with
    | ⟨0, _⟩ => rfl
    | ⟨1, _⟩ => rfl
theorem ridx6 (r : Fin 8192) (c : Fin 64) (k : Fin 256) : ridx_main_v6 (ix2 r c) k = ix2 k c :=
  funext fun a => by
    match a with
    | ⟨0, _⟩ => rfl
    | ⟨1, _⟩ => rfl
theorem lidx7 (r : Fin 8192) (c : Fin 64) (k : Fin 8192) : lidx_main_v7 (ix2 r c) k = ix2 r k :=
  funext fun a => by
    match a with
    | ⟨0, _⟩ => rfl
    | ⟨1, _⟩ => rfl
theorem ridx7 (r : Fin 8192) (c : Fin 64) (k : Fin 8192) : ridx_main_v7 (ix2 r c) k = ix2 k c :=
  funext fun a => by
    match a with
    | ⟨0, _⟩ => rfl
    | ⟨1, _⟩ => rfl
theorem idx89 (r : Fin 8192) (c : Fin 64) : idx_main_v8 (idx_main_v9 (ix2 r c)) = ix1 c :=
  funext fun a => by
    match a with
    | ⟨0, _⟩ => rfl
theorem lidx12 (r c : Fin 8192) (k : Fin 64) : lidx_main_v12 (ix2 r c) k = ix2 r k :=
  funext fun a => by
    match a with
    | ⟨0, _⟩ => rfl
    | ⟨1, _⟩ => rfl
/-- The transposed embeddings at (k, c) are the embeddings at (c, k). -/
theorem ridx12 (r c : Fin 8192) (k : Fin 64) : idx_main_v11 (ridx_main_v12 (ix2 r c) k) = ix2 c k :=
  funext fun a => by
    match a with
    | ⟨0, _⟩ => rfl
    | ⟨1, _⟩ => rfl

/-! ## The stages -/

/-- The first product is the first layer's feature transform. -/
theorem t1_eq (x0 : (⟨S8192x512, .f32⟩ : BufTy).Contents (Elt Ideal)) (x2 : (⟨S512x256, .f32⟩ : BufTy).Contents (Elt Ideal)) :
    val_main_v0 (F := Ideal) x0 x2 = Cert.Spec.t1 x0 x2 := by
  funext i
  obtain ⟨r, c, rfl⟩ : ∃ (r : Fin 8192) (c : Fin 256), i = ix2 r c := ⟨i 0, i 1, eq_ix2 i⟩
  rw [val_main_v0_apply]
  show _ = ∑ k : Fin 512, x0 (ix2 r k) * x2 (ix2 k c)
  exact Finset.sum_congr rfl fun k _ => by rw [lidx0, ridx0]

/-- The clamped sum of the aggregated features and the bias is the hidden layer. -/
theorem hid_eq (x0 : (⟨S8192x512, .f32⟩ : BufTy).Contents (Elt Ideal)) (x1 : (⟨S8192x8192, .f32⟩ : BufTy).Contents (Elt Ideal)) (x2 : (⟨S512x256, .f32⟩ : BufTy).Contents (Elt Ideal)) (x3 : (⟨S256, .f32⟩ : BufTy).Contents (Elt Ideal)) :
    val_main_v5 (F := Ideal) x0 x1 x2 x3 = Cert.Spec.hid x1 (Cert.Spec.t1 x0 x2) x3 := by
  funext i
  obtain ⟨r, c, rfl⟩ : ∃ (r : Fin 8192) (c : Fin 256), i = ix2 r c := ⟨i 0, i 1, eq_ix2 i⟩
  rw [val_main_v5_apply, val_main_v4_apply, val_main_v1_apply, val_main_v3_apply, val_main_v2_apply,
    val_main_call0_v0_apply, val_main_call0_cst_apply, t1_eq, idx23]
  generalize Cert.Spec.t1 x0 x2 = t
  show max ((∑ k : Fin 8192, x1 (lidx_main_v1 (ix2 r c) k) * t (ridx_main_v1 (ix2 r c) k)) + x3 (ix1 c))
      (Ideal.ofBits .f32 0x00000000#32)
    = max ((∑ k : Fin 8192, x1 (ix2 r k) * t (ix2 k c)) + x3 (ix1 c)) 0
  rw [Ideal.ofBits_zero_f32]
  refine congrArg (fun s : EReal => max (s + x3 (ix1 c)) 0) ?_
  exact Finset.sum_congr rfl fun k _ => by rw [lidx1, ridx1]

/-- The product of the hidden layer with the second weights is the second layer's feature transform. -/
theorem t2_eq (x0 : (⟨S8192x512, .f32⟩ : BufTy).Contents (Elt Ideal)) (x1 : (⟨S8192x8192, .f32⟩ : BufTy).Contents (Elt Ideal)) (x2 : (⟨S512x256, .f32⟩ : BufTy).Contents (Elt Ideal)) (x3 : (⟨S256, .f32⟩ : BufTy).Contents (Elt Ideal)) (x4 : (⟨S256x64, .f32⟩ : BufTy).Contents (Elt Ideal)) :
    val_main_v6 (F := Ideal) x0 x1 x2 x3 x4 = Cert.Spec.t2 x1 (Cert.Spec.t1 x0 x2) x3 x4 := by
  funext i
  obtain ⟨r, c, rfl⟩ : ∃ (r : Fin 8192) (c : Fin 64), i = ix2 r c := ⟨i 0, i 1, eq_ix2 i⟩
  rw [val_main_v6_apply, hid_eq]
  show _ = ∑ k : Fin 256, Cert.Spec.hid x1 (Cert.Spec.t1 x0 x2) x3 (ix2 r k) * x4 (ix2 k c)
  exact Finset.sum_congr rfl fun k _ => by rw [lidx6, ridx6]

/-- The aggregated second-layer features plus the bias are the embeddings. -/
theorem z_eq (x0 : (⟨S8192x512, .f32⟩ : BufTy).Contents (Elt Ideal)) (x1 : (⟨S8192x8192, .f32⟩ : BufTy).Contents (Elt Ideal)) (x2 : (⟨S512x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) :
    val_main_v10 (F := Ideal) x0 x1 x2 x3 x4 x5
      = Cert.Spec.z x1 (Cert.Spec.t2 x1 (Cert.Spec.t1 x0 x2) x3 x4) x5 := by
  funext i
  obtain ⟨r, c, rfl⟩ : ∃ (r : Fin 8192) (c : Fin 64), i = ix2 r c := ⟨i 0, i 1, eq_ix2 i⟩
  rw [val_main_v10_apply, val_main_v7_apply, val_main_v9_apply, val_main_v8_apply, t2_eq, idx89]
  generalize Cert.Spec.t2 x1 (Cert.Spec.t1 x0 x2) x3 x4 = s
  show (∑ k : Fin 8192, x1 (lidx_main_v7 (ix2 r c) k) * s (ridx_main_v7 (ix2 r c) k)) + x5 (ix1 c)
    = (∑ k : Fin 8192, x1 (ix2 r k) * s (ix2 k c)) + x5 (ix1 c)
  refine congrArg (fun a : EReal => a + x5 (ix1 c)) ?_
  exact Finset.sum_congr rfl fun k _ => by rw [lidx7, ridx7]

/-- One over one plus the exponential of the negated product of the embeddings with their transpose is the decode. -/
theorem ref_eq (x0 : (⟨S8192x512, .f32⟩ : BufTy).Contents (Elt Ideal)) (x1 : (⟨S8192x8192, .f32⟩ : BufTy).Contents (Elt Ideal)) (x2 : (⟨S512x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) :
    val_main_v18 (F := Ideal) x0 x1 x2 x3 x4 x5 = Cert.Spec.out x0 x1 x2 x3 x4 x5 := by
  funext i
  obtain ⟨r, c, rfl⟩ : ∃ (r : Fin 8192) (c : Fin 8192), i = ix2 r c := ⟨i 0, i 1, eq_ix2 i⟩
  rw [val_main_v18_apply, val_main_v17_apply, val_main_cst_0_apply, val_main_v16_apply, val_main_v15_apply,
    val_main_cst_apply, val_main_v14_apply, val_main_v13_apply, val_main_v12_apply]
  have hs : (∑ k : Fin 64, val_main_v10 (F := Ideal) x0 x1 x2 x3 x4 x5 (lidx_main_v12 (ix2 r c) k)
        * val_main_v11 (F := Ideal) x0 x1 x2 x3 x4 x5 (ridx_main_v12 (ix2 r c) k))
      = ∑ k : Fin 64, Cert.Spec.z x1 (Cert.Spec.t2 x1 (Cert.Spec.t1 x0 x2) x3 x4) x5 (ix2 r k)
        * Cert.Spec.z x1 (Cert.Spec.t2 x1 (Cert.Spec.t1 x0 x2) x3 x4) x5 (ix2 c k) :=
    Finset.sum_congr rfl fun k _ => by rw [val_main_v11_apply, z_eq, lidx12, ridx12]
  rw [hs]
  exact Cert.GruLib.div_one_add_exp_neg _

end Cert.ReferenceIdeal.RefValue

end
-- ==== Proof.lean ====
/-
  A two-layer graph convolution with a dot-product decode, computed by four tiled kernels, against the same function
  written with whole-array operations.

  With x the node features, adj the adjacency, W1, b1, W2, b2 the two layers' weights and biases, both programs
  compute logistic (z · zᵀ) where z = adj · (max (adj · (x · W1) + b1) 0 · W2) + b2.  The kernels differ from the
  whole-array program only in how the work is cut up: the first multiplies 2048 rows of x at a time and adds a row of
  zeros; the second and third walk adj in blocks of 1024 rows by 4096 columns, accumulating the two column halves of
  each row block in a scratch buffer that is zeroed at the first half and finished (bias, clamp and the product with
  W2; or just the bias) at the second; the fourth computes the decode in 2048 × 2048 blocks.  They also narrow some
  operands to a shorter float format before multiplying, which on the extended reals is the identity.

  On the extended reals a sum over 8192 indices is the sum of its two halves and adding zero changes nothing — laws of
  a commutative monoid, which need no finiteness — and one over (one plus the exponential of minus s), the reference's
  spelling of the decode, is the logistic function of s.  So the two results are equal entry by entry for ALL
  contents of the arguments; the finiteness precondition is not used.

  The three frame claims: each kernel program runs through its host stretch and its four regions, every region
  entered from and left at a state holding every unscoped buffer at a known valuation, and no segment writes an
  argument; the reference is a straight line of host operations.  The idealization rewrote nothing, so the kernel
  program read on the extended reals is its own idealization.
-/
import proofs.«129237_j28346784154172_2_alg».proof.Defs
import proofs.«129237_j28346784154172_2_alg».proof.Proof.Gen.Kernel
import proofs.«129237_j28346784154172_2_alg».proof.Proof.Gen.KernelIdeal
import proofs.«129237_j28346784154172_2_alg».proof.Proof.Gen.ReferenceIdeal
import proofs.«129237_j28346784154172_2_alg».proof.Proof.Gen.Pre_finite_inputs
import proofs.«129237_j28346784154172_2_alg».proof.Proof.Gen.ReferenceIdeal.Read
import proofs.«129237_j28346784154172_2_alg».proof.Proof.RunW
import proofs.«129237_j28346784154172_2_alg».proof.Proof.RunValue
import proofs.«129237_j28346784154172_2_alg».proof.Proof.RefIsSpec

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main m ρ)

/-- So does the same program read on the extended reals. -/
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main m ρ)

/-- The reference is a line of host operations: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the kernels' result array and the reference's both end at the specification's function of
    the six argument arrays, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.HandValue.run_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v18_eq, Cert.ReferenceIdeal.RefValue.ref_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
